-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x6144 : Shape := ⟨2, ![16384, 6144]⟩
abbrev S16384x128 : Shape := ⟨2, ![16384, 128]⟩
abbrev S6144x128 : Shape := ⟨2, ![6144, 128]⟩
abbrev S128x6144 : Shape := ⟨2, ![128, 6144]⟩
abbrev S128 : Shape := ⟨1, ![128]⟩
abbrev S128x1 : Shape := ⟨2, ![128, 1]⟩
abbrev S_ : Shape := ⟨0, ![]⟩

class Facts : Prop where
  bcast_S_S16384x6144 : S_.BroadcastsInDim S16384x6144 (![] : Fin 0 → Fin S16384x6144.rank)
  reducesTo_S16384x6144_S_d0_1 : S16384x6144.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S6144x128 : S_.BroadcastsInDim S6144x128 (![] : Fin 0 → Fin S6144x128.rank)
  reducesTo_S6144x128_S_d0_1 : S6144x128.ReducesTo [0, 1] S_
  bcast_S_S128x6144 : S_.BroadcastsInDim S128x6144 (![] : Fin 0 → Fin S128x6144.rank)
  reducesTo_S128x6144_S_d0_1 : S128x6144.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_arg4 : FVec F S128 .f32) (main_arg5 : FVec F S128x1 .f32) (main_v13 : IVec S_ 1) (main_v16 : IVec S128x6144 1) : IVec S_ 1 :=
  let main_c_5 : IVec S_ 1 := constantI S_ 1 1#1
  let main_v17 : IVec S_ 1 := (fun x v => Host.reduce IntOp.andi x v reducesTo_S128x6144_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  main_v28

def fn {F : FTy → Type} [FloatOps F] (main_arg0 : FVec F S16384x6144 .f32) (main_arg1 : FVec F S16384x128 .f32) (main_arg2 : FVec F S6144x128 .f32) (main_arg3 : FVec F S128x6144 .f32) (main_arg4 : FVec F S128 .f32) (main_arg5 : FVec F S128x1 .f32) : IVec S_ 1 :=
  let main_v0 : FVec F S16384x6144 .f32 := Host.absf main_arg0
  let main_cst : FVec F S_ .f32 := constant S_ .f32 0x7F800000#32
  let main_v1 : FVec F S16384x6144 .f32 := broadcastInDim S16384x6144 ![] bcast_S_S16384x6144 main_cst
  let main_v2 : IVec S16384x6144 1 := cmpf .olt main_v0 main_v1
  let main_c : IVec S_ 1 := constantI S_ 1 1#1
  let main_v3 : IVec S_ 1 := (fun x v => Host.reduce IntOp.andi x v reducesTo_S16384x6144_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S6144x128 .f32 := Host.absf main_arg2
  let main_cst_2 : FVec F S_ .f32 := constant S_ .f32 0x7F800000#32
  let main_v10 : FVec F S6144x128 .f32 := broadcastInDim S6144x128 ![] bcast_S_S6144x128 main_cst_2
  let main_v11 : IVec S6144x128 1 := cmpf .olt main_v9 main_v10
  let main_c_3 : IVec S_ 1 := constantI S_ 1 1#1
  let main_v12 : IVec S_ 1 := (fun x v => Host.reduce IntOp.andi x v reducesTo_S6144x128_S_d0_1 h_S_) main_v11 main_c_3
  let main_v13 : IVec S_ 1 := andi main_v8 main_v12
  let main_v14 : FVec F S128x6144 .f32 := Host.absf main_arg3
  let main_cst_4 : FVec F S_ .f32 := constant S_ .f32 0x7F800000#32
  let main_v15 : FVec F S128x6144 .f32 := broadcastInDim S128x6144 ![] bcast_S_S128x6144 main_cst_4
  let main_v16 : IVec S128x6144 1 := cmpf .olt main_v14 main_v15
  fn_part1 (F := F) main_arg4 main_arg5 main_v13 main_v16
-- ==== Kernel.lean ====
abbrev S16384x6144 : Shape := ⟨2, ![16384, 6144]⟩
abbrev S16384x128 : Shape := ⟨2, ![16384, 128]⟩
abbrev S6144x128 : Shape := ⟨2, ![6144, 128]⟩
abbrev S128x6144 : Shape := ⟨2, ![128, 6144]⟩
abbrev S128 : Shape := ⟨1, ![128]⟩
abbrev S128x1 : Shape := ⟨2, ![128, 1]⟩
abbrev S_ : Shape := ⟨0, ![]⟩
abbrev S1x128 : Shape := ⟨2, ![1, 128]⟩
abbrev S2x128x6144 : Shape := ⟨3, ![2, 128, 6144]⟩
abbrev S2x1x6144 : Shape := ⟨3, ![2, 1, 6144]⟩
abbrev S512x6144 : Shape := ⟨2, ![512, 6144]⟩
abbrev S512x128 : Shape := ⟨2, ![512, 128]⟩
abbrev S1x128x6144 : Shape := ⟨3, ![1, 128, 6144]⟩
abbrev S1x1x6144 : Shape := ⟨3, ![1, 1, 6144]⟩
abbrev S1x6144 : Shape := ⟨2, ![1, 6144]⟩
abbrev S6144 : Shape := ⟨1, ![6144]⟩
abbrev S3x128x6144 : Shape := ⟨3, ![3, 128, 6144]⟩

abbrev nBuf : Space → Nat
  | .hbm => 64
  | .vmem => 12
  | .smem => 0
  | _ => 0

abbrev bufTy : (tb : Table) → Fin (tcTables nBuf tb) → BufTy
  | .hbm, ⟨0, _⟩ => ⟨S16384x6144, .f32⟩
  | .hbm, ⟨1, _⟩ => ⟨S16384x128, .f32⟩
  | .hbm, ⟨2, _⟩ => ⟨S6144x128, .f32⟩
  | .hbm, ⟨3, _⟩ => ⟨S128x6144, .f32⟩
  | .hbm, ⟨4, _⟩ => ⟨S128, .f32⟩
  | .hbm, ⟨5, _⟩ => ⟨S128x1, .f32⟩
  | .hbm, ⟨6, _⟩ => ⟨S6144x128, .f32⟩
  | .hbm, ⟨7, _⟩ => ⟨S6144x128, .f32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S2x128x6144, .f32⟩
  | .hbm, ⟨15, _⟩ => ⟨S2x1x6144, .f32⟩
  | .hbm, ⟨16, _⟩ => ⟨S_, .f32⟩
  | .hbm, ⟨17, _⟩ => ⟨S128x6144, .f32⟩
  | .hbm, ⟨18, _⟩ => ⟨S_, .f32⟩
  | .hbm, ⟨19, _⟩ => ⟨S1x6144, .f32⟩
  | .hbm, ⟨20, _⟩ => ⟨S128x6144, .f32⟩
  | .hbm, ⟨21, _⟩ => ⟨S128x6144, .f32⟩
  | .hbm, ⟨22, _⟩ => ⟨S128x6144, .f32⟩
  | .hbm, ⟨23, _⟩ => ⟨S128x6144, .f32⟩
  | .hbm, ⟨24, _⟩ => ⟨S128x1, .f32⟩
  | .hbm, ⟨25, _⟩ => ⟨S128x6144, .f32⟩
  | .hbm, ⟨26, _⟩ => ⟨S128x6144, .f32⟩
  | .hbm, ⟨27, _⟩ => ⟨S128x6144, .f32⟩
  | .hbm, ⟨28, _⟩ => ⟨S_, .f32⟩
  | .hbm, ⟨29, _⟩ => ⟨S128x6144, .f32⟩
  | .hbm, ⟨30, _⟩ => ⟨S128x6144, .f32⟩
  | .hbm, ⟨31, _⟩ => ⟨S128x6144, .f32⟩
  | .hbm, ⟨32, _⟩ => ⟨S_, .f32⟩
  | .hbm, ⟨33, _⟩ => ⟨S128x1, .f32⟩
  | .hbm, ⟨34, _⟩ => ⟨S128x1, .f32⟩
  | .hbm, ⟨35, _⟩ => ⟨S128x1, .f32⟩
  | .hbm, ⟨36, _⟩ => ⟨S128x1, .f32⟩
  | .hbm, ⟨37, _⟩ => ⟨S128x6144, .f32⟩
  | .hbm, ⟨38, _⟩ => ⟨S_, .f32⟩
  | .hbm, ⟨39, _⟩ => ⟨S128x6144, .f32⟩
  | .hbm, ⟨40, _⟩ => ⟨S128x6144, .f32⟩
  | .hbm, ⟨41, _⟩ => ⟨S128x6144, .f32⟩
  | .hbm, ⟨42, _⟩ => ⟨S128x6144, .f32⟩
  | .hbm, ⟨43, _⟩ => ⟨S128x6144, .f32⟩
  | .hbm, ⟨44, _⟩ => ⟨S128x6144, .f32⟩
  | .hbm, ⟨45, _⟩ => ⟨S128x6144, .f32⟩
  | .hbm, ⟨46, _⟩ => ⟨S_, .f32⟩
  | .hbm, ⟨47, _⟩ => ⟨S128x6144, .f32⟩
  | .hbm, ⟨48, _⟩ => ⟨S128x6144, .f32⟩
  | .hbm, ⟨49, _⟩ => ⟨S_, .f32⟩
  | .hbm, ⟨50, _⟩ => ⟨S128x6144, .f32⟩
  | .hbm, ⟨51, _⟩ => ⟨S128x6144, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S128x6144, .f32⟩
  | .hbm, ⟨56, _⟩ => ⟨S128x6144, .f32⟩
  | .hbm, ⟨57, _⟩ => ⟨S_, .f32⟩
  | .hbm, ⟨58, _⟩ => ⟨S128x6144, .f32⟩
  | .hbm, ⟨59, _⟩ => ⟨S128x6144, .f32⟩
  | .hbm, ⟨60, _⟩ => ⟨S1x128x6144, .f32⟩
  | .hbm, ⟨61, _⟩ => ⟨S1x128x6144, .f32⟩
  | .hbm, ⟨62, _⟩ => ⟨S1x128x6144, .f32⟩
  | .hbm, ⟨63, _⟩ => ⟨S3x128x6144, .f32⟩
  | .local _ .vmem, ⟨0, _⟩ => ⟨S512x6144, .f32⟩
  | .local _ .vmem, ⟨1, _⟩ => ⟨S512x6144, .f32⟩
  | .local _ .vmem, ⟨2, _⟩ => ⟨S512x128, .f32⟩
  | .local _ .vmem, ⟨3, _⟩ => ⟨S512x128, .f32⟩
  | .local _ .vmem, ⟨4, _⟩ => ⟨S6144x128, .f32⟩
  | .local _ .vmem, ⟨5, _⟩ => ⟨S1x128, .f32⟩
  | .local _ .vmem, ⟨6, _⟩ => ⟨S1x128x6144, .f32⟩
  | .local _ .vmem, ⟨7, _⟩ => ⟨S1x128x6144, .f32⟩
  | .local _ .vmem, ⟨8, _⟩ => ⟨S1x1x6144, .f32⟩
  | .local _ .vmem, ⟨9, _⟩ => ⟨S1x1x6144, .f32⟩
  | .local _ .vmem, ⟨10, _⟩ => ⟨S128x6144, .f32⟩
  | .local _ .vmem, ⟨11, _⟩ => ⟨S1x6144, .f32⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_cst_9 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v27 : BitVec 1 := Scalar.cmpi .eq arg1 c15_i32
  let v28 : BitVec 32 := Scalar.extui v27
  let c0_i32_18 : BitVec 32 := 0#32
  let v29 : BitVec 1 := Scalar.cmpi .ne v28 c0_i32_18
  v29

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S6144x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S128x6144_S6144x128_1_0 : S128x6144.Transposes [1, 0] S6144x128
  reducesTo_S16384x128_S128_d0 : S16384x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  inb_S128x6144_S128x6144_0_0 : ∀ a, (![0, 0] : Fin 2 → Nat) a + S128x6144.size a ≤ S128x6144.size a
  h_S128x6144 : 0 < S128x6144.numel
  shapeCasts_S128x6144_S128x6144 : S128x6144.ShapeCasts S128x6144
  inb_S1x6144_S1x6144_0_0 : ∀ a, (![0, 0] : Fin 2 → Nat) a + S1x6144.size a ≤ S1x6144.size a
  h_S1x6144 : 0 < S1x6144.numel
  shapeCasts_S1x6144_S1x6144 : S1x6144.ShapeCasts S1x6144
  inb_S512x6144_S512x6144_0_0 : ∀ a, (![0, 0] : Fin 2 → Nat) a + S512x6144.size a ≤ S512x6144.size a
  h_S512x6144 : 0 < S512x6144.numel
  inb_S512x128_S512x128_0_0 : ∀ a, (![0, 0] : Fin 2 → Nat) a + S512x128.size a ≤ S512x128.size a
  h_S512x128 : 0 < S512x128.numel
  inb_S6144x128_S6144x128_0_0 : ∀ a, (![0, 0] : Fin 2 → Nat) a + S6144x128.size a ≤ S6144x128.size a
  h_S6144x128 : 0 < S6144x128.numel
  shapeCasts_S6144x128_S6144x128 : S6144x128.ShapeCasts S6144x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  reduces_S512x6144_S6144 : S512x6144.Reduces [0] S6144
  shapeCasts_S6144_S1x6144 : S6144.ShapeCasts S1x6144
  inb_S1x128x6144_S1x128x6144_0_0_0 : ∀ a, (![0, 0, 0] : Fin 3 → Nat) a + S1x128x6144.size a ≤ S1x128x6144.size a
  h_S1x128x6144 : 0 < S1x128x6144.numel
  shapeCasts_S1x128x6144_S128x6144 : S1x128x6144.ShapeCasts S128x6144
  shapeCasts_S128x6144_S1x128x6144 : S128x6144.ShapeCasts S1x128x6144
  inb_S1x1x6144_S1x1x6144_0_0_0 : ∀ a, (![0, 0, 0] : Fin 3 → Nat) a + S1x1x6144.size a ≤ S1x1x6144.size a
  h_S1x1x6144 : 0 < S1x1x6144.numel
  shapeCasts_S1x1x6144_S1x6144 : S1x1x6144.ShapeCasts S1x6144
  shapeCasts_S1x6144_S1x1x6144 : S1x6144.ShapeCasts S1x1x6144
  reducesTo_S2x128x6144_S128x6144_d0 : S2x128x6144.ReducesTo [0] S128x6144
  reducesTo_S2x1x6144_S1x6144_d0 : S2x1x6144.ReducesTo [0] S1x6144
  transposes_S6144x128_S128x6144_1_0 : S6144x128.Transposes [1, 0] S128x6144
  bcast_S1x6144_S128x6144_0_1 : S1x6144.BroadcastsInDim S128x6144 (![0, 1] : Fin 2 → Fin S128x6144.rank)
  shapeCasts_S128_S128x1 : S128.ShapeCasts S128x1
  bcast_S128x1_S128x6144_0_1 : S128x1.BroadcastsInDim S128x6144 (![0, 1] : Fin 2 → Fin S128x6144.rank)
  bcast_S_S128x6144 : S_.BroadcastsInDim S128x6144 (![] : Fin 0 → Fin S128x6144.rank)
  bcast_S_S128x1 : S_.BroadcastsInDim S128x1 (![] : Fin 0 → Fin S128x1.rank)
  bcast_S128x6144_S1x128x6144_1_2 : S128x6144.BroadcastsInDim S1x128x6144 (![1, 2] : Fin 2 → Fin S1x128x6144.rank)
  concatenates_S1x128x6144_S1x128x6144_S1x128x6144_S3x128x6144_d0 : Shape.Concatenates [S1x128x6144, S1x128x6144, S1x128x6144] S3x128x6144 0
  dot_S512x6144_S6144x128_S512x128_1_0_0_1_n_n_wf : DotDims.WF S512x6144 S6144x128 S512x128 [1] [0] [0] [1] [] []
  dot_S512x128_S512x6144_S128x6144_0_0_1_1_n_n_wf : DotDims.WF S512x128 S512x6144 S128x6144 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x6144.size a ≤ S16384x6144.size a
  hwx0_0 : ∀ i : grid0.Coords, EltTy.bits .f32 = 32 ∨ (Rect.block (s := S16384x6144) S512x6144.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S16384x128.size a
  hwx0_1 : ∀ i : grid0.Coords, EltTy.bits .f32 = 32 ∨ (Rect.block (s := S16384x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6144x128.size a ≤ S6144x128.size a
  hwx0_2 : ∀ i : grid0.Coords, EltTy.bits .f32 = 32 ∨ (Rect.block (s := S6144x128) S6144x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x6144.size a ≤ S2x128x6144.size a
  hwx0_4 : ∀ i : grid0.Coords, EltTy.bits .f32 = 32 ∨ (Rect.block (s := S2x128x6144) S1x128x6144.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x6144.size a ≤ S2x1x6144.size a
  hwx0_5 : ∀ i : grid0.Coords, EltTy.bits .f32 = 32 ∨ (Rect.block (s := S2x1x6144) S1x1x6144.size (cc0_transform_5 i) (hinb0_5 i)).WholeWords (EltTy.packing .f32)

variable [Facts₀]

def dot_S512x6144_S6144x128_S512x128_1_0_0_1_n_n : DotDims S512x6144 S6144x128 S512x128 where
  lhsContracting := [1]
  rhsContracting := [0]
  lhsNonContracting := [0]
  rhsNonContracting := [1]
  lhsBatch := []
  rhsBatch := []
  wf := dot_S512x6144_S6144x128_S512x128_1_0_0_1_n_n_wf
def dot_S512x128_S512x6144_S128x6144_0_0_1_1_n_n : DotDims S512x128 S512x6144 S128x6144 where
  lhsContracting := [0]
  rhsContracting := [0]
  lhsNonContracting := [1]
  rhsNonContracting := [1]
  lhsBatch := []
  rhsBatch := []
  wf := dot_S512x128_S512x6144_S128x6144_0_0_1_1_n_n_wf

abbrev win0_0 : Pipeline.Window sig grid0 :=
  Pipeline.Window.ofSpec (Memref.whole main_arg0) S512x6144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S6144x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1x128x6144.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1x1x6144.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x6144 : Shape := ⟨2, ![16384, 6144]⟩
abbrev S16384x128 : Shape := ⟨2, ![16384, 128]⟩
abbrev S6144x128 : Shape := ⟨2, ![6144, 128]⟩
abbrev S128x6144 : Shape := ⟨2, ![128, 6144]⟩
abbrev S128 : Shape := ⟨1, ![128]⟩
abbrev S128x1 : Shape := ⟨2, ![128, 1]⟩
abbrev S_ : Shape := ⟨0, ![]⟩
abbrev S6144 : Shape := ⟨1, ![6144]⟩
abbrev S6144x1 : Shape := ⟨2, ![6144, 1]⟩
abbrev S1x128 : Shape := ⟨2, ![1, 128]⟩
abbrev S128x16384 : Shape := ⟨2, ![128, 16384]⟩
abbrev S1x6144 : Shape := ⟨2, ![1, 6144]⟩
abbrev S1x128x6144 : Shape := ⟨3, ![1, 128, 6144]⟩
abbrev S3x128x6144 : Shape := ⟨3, ![3, 128, 6144]⟩

abbrev nBuf : Space → Nat
  | .hbm => 69
  | .vmem => 0
  | .smem => 0
  | _ => 0

abbrev bufTy : (tb : Table) → Fin (tcTables nBuf tb) → BufTy
  | .hbm, ⟨0, _⟩ => ⟨S16384x6144, .f32⟩
  | .hbm, ⟨1, _⟩ => ⟨S16384x128, .f32⟩
  | .hbm, ⟨2, _⟩ => ⟨S6144x128, .f32⟩
  | .hbm, ⟨3, _⟩ => ⟨S128x6144, .f32⟩
  | .hbm, ⟨4, _⟩ => ⟨S128, .f32⟩
  | .hbm, ⟨5, _⟩ => ⟨S128x1, .f32⟩
  | .hbm, ⟨6, _⟩ => ⟨S16384x6144, .f32⟩
  | .hbm, ⟨7, _⟩ => ⟨S_, .f32⟩
  | .hbm, ⟨8, _⟩ => ⟨S6144, .f32⟩
  | .hbm, ⟨9, _⟩ => ⟨S6144x128, .f32⟩
  | .hbm, ⟨10, _⟩ => ⟨S6144x128, .f32⟩
  | .hbm, ⟨11, _⟩ => ⟨S16384x128, .f32⟩
  | .hbm, ⟨12, _⟩ => ⟨S_, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S6144x1, .f32⟩
  | .hbm, ⟨18, _⟩ => ⟨S6144x128, .f32⟩
  | .hbm, ⟨19, _⟩ => ⟨S6144x128, .f32⟩
  | .hbm, ⟨20, _⟩ => ⟨S16384x128, .f32⟩
  | .hbm, ⟨21, _⟩ => ⟨S1x128, .f32⟩
  | .hbm, ⟨22, _⟩ => ⟨S16384x128, .f32⟩
  | .hbm, ⟨23, _⟩ => ⟨S16384x128, .f32⟩
  | .hbm, ⟨24, _⟩ => ⟨S128x16384, .f32⟩
  | .hbm, ⟨25, _⟩ => ⟨S128x6144, .f32⟩
  | .hbm, ⟨26, _⟩ => ⟨S128x6144, .f32⟩
  | .hbm, ⟨27, _⟩ => ⟨S128x6144, .f32⟩
  | .hbm, ⟨28, _⟩ => ⟨S128x1, .f32⟩
  | .hbm, ⟨29, _⟩ => ⟨S1x6144, .f32⟩
  | .hbm, ⟨30, _⟩ => ⟨S128x6144, .f32⟩
  | .hbm, ⟨31, _⟩ => ⟨S128x6144, .f32⟩
  | .hbm, ⟨32, _⟩ => ⟨S128x6144, .f32⟩
  | .hbm, ⟨33, _⟩ => ⟨S_, .f32⟩
  | .hbm, ⟨34, _⟩ => ⟨S128x6144, .f32⟩
  | .hbm, ⟨35, _⟩ => ⟨S128x6144, .f32⟩
  | .hbm, ⟨36, _⟩ => ⟨S128x6144, .f32⟩
  | .hbm, ⟨37, _⟩ => ⟨S_, .f32⟩
  | .hbm, ⟨38, _⟩ => ⟨S128x1, .f32⟩
  | .hbm, ⟨39, _⟩ => ⟨S128x1, .f32⟩
  | .hbm, ⟨40, _⟩ => ⟨S128x1, .f32⟩
  | .hbm, ⟨41, _⟩ => ⟨S128x1, .f32⟩
  | .hbm, ⟨42, _⟩ => ⟨S128x6144, .f32⟩
  | .hbm, ⟨43, _⟩ => ⟨S_, .f32⟩
  | .hbm, ⟨44, _⟩ => ⟨S128x6144, .f32⟩
  | .hbm, ⟨45, _⟩ => ⟨S128x6144, .f32⟩
  | .hbm, ⟨46, _⟩ => ⟨S128x6144, .f32⟩
  | .hbm, ⟨47, _⟩ => ⟨S128x6144, .f32⟩
  | .hbm, ⟨48, _⟩ => ⟨S128x6144, .f32⟩
  | .hbm, ⟨49, _⟩ => ⟨S128x6144, .f32⟩
  | .hbm, ⟨50, _⟩ => ⟨S128x6144, .f32⟩
  | .hbm, ⟨51, _⟩ => ⟨S_, .f32⟩
  | .hbm, ⟨52, _⟩ => ⟨S128x6144, .f32⟩
  | .hbm, ⟨53, _⟩ => ⟨S128x6144, .f32⟩
  | .hbm, ⟨54, _⟩ => ⟨S_, .f32⟩
  | .hbm, ⟨55, _⟩ => ⟨S128x6144, .f32⟩
  | .hbm, ⟨56, _⟩ => ⟨S128x6144, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S128x6144, .f32⟩
  | .hbm, ⟨61, _⟩ => ⟨S128x6144, .f32⟩
  | .hbm, ⟨62, _⟩ => ⟨S_, .f32⟩
  | .hbm, ⟨63, _⟩ => ⟨S128x6144, .f32⟩
  | .hbm, ⟨64, _⟩ => ⟨S128x6144, .f32⟩
  | .hbm, ⟨65, _⟩ => ⟨S1x128x6144, .f32⟩
  | .hbm, ⟨66, _⟩ => ⟨S1x128x6144, .f32⟩
  | .hbm, ⟨67, _⟩ => ⟨S1x128x6144, .f32⟩
  | .hbm, ⟨68, _⟩ => ⟨S3x128x6144, .f32⟩
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_cst_8 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  reducesTo_S16384x6144_S6144_d0 : S16384x6144.ReducesTo [0] S6144
  h_S_ : 0 < S_.numel
  transposes_S128x6144_S6144x128_1_0 : S128x6144.Transposes [1, 0] S6144x128
  reducesTo_S16384x128_S128_d0 : S16384x128.ReducesTo [0] S128
  bcast_S_S128 : S_.BroadcastsInDim S128 (![] : Fin 0 → Fin S128.rank)
  bcast_S6144_S6144x1_0 : S6144.BroadcastsInDim S6144x1 (![0] : Fin 1 → Fin S6144x1.rank)
  bcast_S6144x1_S6144x128_0_1 : S6144x1.BroadcastsInDim S6144x128 (![0, 1] : Fin 2 → Fin S6144x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  transposes_S16384x128_S128x16384_1_0 : S16384x128.Transposes [1, 0] S128x16384
  transposes_S6144x128_S128x6144_1_0 : S6144x128.Transposes [1, 0] S128x6144
  bcast_S128_S128x1_0 : S128.BroadcastsInDim S128x1 (![0] : Fin 1 → Fin S128x1.rank)
  bcast_S6144_S1x6144_1 : S6144.BroadcastsInDim S1x6144 (![1] : Fin 1 → Fin S1x6144.rank)
  bcast_S128x1_S128x6144_0_1 : S128x1.BroadcastsInDim S128x6144 (![0, 1] : Fin 2 → Fin S128x6144.rank)
  bcast_S1x6144_S128x6144_0_1 : S1x6144.BroadcastsInDim S128x6144 (![0, 1] : Fin 2 → Fin S128x6144.rank)
  bcast_S_S128x6144 : S_.BroadcastsInDim S128x6144 (![] : Fin 0 → Fin S128x6144.rank)
  bcast_S_S128x1 : S_.BroadcastsInDim S128x1 (![] : Fin 0 → Fin S128x1.rank)
  bcast_S128x6144_S1x128x6144_1_2 : S128x6144.BroadcastsInDim S1x128x6144 (![1, 2] : Fin 2 → Fin S1x128x6144.rank)
  concatenates_S1x128x6144_S1x128x6144_S1x128x6144_S3x128x6144_d0 : Shape.Concatenates [S1x128x6144, S1x128x6144, S1x128x6144] S3x128x6144 0
  dot_S16384x6144_S6144x128_S16384x128_1_0_0_1_n_n_wf : DotDims.WF S16384x6144 S6144x128 S16384x128 [1] [0] [0] [1] [] []
  dot_S128x16384_S16384x6144_S128x6144_1_0_0_1_n_n_wf : DotDims.WF S128x16384 S16384x6144 S128x6144 [1] [0] [0] [1] [] []

variable [Facts₀]

def dot_S16384x6144_S6144x128_S16384x128_1_0_0_1_n_n : DotDims S16384x6144 S6144x128 S16384x128 where
  lhsContracting := [1]
  rhsContracting := [0]
  lhsNonContracting := [0]
  rhsNonContracting := [1]
  lhsBatch := []
  rhsBatch := []
  wf := dot_S16384x6144_S6144x128_S16384x128_1_0_0_1_n_n_wf
def dot_S128x16384_S16384x6144_S128x6144_1_0_0_1_n_n : DotDims S128x16384 S16384x6144 S128x6144 where
  lhsContracting := [1]
  rhsContracting := [0]
  lhsNonContracting := [0]
  rhsNonContracting := [1]
  lhsBatch := []
  rhsBatch := []
  wf := dot_S128x16384_S16384x6144_S128x6144_1_0_0_1_n_n_wf

class Facts : Prop extends Facts₀ where

variable [Facts]
-- ==== Proof.AroundK.lean ====
/-
  The fused kernel's region inside @main, for the kernel program as printed (read at the word-level instance).

  @main is: eight host operations (the product `mean_beta * p_hat^T` and the column means of `mean_z`), the
  pallas_call, then three stretches of host operations (the combination of the two cores' partial sums and the
  variational update; the clipping function; the stacking of the three results). This module states what the region
  is entered with, that the later stretches touch no array of the pipeline, what block of its array each window
  holds at a grid point, and at which grid points the body's two conditionals are taken: the grid is 2 x 16, the
  first conditional (zero the accumulators) is taken where the second coordinate is 0, the second (copy the
  accumulators out) where it is 15.
-/
import proofs.«139444_j26594437497073_2_alg».proof.Proof.Gen.Kernel.Launch
import proofs.«139444_j26594437497073_2_alg».proof.Proof.Gen.Kernel.Skeleton
import proofs.«139444_j26594437497073_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The TensorCore buffers' contents when the region is entered: the memory after the eight host operations
    that come before it. -/
abbrev entryVals (c : Dev nD) : Valuation τ sig (Elt F) := StableHlo.after (List.flatten [hostOps0]) (fun b => m (c, b))
/-- The same at one reference. -/
abbrev entryAt (c : Dev nD) (b : Ref sig .tc) : Buf (Elt F) ((c : Thread nD τ).loc b) := entryVals m c (Proc.devRef .tc b)

/-- The stretches of host operations after the region. -/
abbrev tailOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the host operations before the region, the region, and the later stretches. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later stretches touch only the pipeline's arrays and buffers that bypass the region. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-! ## What the host operations write -/

/-- The result buffers of the eight host operations before the region. -/
abbrev headResults : List (Ref sig .tc) := [main_v0, main_v1, main_cst, main_v2, main_v3, main_cst_0, main_v4, main_v5]

/-- The result buffers of the host operations after the region, in order. -/
abbrev tailResults : List (Ref sig .tc) :=
  [main_cst_1, main_v7, main_cst_2, main_v8, main_v9, main_v10, main_v11, main_v12, main_v13, main_v14, main_v15, main_v16,
   main_cst_3, main_v17, main_v18, main_v19, main_cst_4, main_v20, main_v21, main_v22, main_v23, main_v24, main_cst_5,
   main_v25, main_v26, main_v27, main_v28, main_v29, main_v30, main_v31, main_cst_6, main_v32, main_v33, main_cst_7,
   main_v34, main_v35, main_cst_8, main_cst_9, main_call0_v0, main_call0_v1, main_call0_v2, main_call0_v3,
   main_call0_v4, main_v36, main_v37, main_v38, main_v39, main_v40]

/-- Each operation before the region writes one of the listed buffers. -/
theorem head_writes : (hostOps0 : List (HloOp τ sig (Elt F))).Forall fun op =>
    op.writes ⊆ (headResults.map (Proc.devRef (τ := τ) .tc)).toFinset := by
  simp only [hostOps0, List.Forall, StableHlo.nullary_writes, StableHlo.unary_writes, StableHlo.binary_writes,
    Finset.singleton_subset_iff, List.mem_toFinset]
  repeat' apply And.intro
  all_goals exact List.mem_map_of_mem (by decide)

/-- Each operation after the region writes one of the listed buffers. -/
theorem tail_writes : ((tailOps (F := F)).flatten).Forall fun op =>
    op.writes ⊆ (tailResults.map (Proc.devRef (τ := τ) .tc)).toFinset := by
  simp only [tailOps, hostOps1, hostOps1_1, hostOps1_2, List.flatten_cons, List.flatten_nil, List.append_nil, List.cons_append,
    List.nil_append, List.Forall, StableHlo.nullary_writes, StableHlo.unary_writes, StableHlo.binary_writes,
    StableHlo.reshape_writes, StableHlo.nary_writes, Finset.singleton_subset_iff, List.mem_toFinset]
  repeat' apply And.intro
  all_goals exact List.mem_map_of_mem (by decide)

/-- No array of the pipeline is among them. -/
theorem arrays_not_tail : ∀ w : Fin 6, Pipeline.arrRef spec0 w ∉ tailResults := by decide

/-- So the later stretches write no array of the pipeline. -/
theorem tail_keeps : ∀ ops ∈ (tailOps : List (List (HloOp τ sig (Elt F)))), ∀ op ∈ ops,
    ∀ w, Proc.devRef .tc (Pipeline.arrRef spec0 w) ∉ op.writes := by
  intro ops hops op hop w hw
  have hmem : op ∈ (tailOps (F := F)).flatten := List.mem_flatten.mpr ⟨ops, hops, hop⟩
  obtain ⟨y, hy, he⟩ := List.mem_map.mp (List.mem_toFinset.mp ((List.forall_iff_forall_mem.mp tail_writes) op hmem hw))
  exact arrays_not_tail w (Proc.devRef_injective _ he ▸ hy)

/-- A buffer the operations before the region do not write is entered as launched. -/
theorem entry_kept (c : Dev nD) (r : Ref sig .tc) (hr : r ∉ headResults) :
    entryAt m c r = m ((c : Thread nD τ).loc r) := by
  dsimp only [entryAt, entryVals]
  simp only [List.flatten_cons, List.flatten_nil, List.append_nil]
  exact StableHlo.after_of_writes_sub _ _ head_writes hr

/-- A buffer that is no array of the pipeline and that the later stretches do not write ends as the region was
    entered. -/
theorem tail_kept (dats : (p : Fin 1) → (c : Dev nD) → Dat τ (Elt F) Unit ℕ (UR sig nD τ) ℕ (cfgs p) c) (c : Dev nD)
    (r : Ref sig .tc) (hr : r ∉ tailResults) (hne : ∀ w, Pipeline.arrRef spec0 w ≠ r) :
    Pipeline.afterTail₀ cfgs dats 0 (entryVals m) tailOps c r = entryAt m c r := by
  unfold Pipeline.afterTail₀
  rw [StableHlo.after_of_writes_sub _ _ tail_writes hr, Pipeline.withArrays_of_ne _ c _ _ r hne]

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- Each input window's current staging buffer holds its block at every grid point, fetched there or not (the two
    resident operands are fetched once: their block index never moves). -/
theorem found0 {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found1 {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found2 {c : Dev nD} (dat : Dat τ (Elt F) Unit ℕ (UR sig nD τ) ℕ cfg0 c) (hA : dat.A 2 = entryAt m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found3 {c : Dev nD} (dat : Dat τ (Elt F) Unit ℕ (UR sig nD τ) ℕ cfg0 c) (hA : dat.A 3 = entryAt m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from the region's run -/

/-- From a run ending with every array of the pipeline at what the proof data computes and every other buffer as
    the later stretches leave it: the six argument arrays end as launched (two are staged inputs of the pipeline,
    four bypass it and are written by no host operation). -/
theorem args_kept (dats : (p : Fin 1) → (c : Dev nD) → Dat τ (Elt F) Unit ℕ (UR sig nD τ) ℕ (cfgs p) c)
    (hA : ∀ c w, (dats 0 c).A w = entryAt m c (Pipeline.arrRef spec0 w))
    (r : PUnit × MemSt nD τ sig (Elt F))
    (h : Pipeline.FramePost cfgs dats 0 (Pipeline.afterTail₀ cfgs dats 0 (entryVals m) tailOps) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats 0 c).arrAt_in 0 rfl _).trans ((hA c 0).trans (entry_kept m c main_arg0 (by decide)))),
   ((h c).1 1).trans (((dats 0 c).arrAt_in 1 rfl _).trans ((hA c 1).trans (entry_kept m c main_arg1 (by decide)))),
   ((h c).2 main_arg2 (Pipeline.mem_restRefs_of main_arg2 (by decide) (by decide))).trans
     ((tail_kept m dats c main_arg2 (by decide) (by decide)).trans (entry_kept m c main_arg2 (by decide))),
   ((h c).2 main_arg3 (Pipeline.mem_restRefs_of main_arg3 (by decide) (by decide))).trans
     ((tail_kept m dats c main_arg3 (by decide) (by decide)).trans (entry_kept m c main_arg3 (by decide))),
   ((h c).2 main_arg4 (Pipeline.mem_restRefs_of main_arg4 (by decide) (by decide))).trans
     ((tail_kept m dats c main_arg4 (by decide) (by decide)).trans (entry_kept m c main_arg4 (by decide))),
   ((h c).2 main_arg5 (Pipeline.mem_restRefs_of main_arg5 (by decide) (by decide))).trans
     ((tail_kept m dats c main_arg5 (by decide) (by decide)).trans (entry_kept m c main_arg5 (by decide)))⟩

/-! ## The body's two conditionals -/

/-- The first conditional's condition (the second grid coordinate is 0), as the body computes it. -/
abbrev atFirst (i : grid0.Coords) : Prop :=
  (Scalar.cmpi .ne (Scalar.extui (Scalar.cmpi .eq (BitVec.ofNat 32 (i 1).val) 0#32)) 0#32) = 1#1
/-- It holds at the grid points whose position is a multiple of 16. -/
theorem atFirst_iff : ∀ t : Fin cfg0.N, atFirst (grid0.coords t) ↔ t.val % 16 = 0 :=
  (by decide +kernel : ∀ t : Fin grid0.N, atFirst (grid0.coords t) ↔ t.val % 16 = 0)

/-- The second conditional's condition (the second grid coordinate is 15). -/
abbrev atLast (i : grid0.Coords) : Prop := k0_cond2 i = 1#1
/-- It holds at the grid points whose position is 15 modulo 16. -/
theorem atLast_iff : ∀ t : Fin cfg0.N, atLast (grid0.coords t) ↔ t.val % 16 = 15 :=
  (by decide +kernel : ∀ t : Fin grid0.N, atLast (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last step of a core's sweep the two outputs are stored nothing and are not written back. -/
theorem idle4 : ∀ t : Fin cfg0.N, ¬atLast (grid0.coords t) → cfg0.idle 4 (grid0.coords t) = true := by decide +kernel
theorem idle5 : ∀ t : Fin cfg0.N, ¬atLast (grid0.coords t) → cfg0.idle 5 (grid0.coords t) = true := by decide +kernel
theorem noFlush4 : ∀ t : Fin cfg0.N, ¬atLast (grid0.coords t) → (cfg0.win 4).flush t = false := by decide +kernel
theorem noFlush5 : ∀ t : Fin cfg0.N, ¬atLast (grid0.coords t) → (cfg0.win 5).flush t = false := by decide +kernel
/-- At the last step they are stored into. -/
theorem live4 : ∀ t : Fin cfg0.N, atLast (grid0.coords t) → cfg0.idle 4 (grid0.coords t) = false := by decide +kernel
theorem live5 : ∀ t : Fin cfg0.N, atLast (grid0.coords t) → cfg0.idle 5 (grid0.coords t) = false := by decide +kernel

/-! ## The memrefs the body is called with -/

abbrev sg0 (t : Fin cfg0.N) : Memref sig .tc .vmem S512x6144 .f32 := win0_0.stage (cfg0.slots t 0)
abbrev hsg0 (t : Fin cfg0.N) : (sg0 t).IsWhole := hstage0_0 ((cfg0.slots t 0).cast nbuf0_0)
abbrev sg1 (t : Fin cfg0.N) : Memref sig .tc .vmem S512x128 .f32 := win0_1.stage (cfg0.slots t 1)
abbrev hsg1 (t : Fin cfg0.N) : (sg1 t).IsWhole := hstage0_1 ((cfg0.slots t 1).cast nbuf0_1)
abbrev sg2 (t : Fin cfg0.N) : Memref sig .tc .vmem S6144x128 .f32 := win0_2.stage (cfg0.slots t 2)
abbrev hsg2 (t : Fin cfg0.N) : (sg2 t).IsWhole := hstage0_2 ((cfg0.slots t 2).cast nbuf0_2)
abbrev sg3 (t : Fin cfg0.N) : Memref sig .tc .vmem S1x128 .f32 := win0_3.stage (cfg0.slots t 3)
abbrev hsg3 (t : Fin cfg0.N) : (sg3 t).IsWhole := hstage0_3 ((cfg0.slots t 3).cast nbuf0_3)
abbrev sg4 (t : Fin cfg0.N) : Memref sig .tc .vmem S1x128x6144 .f32 := win0_4.stage (cfg0.slots t 4)
abbrev hsg4 (t : Fin cfg0.N) : (sg4 t).IsWhole := hstage0_4 ((cfg0.slots t 4).cast nbuf0_4)
abbrev sg5 (t : Fin cfg0.N) : Memref sig .tc .vmem S1x1x6144 .f32 := win0_5.stage (cfg0.slots t 5)
abbrev hsg5 (t : Fin cfg0.N) : (sg5 t).IsWhole := hstage0_5 ((cfg0.slots t 5).cast nbuf0_5)
/-- The two accumulators: the (128, 6144) running sum of residual^T G and the (1, 6144) running column sums of G^2. -/
abbrev accZ : Memref sig .tc .vmem S128x6144 .f32 := Memref.whole cc0_scratch0
abbrev accG : Memref sig .tc .vmem S1x6144 .f32 := Memref.whole cc0_scratch1
/-- One staging buffer of each output window, and the accumulators, as views through which contents are stated. -/
abbrev viewO4 : View sig .tc .vmem S1x128x6144 .f32 := (Memref.whole cc0_stg4_0 : Memref sig .tc .vmem S1x128x6144 .f32).view
abbrev viewO5 : View sig .tc .vmem S1x1x6144 .f32 := (Memref.whole cc0_stg5_0 : Memref sig .tc .vmem S1x1x6144 .f32).view
abbrev viewZ : View sig .tc .vmem S128x6144 .f32 := accZ.view
abbrev viewG : View sig .tc .vmem S1x6144 .f32 := accG.view

/-- What the launch hands the body besides the windows: the two accumulators at some contents and the generator
    register at some state. -/
theorem scratch_inv (c : Dev nD) :
    (Pipeline.ΦA spec0 c : sProp 𝕄)
      = iprop(iprop((∃ d, owns (c : Thread nD τ) accZ fullShare d) ∗ (∃ d, owns (c : Thread nD τ) accG fullShare d)) ∗ (∃ r, prngReg c r)) := by
  unfold Pipeline.ΦA; rw [scopedRest0_eq]; simp only [accZ, accG, owns_whole]; try rfl

end Cert.Kernel.Around

end
-- ==== Proof.RunFirstK.lean ====
/-
  The kernel body at the first step of a core's sweep (second grid coordinate 0): it zeroes both accumulators, then adds
  this step's contributions to them; the outputs' staging buffers are not touched.
-/
import proofs.«139444_j26594437497073_2_alg».proof.Proof.AroundK

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four inputs at their contents, the outputs' buffers at contents handed back untouched, the
    accumulators at anything — the body runs to the end, leaving the inputs as they were and each accumulator with
    the listed pieces written (last store first). The pieces are what the run finds. -/
noncomputable def runFirst (c : Dev nD) (i : grid0.Coords) (a2 : Memref sig .tc .vmem S512x6144 .f32) (h2 : a2.IsWhole) (a3 : Memref sig .tc .vmem S512x128 .f32) (h3 : a3.IsWhole) (a4 : Memref sig .tc .vmem S6144x128 .f32) (h4 : a4.IsWhole) (a5 : Memref sig .tc .vmem S1x128 .f32) (h5 : a5.IsWhole) (a6 : Memref sig .tc .vmem S1x128x6144 .f32) (h6 : a6.IsWhole) (a7 : Memref sig .tc .vmem S1x1x6144 .f32) (h7 : a7.IsWhole) (a8 : Memref sig .tc .vmem S128x6144 .f32) (h8 : a8.IsWhole) (a9 : Memref sig .tc .vmem S1x6144 .f32) (h9 : a9.IsWhole)
    (hf : atFirst i) (hl : ¬atLast i) (x0 : Vec F S512x6144 .f32) (x1 : Vec F S512x128 .f32) (x2 : Vec F S6144x128 .f32) (x3 : Vec F S1x128 .f32) :
    Σ' (LZ : List (View.Piece (Elt F) S128x6144 .f32)), { LG : List (View.Piece (Elt F) S1x6144 .f32) //
      ∀ (xi4 : Vec F S1x128x6144 .f32) (xi5 : Vec F S1x1x6144 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xi4 ∗ owns (c : Thread nD τ) a7 fullShare xi5 ∗ (∃ d, owns (c : Thread nD τ) a8 fullShare d) ∗ (∃ d, owns (c : Thread nD τ) a9 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xi4 ∗ owns (c : Thread nD τ) a7 fullShare xi5 ∗ (∃ f, a8.view.loc (c : Thread nD τ) ↦[a8.view.set]{fullShare} a8.view.writes (Elt F) f LZ) ∗ (∃ f, a9.view.loc (c : Thread nD τ) ↦[a9.view.set]{fullShare} a9.view.writes (Elt F) f LG)) -∗ K ⟨⟩))
          ⊢ wp frame (wpE (defs₀ (F := F)) Variants.none c none) E (cc0__fused_kernel i a2 h2 a3 h3 a4 h4 a5 h5 a6 h6 a7 h7 a8 h8 a9 h9) K } := by
  refine ⟨?_, ?_, fun xi4 xi5 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dz, %fz, -, HZ⟩, ⟨%dg, %fg, -, HG⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HZ]; · iexists _; iexact HZ
    iexists _; iexact HG

end Cert.Kernel.Around

end
-- ==== Proof.RunMidK.lean ====
/-
  The kernel body at a middle step of a core's sweep (second grid coordinate neither 0 nor 15): it adds this step's
  contributions to both accumulators; the outputs' staging buffers are not touched.
-/
import proofs.«139444_j26594437497073_2_alg».proof.Proof.RunFirstK

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four inputs at their contents, the outputs' buffers at contents handed back untouched, the
    accumulators at what the step before left — the body runs to the end, leaving the inputs as they were and each
    accumulator with the listed pieces written. -/
noncomputable def runMid (c : Dev nD) (i : grid0.Coords) (a2 : Memref sig .tc .vmem S512x6144 .f32) (h2 : a2.IsWhole) (a3 : Memref sig .tc .vmem S512x128 .f32) (h3 : a3.IsWhole) (a4 : Memref sig .tc .vmem S6144x128 .f32) (h4 : a4.IsWhole) (a5 : Memref sig .tc .vmem S1x128 .f32) (h5 : a5.IsWhole) (a6 : Memref sig .tc .vmem S1x128x6144 .f32) (h6 : a6.IsWhole) (a7 : Memref sig .tc .vmem S1x1x6144 .f32) (h7 : a7.IsWhole) (a8 : Memref sig .tc .vmem S128x6144 .f32) (h8 : a8.IsWhole) (a9 : Memref sig .tc .vmem S1x6144 .f32) (h9 : a9.IsWhole)
    (hf : ¬atFirst i) (hl : ¬atLast i) (x0 : Vec F S512x6144 .f32) (x1 : Vec F S512x128 .f32) (x2 : Vec F S6144x128 .f32) (x3 : Vec F S1x128 .f32) (z : Vec F S128x6144 .f32) (g : Vec F S1x6144 .f32) :
    Σ' (LZ : List (View.Piece (Elt F) S128x6144 .f32)), { LG : List (View.Piece (Elt F) S1x6144 .f32) //
      ∀ (xi4 : Vec F S1x128x6144 .f32) (xi5 : Vec F S1x1x6144 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xi4 ∗ owns (c : Thread nD τ) a7 fullShare xi5 ∗ owns (c : Thread nD τ) a8 fullShare z ∗ owns (c : Thread nD τ) a9 fullShare g
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xi4 ∗ owns (c : Thread nD τ) a7 fullShare xi5 ∗ (∃ f, a8.view.loc (c : Thread nD τ) ↦[a8.view.set]{fullShare} a8.view.writes (Elt F) f LZ) ∗ (∃ f, a9.view.loc (c : Thread nD τ) ↦[a9.view.set]{fullShare} a9.view.writes (Elt F) f LG)) -∗ K ⟨⟩))
          ⊢ wp frame (wpE (defs₀ (F := F)) Variants.none c none) E (cc0__fused_kernel i a2 h2 a3 h3 a4 h4 a5 h5 a6 h6 a7 h7 a8 h8 a9 h9) K } := by
  refine ⟨?_, ?_, fun xi4 xi5 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fz, %hfz, HZ⟩, ⟨%fg, %hfg, HG⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hfz; obtain rfl := h9.eq_unread hfg
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HZ]; · iexists _; iexact HZ
    iexists _; iexact HG

end Cert.Kernel.Around

end
-- ==== Proof.RunLastK.lean ====
/-
  The kernel body at the last step of a core's sweep (second grid coordinate 15): it adds this step's contributions to
  both accumulators and then copies each accumulator into its output's staging buffer.
-/
import proofs.«139444_j26594437497073_2_alg».proof.Proof.RunMidK

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four inputs at their contents, the outputs' buffers at anything, the accumulators at what
    the step before left — the body runs to the end, leaving the inputs as they were and each output buffer and each
    accumulator with the listed pieces written. -/
noncomputable def runLast (c : Dev nD) (i : grid0.Coords) (a2 : Memref sig .tc .vmem S512x6144 .f32) (h2 : a2.IsWhole) (a3 : Memref sig .tc .vmem S512x128 .f32) (h3 : a3.IsWhole) (a4 : Memref sig .tc .vmem S6144x128 .f32) (h4 : a4.IsWhole) (a5 : Memref sig .tc .vmem S1x128 .f32) (h5 : a5.IsWhole) (a6 : Memref sig .tc .vmem S1x128x6144 .f32) (h6 : a6.IsWhole) (a7 : Memref sig .tc .vmem S1x1x6144 .f32) (h7 : a7.IsWhole) (a8 : Memref sig .tc .vmem S128x6144 .f32) (h8 : a8.IsWhole) (a9 : Memref sig .tc .vmem S1x6144 .f32) (h9 : a9.IsWhole)
    (hf : ¬atFirst i) (hl : atLast i) (x0 : Vec F S512x6144 .f32) (x1 : Vec F S512x128 .f32) (x2 : Vec F S6144x128 .f32) (x3 : Vec F S1x128 .f32) (z : Vec F S128x6144 .f32) (g : Vec F S1x6144 .f32) :
    Σ' (L4 : List (View.Piece (Elt F) S1x128x6144 .f32)) (L5 : List (View.Piece (Elt F) S1x1x6144 .f32)) (LZ : List (View.Piece (Elt F) S128x6144 .f32)), { LG : List (View.Piece (Elt F) S1x6144 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ (∃ d, owns (c : Thread nD τ) a7 fullShare d) ∗ owns (c : Thread nD τ) a8 fullShare z ∗ owns (c : Thread nD τ) a9 fullShare g
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f L4) ∗ (∃ f, a7.view.loc (c : Thread nD τ) ↦[a7.view.set]{fullShare} a7.view.writes (Elt F) f L5) ∗ (∃ f, a8.view.loc (c : Thread nD τ) ↦[a8.view.set]{fullShare} a8.view.writes (Elt F) f LZ) ∗ (∃ f, a9.view.loc (c : Thread nD τ) ↦[a9.view.set]{fullShare} a9.view.writes (Elt F) f LG)) -∗ K ⟨⟩))
          ⊢ wp frame (wpE (defs₀ (F := F)) Variants.none c none) E (cc0__fused_kernel i a2 h2 a3 h3 a4 h4 a5 h5 a6 h6 a7 h7 a8 h8 a9 h9) K } := by
  refine ⟨?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fz, %hfz, HZ⟩, ⟨%fg, %hfg, HG⟩, Hk⟩
    obtain rfl := h2.eq_unread hf0; obtain rfl := h3.eq_unread hf1; obtain rfl := h4.eq_unread hf2; obtain rfl := h5.eq_unread hf3
    obtain rfl := h8.eq_unread hfz; obtain rfl := h9.eq_unread hfg
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [HZ]; · iexists _; iexact HZ
    iexists _; iexact HG

end Cert.Kernel.Around

end
-- ==== Proof.SweepK.lean ====
/-
  What the two accumulators and the two outputs' staging buffers hold after each grid point, the proof data of the
  pipeline built from it, the body's obligation at every grid point, and the run of @main: the region, then the host
  operations after it.

  The grid's 32 points are two sweeps of 16 (one per core index). A sweep's first point overwrites both accumulators
  (zero, then this point's contribution), every later point adds its contribution to what the point before left, and
  the sweep's last point also copies both accumulators into the outputs' staging buffers, which the pipeline then
  writes back to block `core` of the two partial-sum arrays.
-/
import proofs.«139444_j26594437497073_2_alg».proof.Proof.RunLastK

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

section Leaves
variable (c : Dev nD) (i : grid0.Coords) (a2 : Memref sig .tc .vmem S512x6144 .f32) (h2 : a2.IsWhole) (a3 : Memref sig .tc .vmem S512x128 .f32) (h3 : a3.IsWhole) (a4 : Memref sig .tc .vmem S6144x128 .f32) (h4 : a4.IsWhole) (a5 : Memref sig .tc .vmem S1x128 .f32) (h5 : a5.IsWhole) (a6 : Memref sig .tc .vmem S1x128x6144 .f32) (h6 : a6.IsWhole) (a7 : Memref sig .tc .vmem S1x1x6144 .f32) (h7 : a7.IsWhole) (a8 : Memref sig .tc .vmem S128x6144 .f32) (h8 : a8.IsWhole) (a9 : Memref sig .tc .vmem S1x6144 .f32) (h9 : a9.IsWhole)
  (x0 : Vec F S512x6144 .f32) (x1 : Vec F S512x128 .f32) (x2 : Vec F S6144x128 .f32) (x3 : Vec F S1x128 .f32)

theorem coverZ_first (hf : atFirst i) (hl : ¬atLast i) (y : S128x6144.Idx) : ∃ pc ∈ (runFirst c i a2 h2 a3 h3 a4 h4 a5 h5 a6 h6 a7 h7 a8 h8 a9 h9 hf hl x0 x1 x2 x3).1, y ∈ pc.1.set :=
  View.cover_of_tiledL (runFirst c i a2 h2 a3 h3 a4 h4 a5 h5 a6 h6 a7 h7 a8 h8 a9 h9 hf hl x0 x1 x2 x3).1 S128x6144.size (by sl_kernel_rfl) y
theorem coverG_first (hf : atFirst i) (hl : ¬atLast i) (y : S1x6144.Idx) : ∃ pc ∈ (runFirst c i a2 h2 a3 h3 a4 h4 a5 h5 a6 h6 a7 h7 a8 h8 a9 h9 hf hl x0 x1 x2 x3).2.1, y ∈ pc.1.set :=
  View.cover_of_tiledL (runFirst c i a2 h2 a3 h3 a4 h4 a5 h5 a6 h6 a7 h7 a8 h8 a9 h9 hf hl x0 x1 x2 x3).2.1 S1x6144.size (by sl_kernel_rfl) y
/-- The accumulators after a sweep's first point: the pieces the run found, read back. -/
def zFirst (hf : atFirst i) (hl : ¬atLast i) : Vec F S128x6144 .f32 :=
  viewZ.read (Elt F) (viewZ.writes (Elt F) viewZ.junk (runFirst c i a2 h2 a3 h3 a4 h4 a5 h5 a6 h6 a7 h7 a8 h8 a9 h9 hf hl x0 x1 x2 x3).1)
def gFirst (hf : atFirst i) (hl : ¬atLast i) : Vec F S1x6144 .f32 :=
  viewG.read (Elt F) (viewG.writes (Elt F) viewG.junk (runFirst c i a2 h2 a3 h3 a4 h4 a5 h5 a6 h6 a7 h7 a8 h8 a9 h9 hf hl x0 x1 x2 x3).2.1)

variable (z : Vec F S128x6144 .f32) (g : Vec F S1x6144 .f32)

theorem coverZ_mid (hf : ¬atFirst i) (hl : ¬atLast i) (y : S128x6144.Idx) : ∃ pc ∈ (runMid c i a2 h2 a3 h3 a4 h4 a5 h5 a6 h6 a7 h7 a8 h8 a9 h9 hf hl x0 x1 x2 x3 z g).1, y ∈ pc.1.set :=
  View.cover_of_tiledL (runMid c i a2 h2 a3 h3 a4 h4 a5 h5 a6 h6 a7 h7 a8 h8 a9 h9 hf hl x0 x1 x2 x3 z g).1 S128x6144.size (by sl_kernel_rfl) y
theorem coverG_mid (hf : ¬atFirst i) (hl : ¬atLast i) (y : S1x6144.Idx) : ∃ pc ∈ (runMid c i a2 h2 a3 h3 a4 h4 a5 h5 a6 h6 a7 h7 a8 h8 a9 h9 hf hl x0 x1 x2 x3 z g).2.1, y ∈ pc.1.set :=
  View.cover_of_tiledL (runMid c i a2 h2 a3 h3 a4 h4 a5 h5 a6 h6 a7 h7 a8 h8 a9 h9 hf hl x0 x1 x2 x3 z g).2.1 S1x6144.size (by sl_kernel_rfl) y
/-- The accumulators after a middle point, from what the point before left in them. -/
def zMid (hf : ¬atFirst i) (hl : ¬atLast i) : Vec F S128x6144 .f32 :=
  viewZ.read (Elt F) (viewZ.writes (Elt F) viewZ.junk (runMid c i a2 h2 a3 h3 a4 h4 a5 h5 a6 h6 a7 h7 a8 h8 a9 h9 hf hl x0 x1 x2 x3 z g).1)
def gMid (hf : ¬atFirst i) (hl : ¬atLast i) : Vec F S1x6144 .f32 :=
  viewG.read (Elt F) (viewG.writes (Elt F) viewG.junk (runMid c i a2 h2 a3 h3 a4 h4 a5 h5 a6 h6 a7 h7 a8 h8 a9 h9 hf hl x0 x1 x2 x3 z g).2.1)

theorem cover4_last (hf : ¬atFirst i) (hl : atLast i) (y : S1x128x6144.Idx) : ∃ pc ∈ (runLast c i a2 h2 a3 h3 a4 h4 a5 h5 a6 h6 a7 h7 a8 h8 a9 h9 hf hl x0 x1 x2 x3 z g).1, y ∈ pc.1.set :=
  View.cover_of_tiledL (runLast c i a2 h2 a3 h3 a4 h4 a5 h5 a6 h6 a7 h7 a8 h8 a9 h9 hf hl x0 x1 x2 x3 z g).1 S1x128x6144.size (by sl_kernel_rfl) y
theorem cover5_last (hf : ¬atFirst i) (hl : atLast i) (y : S1x1x6144.Idx) : ∃ pc ∈ (runLast c i a2 h2 a3 h3 a4 h4 a5 h5 a6 h6 a7 h7 a8 h8 a9 h9 hf hl x0 x1 x2 x3 z g).2.1, y ∈ pc.1.set :=
  View.cover_of_tiledL (runLast c i a2 h2 a3 h3 a4 h4 a5 h5 a6 h6 a7 h7 a8 h8 a9 h9 hf hl x0 x1 x2 x3 z g).2.1 S1x1x6144.size (by sl_kernel_rfl) y
theorem coverZ_last (hf : ¬atFirst i) (hl : atLast i) (y : S128x6144.Idx) : ∃ pc ∈ (runLast c i a2 h2 a3 h3 a4 h4 a5 h5 a6 h6 a7 h7 a8 h8 a9 h9 hf hl x0 x1 x2 x3 z g).2.2.1, y ∈ pc.1.set :=
  View.cover_of_tiledL (runLast c i a2 h2 a3 h3 a4 h4 a5 h5 a6 h6 a7 h7 a8 h8 a9 h9 hf hl x0 x1 x2 x3 z g).2.2.1 S128x6144.size (by sl_kernel_rfl) y
theorem coverG_last (hf : ¬atFirst i) (hl : atLast i) (y : S1x6144.Idx) : ∃ pc ∈ (runLast c i a2 h2 a3 h3 a4 h4 a5 h5 a6 h6 a7 h7 a8 h8 a9 h9 hf hl x0 x1 x2 x3 z g).2.2.2.1, y ∈ pc.1.set :=
  View.cover_of_tiledL (runLast c i a2 h2 a3 h3 a4 h4 a5 h5 a6 h6 a7 h7 a8 h8 a9 h9 hf hl x0 x1 x2 x3 z g).2.2.2.1 S1x6144.size (by sl_kernel_rfl) y
/-- The outputs' staging buffers and the accumulators after a sweep's last point. -/
def o4Last (hf : ¬atFirst i) (hl : atLast i) : Vec F S1x128x6144 .f32 :=
  viewO4.read (Elt F) (viewO4.writes (Elt F) viewO4.junk (runLast c i a2 h2 a3 h3 a4 h4 a5 h5 a6 h6 a7 h7 a8 h8 a9 h9 hf hl x0 x1 x2 x3 z g).1)
def o5Last (hf : ¬atFirst i) (hl : atLast i) : Vec F S1x1x6144 .f32 :=
  viewO5.read (Elt F) (viewO5.writes (Elt F) viewO5.junk (runLast c i a2 h2 a3 h3 a4 h4 a5 h5 a6 h6 a7 h7 a8 h8 a9 h9 hf hl x0 x1 x2 x3 z g).2.1)
def zLast (hf : ¬atFirst i) (hl : atLast i) : Vec F S128x6144 .f32 :=
  viewZ.read (Elt F) (viewZ.writes (Elt F) viewZ.junk (runLast c i a2 h2 a3 h3 a4 h4 a5 h5 a6 h6 a7 h7 a8 h8 a9 h9 hf hl x0 x1 x2 x3 z g).2.2.1)
def gLast (hf : ¬atFirst i) (hl : atLast i) : Vec F S1x6144 .f32 :=
  viewG.read (Elt F) (viewG.writes (Elt F) viewG.junk (runLast c i a2 h2 a3 h3 a4 h4 a5 h5 a6 h6 a7 h7 a8 h8 a9 h9 hf hl x0 x1 x2 x3 z g).2.2.2.1)

end Leaves

/-- A placeholder for an output's staging buffer at a point where nothing is stored into it (nothing consults it:
    the buffer is neither written back there nor read later). -/
def unset4 : Vec F S1x128x6144 .f32 := viewO4.read (Elt F) viewO4.junk
def unset5 : Vec F S1x1x6144 .f32 := viewO5.read (Elt F) viewO5.junk

/-! ## Point by point -/

/-- Which case a grid point is in, from its position. -/
theorem first_of (t : Fin cfg0.N) (h : t.val % 16 = 0) : atFirst (grid0.coords t) := (atFirst_iff t).mpr h
theorem notFirst_of (t : Fin cfg0.N) (h : ¬t.val % 16 = 0) : ¬atFirst (grid0.coords t) := fun hf => h ((atFirst_iff t).mp hf)
theorem last_of (t : Fin cfg0.N) (h : t.val % 16 = 15) : atLast (grid0.coords t) := (atLast_iff t).mpr h
theorem notLast_of (t : Fin cfg0.N) (h : ¬t.val % 16 = 15) : ¬atLast (grid0.coords t) := fun hl => h ((atLast_iff t).mp hl)
theorem notLast_of_first (t : Fin cfg0.N) (h : t.val % 16 = 0) : ¬atLast (grid0.coords t) :=
  fun hl => by have h' := (atLast_iff t).mp hl; omega

/-- What the two outputs' staging buffers and the two accumulators hold after the body at position `n`:
    (output 4's buffer, output 5's buffer, the (128, 6144) accumulator, the (1, 6144) accumulator). -/
def heldAt (c : Dev nD) : (n : ℕ) → n < cfg0.N → Vec F S1x128x6144 .f32 × Vec F S1x1x6144 .f32 × Vec F S128x6144 .f32 × Vec F S1x6144 .f32
  | 0, hn =>
    (unset4, unset5,
     zFirst c (grid0.coords ⟨0, hn⟩) (sg0 ⟨0, hn⟩) (hsg0 ⟨0, hn⟩) (sg1 ⟨0, hn⟩) (hsg1 ⟨0, hn⟩) (sg2 ⟨0, hn⟩) (hsg2 ⟨0, hn⟩) (sg3 ⟨0, hn⟩) (hsg3 ⟨0, hn⟩) (sg4 ⟨0, hn⟩) (hsg4 ⟨0, hn⟩) (sg5 ⟨0, hn⟩) (hsg5 ⟨0, hn⟩) accZ (Memref.isWhole_whole _) accG (Memref.isWhole_whole _) (blockAt m c 0 ⟨0, hn⟩) (blockAt m c 1 ⟨0, hn⟩) (blockAt m c 2 ⟨0, hn⟩) (blockAt m c 3 ⟨0, hn⟩) (first_of ⟨0, hn⟩ (Nat.zero_mod _)) (notLast_of_first ⟨0, hn⟩ (Nat.zero_mod _)),
     gFirst c (grid0.coords ⟨0, hn⟩) (sg0 ⟨0, hn⟩) (hsg0 ⟨0, hn⟩) (sg1 ⟨0, hn⟩) (hsg1 ⟨0, hn⟩) (sg2 ⟨0, hn⟩) (hsg2 ⟨0, hn⟩) (sg3 ⟨0, hn⟩) (hsg3 ⟨0, hn⟩) (sg4 ⟨0, hn⟩) (hsg4 ⟨0, hn⟩) (sg5 ⟨0, hn⟩) (hsg5 ⟨0, hn⟩) accZ (Memref.isWhole_whole _) accG (Memref.isWhole_whole _) (blockAt m c 0 ⟨0, hn⟩) (blockAt m c 1 ⟨0, hn⟩) (blockAt m c 2 ⟨0, hn⟩) (blockAt m c 3 ⟨0, hn⟩) (first_of ⟨0, hn⟩ (Nat.zero_mod _)) (notLast_of_first ⟨0, hn⟩ (Nat.zero_mod _)))
  | n + 1, hn =>
    if h0 : (n + 1) % 16 = 0 then
      (unset4, unset5,
       zFirst c (grid0.coords ⟨n + 1, hn⟩) (sg0 ⟨n + 1, hn⟩) (hsg0 ⟨n + 1, hn⟩) (sg1 ⟨n + 1, hn⟩) (hsg1 ⟨n + 1, hn⟩) (sg2 ⟨n + 1, hn⟩) (hsg2 ⟨n + 1, hn⟩) (sg3 ⟨n + 1, hn⟩) (hsg3 ⟨n + 1, hn⟩) (sg4 ⟨n + 1, hn⟩) (hsg4 ⟨n + 1, hn⟩) (sg5 ⟨n + 1, hn⟩) (hsg5 ⟨n + 1, hn⟩) accZ (Memref.isWhole_whole _) accG (Memref.isWhole_whole _) (blockAt m c 0 ⟨n + 1, hn⟩) (blockAt m c 1 ⟨n + 1, hn⟩) (blockAt m c 2 ⟨n + 1, hn⟩) (blockAt m c 3 ⟨n + 1, hn⟩) (first_of ⟨n + 1, hn⟩ h0) (notLast_of_first ⟨n + 1, hn⟩ h0),
       gFirst c (grid0.coords ⟨n + 1, hn⟩) (sg0 ⟨n + 1, hn⟩) (hsg0 ⟨n + 1, hn⟩) (sg1 ⟨n + 1, hn⟩) (hsg1 ⟨n + 1, hn⟩) (sg2 ⟨n + 1, hn⟩) (hsg2 ⟨n + 1, hn⟩) (sg3 ⟨n + 1, hn⟩) (hsg3 ⟨n + 1, hn⟩) (sg4 ⟨n + 1, hn⟩) (hsg4 ⟨n + 1, hn⟩) (sg5 ⟨n + 1, hn⟩) (hsg5 ⟨n + 1, hn⟩) accZ (Memref.isWhole_whole _) accG (Memref.isWhole_whole _) (blockAt m c 0 ⟨n + 1, hn⟩) (blockAt m c 1 ⟨n + 1, hn⟩) (blockAt m c 2 ⟨n + 1, hn⟩) (blockAt m c 3 ⟨n + 1, hn⟩) (first_of ⟨n + 1, hn⟩ h0) (notLast_of_first ⟨n + 1, hn⟩ h0))
    else
      if h1 : (n + 1) % 16 = 15 then
        (o4Last c (grid0.coords ⟨n + 1, hn⟩) (sg0 ⟨n + 1, hn⟩) (hsg0 ⟨n + 1, hn⟩) (sg1 ⟨n + 1, hn⟩) (hsg1 ⟨n + 1, hn⟩) (sg2 ⟨n + 1, hn⟩) (hsg2 ⟨n + 1, hn⟩) (sg3 ⟨n + 1, hn⟩) (hsg3 ⟨n + 1, hn⟩) (sg4 ⟨n + 1, hn⟩) (hsg4 ⟨n + 1, hn⟩) (sg5 ⟨n + 1, hn⟩) (hsg5 ⟨n + 1, hn⟩) accZ (Memref.isWhole_whole _) accG (Memref.isWhole_whole _) (blockAt m c 0 ⟨n + 1, hn⟩) (blockAt m c 1 ⟨n + 1, hn⟩) (blockAt m c 2 ⟨n + 1, hn⟩) (blockAt m c 3 ⟨n + 1, hn⟩) (heldAt c n (Nat.lt_of_succ_lt hn)).2.2.1 (heldAt c n (Nat.lt_of_succ_lt hn)).2.2.2 (notFirst_of ⟨n + 1, hn⟩ h0) (last_of ⟨n + 1, hn⟩ h1),
         o5Last c (grid0.coords ⟨n + 1, hn⟩) (sg0 ⟨n + 1, hn⟩) (hsg0 ⟨n + 1, hn⟩) (sg1 ⟨n + 1, hn⟩) (hsg1 ⟨n + 1, hn⟩) (sg2 ⟨n + 1, hn⟩) (hsg2 ⟨n + 1, hn⟩) (sg3 ⟨n + 1, hn⟩) (hsg3 ⟨n + 1, hn⟩) (sg4 ⟨n + 1, hn⟩) (hsg4 ⟨n + 1, hn⟩) (sg5 ⟨n + 1, hn⟩) (hsg5 ⟨n + 1, hn⟩) accZ (Memref.isWhole_whole _) accG (Memref.isWhole_whole _) (blockAt m c 0 ⟨n + 1, hn⟩) (blockAt m c 1 ⟨n + 1, hn⟩) (blockAt m c 2 ⟨n + 1, hn⟩) (blockAt m c 3 ⟨n + 1, hn⟩) (heldAt c n (Nat.lt_of_succ_lt hn)).2.2.1 (heldAt c n (Nat.lt_of_succ_lt hn)).2.2.2 (notFirst_of ⟨n + 1, hn⟩ h0) (last_of ⟨n + 1, hn⟩ h1),
         zLast c (grid0.coords ⟨n + 1, hn⟩) (sg0 ⟨n + 1, hn⟩) (hsg0 ⟨n + 1, hn⟩) (sg1 ⟨n + 1, hn⟩) (hsg1 ⟨n + 1, hn⟩) (sg2 ⟨n + 1, hn⟩) (hsg2 ⟨n + 1, hn⟩) (sg3 ⟨n + 1, hn⟩) (hsg3 ⟨n + 1, hn⟩) (sg4 ⟨n + 1, hn⟩) (hsg4 ⟨n + 1, hn⟩) (sg5 ⟨n + 1, hn⟩) (hsg5 ⟨n + 1, hn⟩) accZ (Memref.isWhole_whole _) accG (Memref.isWhole_whole _) (blockAt m c 0 ⟨n + 1, hn⟩) (blockAt m c 1 ⟨n + 1, hn⟩) (blockAt m c 2 ⟨n + 1, hn⟩) (blockAt m c 3 ⟨n + 1, hn⟩) (heldAt c n (Nat.lt_of_succ_lt hn)).2.2.1 (heldAt c n (Nat.lt_of_succ_lt hn)).2.2.2 (notFirst_of ⟨n + 1, hn⟩ h0) (last_of ⟨n + 1, hn⟩ h1),
         gLast c (grid0.coords ⟨n + 1, hn⟩) (sg0 ⟨n + 1, hn⟩) (hsg0 ⟨n + 1, hn⟩) (sg1 ⟨n + 1, hn⟩) (hsg1 ⟨n + 1, hn⟩) (sg2 ⟨n + 1, hn⟩) (hsg2 ⟨n + 1, hn⟩) (sg3 ⟨n + 1, hn⟩) (hsg3 ⟨n + 1, hn⟩) (sg4 ⟨n + 1, hn⟩) (hsg4 ⟨n + 1, hn⟩) (sg5 ⟨n + 1, hn⟩) (hsg5 ⟨n + 1, hn⟩) accZ (Memref.isWhole_whole _) accG (Memref.isWhole_whole _) (blockAt m c 0 ⟨n + 1, hn⟩) (blockAt m c 1 ⟨n + 1, hn⟩) (blockAt m c 2 ⟨n + 1, hn⟩) (blockAt m c 3 ⟨n + 1, hn⟩) (heldAt c n (Nat.lt_of_succ_lt hn)).2.2.1 (heldAt c n (Nat.lt_of_succ_lt hn)).2.2.2 (notFirst_of ⟨n + 1, hn⟩ h0) (last_of ⟨n + 1, hn⟩ h1))
      else
        (unset4, unset5,
         zMid c (grid0.coords ⟨n + 1, hn⟩) (sg0 ⟨n + 1, hn⟩) (hsg0 ⟨n + 1, hn⟩) (sg1 ⟨n + 1, hn⟩) (hsg1 ⟨n + 1, hn⟩) (sg2 ⟨n + 1, hn⟩) (hsg2 ⟨n + 1, hn⟩) (sg3 ⟨n + 1, hn⟩) (hsg3 ⟨n + 1, hn⟩) (sg4 ⟨n + 1, hn⟩) (hsg4 ⟨n + 1, hn⟩) (sg5 ⟨n + 1, hn⟩) (hsg5 ⟨n + 1, hn⟩) accZ (Memref.isWhole_whole _) accG (Memref.isWhole_whole _) (blockAt m c 0 ⟨n + 1, hn⟩) (blockAt m c 1 ⟨n + 1, hn⟩) (blockAt m c 2 ⟨n + 1, hn⟩) (blockAt m c 3 ⟨n + 1, hn⟩) (heldAt c n (Nat.lt_of_succ_lt hn)).2.2.1 (heldAt c n (Nat.lt_of_succ_lt hn)).2.2.2 (notFirst_of ⟨n + 1, hn⟩ h0) (notLast_of ⟨n + 1, hn⟩ h1),
         gMid c (grid0.coords ⟨n + 1, hn⟩) (sg0 ⟨n + 1, hn⟩) (hsg0 ⟨n + 1, hn⟩) (sg1 ⟨n + 1, hn⟩) (hsg1 ⟨n + 1, hn⟩) (sg2 ⟨n + 1, hn⟩) (hsg2 ⟨n + 1, hn⟩) (sg3 ⟨n + 1, hn⟩) (hsg3 ⟨n + 1, hn⟩) (sg4 ⟨n + 1, hn⟩) (hsg4 ⟨n + 1, hn⟩) (sg5 ⟨n + 1, hn⟩) (hsg5 ⟨n + 1, hn⟩) accZ (Memref.isWhole_whole _) accG (Memref.isWhole_whole _) (blockAt m c 0 ⟨n + 1, hn⟩) (blockAt m c 1 ⟨n + 1, hn⟩) (blockAt m c 2 ⟨n + 1, hn⟩) (blockAt m c 3 ⟨n + 1, hn⟩) (heldAt c n (Nat.lt_of_succ_lt hn)).2.2.1 (heldAt c n (Nat.lt_of_succ_lt hn)).2.2.2 (notFirst_of ⟨n + 1, hn⟩ h0) (notLast_of ⟨n + 1, hn⟩ h1))

/-- At a sweep's first point: the first case's contents. -/
theorem heldAt_first (c : Dev nD) (t : Fin cfg0.N) (hf : atFirst (grid0.coords t)) (hl : ¬atLast (grid0.coords t)) :
    heldAt m c t.val t.isLt = (unset4, unset5,
      zFirst c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) hf hl,
      gFirst c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) hf hl) := by
  have h0 : t.val % 16 = 0 := (atFirst_iff t).mp hf
  obtain ⟨n, hn⟩ := t
  cases n with
  | zero => exact rfl
  | succ n => exact (dif_pos h0).trans rfl

/-- At a middle point: the middle case's contents, over what the point before left. -/
theorem heldAt_mid (c : Dev nD) (t : Fin cfg0.N) (hf : ¬atFirst (grid0.coords t)) (hl : ¬atLast (grid0.coords t)) :
    heldAt m c t.val t.isLt = (unset4, unset5,
      zMid c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) (heldAt m c (t.val - 1) (Nat.lt_of_le_of_lt (Nat.sub_le _ _) t.isLt)).2.2.1 (heldAt m c (t.val - 1) (Nat.lt_of_le_of_lt (Nat.sub_le _ _) t.isLt)).2.2.2 hf hl,
      gMid c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) (heldAt m c (t.val - 1) (Nat.lt_of_le_of_lt (Nat.sub_le _ _) t.isLt)).2.2.1 (heldAt m c (t.val - 1) (Nat.lt_of_le_of_lt (Nat.sub_le _ _) t.isLt)).2.2.2 hf hl) := by
  have h0 : ¬t.val % 16 = 0 := fun h => hf ((atFirst_iff t).mpr h)
  have h1 : ¬t.val % 16 = 15 := fun h => hl ((atLast_iff t).mpr h)
  obtain ⟨n, hn⟩ := t
  cases n with
  | zero => exact absurd (Nat.zero_mod _) h0
  | succ n => exact (dif_neg h0).trans ((dif_neg h1).trans rfl)

/-- At a sweep's last point: the last case's contents, over what the point before left. -/
theorem heldAt_last (c : Dev nD) (t : Fin cfg0.N) (hf : ¬atFirst (grid0.coords t)) (hl : atLast (grid0.coords t)) :
    heldAt m c t.val t.isLt = (
      o4Last c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) (heldAt m c (t.val - 1) (Nat.lt_of_le_of_lt (Nat.sub_le _ _) t.isLt)).2.2.1 (heldAt m c (t.val - 1) (Nat.lt_of_le_of_lt (Nat.sub_le _ _) t.isLt)).2.2.2 hf hl,
      o5Last c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) (heldAt m c (t.val - 1) (Nat.lt_of_le_of_lt (Nat.sub_le _ _) t.isLt)).2.2.1 (heldAt m c (t.val - 1) (Nat.lt_of_le_of_lt (Nat.sub_le _ _) t.isLt)).2.2.2 hf hl,
      zLast c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) (heldAt m c (t.val - 1) (Nat.lt_of_le_of_lt (Nat.sub_le _ _) t.isLt)).2.2.1 (heldAt m c (t.val - 1) (Nat.lt_of_le_of_lt (Nat.sub_le _ _) t.isLt)).2.2.2 hf hl,
      gLast c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) (heldAt m c (t.val - 1) (Nat.lt_of_le_of_lt (Nat.sub_le _ _) t.isLt)).2.2.1 (heldAt m c (t.val - 1) (Nat.lt_of_le_of_lt (Nat.sub_le _ _) t.isLt)).2.2.2 hf hl) := by
  have h0 : ¬t.val % 16 = 0 := fun h => hf ((atFirst_iff t).mpr h)
  have h1 : t.val % 16 = 15 := (atLast_iff t).mp hl
  obtain ⟨n, hn⟩ := t
  cases n with
  | zero => exact absurd (Nat.zero_mod _) h0
  | succ n => exact (dif_neg h0).trans ((dif_pos h1).trans rfl)

/-! ## The invariant between grid points -/

/-- Before position `n`: before the first point, what the launch hands over (both accumulators at anything);
    afterwards both accumulators at what the point before left, and the generator register at some state. -/
def invAt (c : Dev nD) : (n : ℕ) → n ≤ cfg0.N → sProp 𝕄
  | 0, _ => Pipeline.ΦA spec0 c
  | n + 1, hn => iprop(iprop(owns (c : Thread nD τ) accZ fullShare (heldAt m c n hn).2.2.1 ∗ owns (c : Thread nD τ) accG fullShare (heldAt m c n hn).2.2.2) ∗ (∃ r, prngReg c r))

theorem invAt_zero (c : Dev nD) (n : ℕ) (h : n ≤ cfg0.N) (hz : n = 0) : invAt m c n h = Pipeline.ΦA spec0 c := by
  subst hz; rfl
theorem invAt_succ (c : Dev nD) (n : ℕ) (hn : n < cfg0.N) :
    invAt m c (n + 1) hn = iprop(iprop(owns (c : Thread nD τ) accZ fullShare (heldAt m c n hn).2.2.1 ∗ owns (c : Thread nD τ) accG fullShare (heldAt m c n hn).2.2.2) ∗ (∃ r, prngReg c r)) := rfl
theorem invAt_pos (c : Dev nD) (n : ℕ) (h : n ≤ cfg0.N) (hz : n ≠ 0) :
    invAt m c n h = iprop(iprop(owns (c : Thread nD τ) accZ fullShare (heldAt m c (n - 1) (by omega)).2.2.1 ∗ owns (c : Thread nD τ) accG fullShare (heldAt m c (n - 1) (by omega)).2.2.2) ∗ (∃ r, prngReg c r)) := by
  cases n with
  | zero => exact absurd rfl hz
  | succ n => rfl

/-! ## The pipeline's proof data -/

/-- On core `c`: the arrays as the region finds them; after the body at a point each input's buffer at its block and
    each output's at `heldAt`; the invariant `invAt`; nothing owed; full shares. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => (heldAt m c t.val t.isLt).1
    | ⟨5, _⟩ => (heldAt m c t.val t.isLt).2.1
  Φ t := invAt m c t.val (Nat.le_of_lt_succ t.isLt)
  q _ := fullShare
  owed _ := 0

theorem A_eq (c : Dev nD) (w : Fin cfg0.W) : (dats m 0 c).A w = entryAt m c (Pipeline.arrRef spec0 w) := by
  dsimp only [dats]
theorem inv_castSucc (c : Dev nD) (t : Fin cfg0.N) :
    (dats m 0 c).Φ t.castSucc = invAt m c t.val (Nat.le_of_lt t.isLt) := by
  dsimp only [dats]; simp only [Fin.coe_castSucc]
theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = (heldAt m c t.val t.isLt).1 := by dsimp only [dats]
theorem after_5 (c : Dev nD) (t : Fin cfg0.N) : (dats m 0 c).after 5 t = (heldAt m c t.val t.isLt).2.1 := by dsimp only [dats]

theorem before_0 (c : Dev nD) (t : Fin cfg0.N) (d) : (dats m 0 c).before 0 t d = blockAt m c 0 t :=
  found0 m (dats m 0 c) (A_eq m c 0) (after_0 m c) t d
theorem before_1 (c : Dev nD) (t : Fin cfg0.N) (d) : (dats m 0 c).before 1 t d = blockAt m c 1 t :=
  found1 m (dats m 0 c) (A_eq m c 1) (after_1 m c) t d
theorem before_2 (c : Dev nD) (t : Fin cfg0.N) (d) : (dats m 0 c).before 2 t d = blockAt m c 2 t :=
  found2 m (dats m 0 c) (A_eq m c 2) (after_2 m c) t d
theorem before_3 (c : Dev nD) (t : Fin cfg0.N) (d) : (dats m 0 c).before 3 t d = blockAt m c 3 t :=
  found3 m (dats m 0 c) (A_eq m c 3) (after_3 m c) t d

/-- An input's buffer is handed back at its block. -/
theorem leaves_0 (c : Dev nD) (t : Fin cfg0.N) : (dats m 0 c).leavesExact 0 t = owns (c : Thread nD τ) (sg0 t) fullShare (blockAt m c 0 t) := by
  unfold Dat.leavesExact; rw [live0 t, after_0]
theorem leaves_1 (c : Dev nD) (t : Fin cfg0.N) : (dats m 0 c).leavesExact 1 t = owns (c : Thread nD τ) (sg1 t) fullShare (blockAt m c 1 t) := by
  unfold Dat.leavesExact; rw [live1 t, after_1]
theorem leaves_2 (c : Dev nD) (t : Fin cfg0.N) : (dats m 0 c).leavesExact 2 t = owns (c : Thread nD τ) (sg2 t) fullShare (blockAt m c 2 t) := by
  unfold Dat.leavesExact; rw [live2 t, after_2]
theorem leaves_3 (c : Dev nD) (t : Fin cfg0.N) : (dats m 0 c).leavesExact 3 t = owns (c : Thread nD τ) (sg3 t) fullShare (blockAt m c 3 t) := by
  unfold Dat.leavesExact; rw [live3 t, after_3]

end Cert.Kernel.Around

end
-- ==== Proof.RegionRunK.lean ====
/-
  The kernel body's obligation at every grid point, and the run of @main: the host operations before the region, the
  region under the proof data of the accumulation, the host operations after it. The run ends with every array of the
  pipeline at what the proof data computes from the blocks written back and every other buffer as the later host
  operations leave it; the frame claim (the arguments end unchanged) is read off it.
-/
import proofs.«139444_j26594437497073_2_alg».proof.Proof.SweepK

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at grid point `t`: the invariant, nothing owed, and each window's current staging
    buffer at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (sg0 t) fullShare ((dats m 0 c).before 0 t d))
    ∗ (∃ d, owns (c : Thread nD τ) (sg1 t) fullShare ((dats m 0 c).before 1 t d))
    ∗ (∃ d, owns (c : Thread nD τ) (sg2 t) fullShare ((dats m 0 c).before 2 t d))
    ∗ (∃ d, owns (c : Thread nD τ) (sg3 t) fullShare ((dats m 0 c).before 3 t d))
    ∗ (∃ d, owns (c : Thread nD τ) (sg4 t) fullShare ((dats m 0 c).before 4 t d))
    ∗ (∃ d, owns (c : Thread nD τ) (sg5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 8000000 in
/-- The body at any grid point. The inputs' buffers hold their blocks; the position says which of the three cases the
    point is in; the invariant hands the accumulators over at what the point before left (at anything at the very
    first point) and takes them back at this point's contents, which the case's pieces cover; an output's buffer is
    handed back untouched except at a sweep's last point, where the case's pieces cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = invAt m c (t.val + 1) t.isLt from rfl, invAt_succ]
  rw [leaves_0, leaves_1, leaves_2, leaves_3]
  have hN : t.val < 32 := lt_of_lt_of_eq t.isLt (show cfg0.N = 32 from N_0)
  by_cases hf : atFirst (grid0.coords t)
  · have hl : ¬atLast (grid0.coords t) := notLast_of_first t ((atFirst_iff t).mp hf)
    rw [Dat.leavesExact_idle (dats m 0 c) 4 t (idle4 t hl) (noFlush4 t hl), Dat.leavesExact_idle (dats m 0 c) 5 t (idle5 t hl) (noFlush5 t hl)]
    rw [heldAt_first m c t hf hl]
    unfold zFirst gFirst; (try dsimp only)
    by_cases hz : t.val = 0
    · rw [inv_castSucc m c t, invAt_zero m c _ _ hz, scratch_inv]
      iintro ⟨⟨⟨HZ, HG⟩, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ _ _ hf hl (blockAt m c 0 t) (blockAt m c 1 t) (blockAt m c 2 t) (blockAt m c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HZ]; · iexact HZ
      isplitl [HG]; · iexact HG
      iintro ⟨H0, H1, H2, H3, H4, H5, ⟨%ez, HZ⟩, ⟨%eg, HG⟩⟩
      isplitl [HZ HG Hg]
      · isplitl [HZ HG]
        · isplitl [HZ]
          · unfold owns; iexists _; isplitr
            swap; · iexact HZ
            ipureintro; exact View.read_writes_of_cover _ _ _ _ _ (coverZ_first c _ _ _ _ _ _ _ _ _ _ _ _ _ _ _ _ _ _ _ _ _ _ _)
          · unfold owns; iexists _; isplitr
            swap; · iexact HG
            ipureintro; exact View.read_writes_of_cover _ _ _ _ _ (coverG_first c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [inv_castSucc m c t, invAt_pos m c _ _ hz]
      iintro ⟨⟨⟨HZ, HG⟩, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ _ _ hf hl (blockAt m c 0 t) (blockAt m c 1 t) (blockAt m c 2 t) (blockAt m c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HZ]; · iexists _; iexact HZ
      isplitl [HG]; · iexists _; iexact HG
      iintro ⟨H0, H1, H2, H3, H4, H5, ⟨%ez, HZ⟩, ⟨%eg, HG⟩⟩
      isplitl [HZ HG Hg]
      · isplitl [HZ HG]
        · isplitl [HZ]
          · unfold owns; iexists _; isplitr
            swap; · iexact HZ
            ipureintro; exact View.read_writes_of_cover _ _ _ _ _ (coverZ_first c _ _ _ _ _ _ _ _ _ _ _ _ _ _ _ _ _ _ _ _ _ _ _)
          · unfold owns; iexists _; isplitr
            swap; · iexact HG
            ipureintro; exact View.read_writes_of_cover _ _ _ _ _ (coverG_first c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => hf ((atFirst_iff t).mpr (by rw [h]))
    by_cases hl : atLast (grid0.coords t)
    · rw [show (dats m 0 c).leavesExact 4 t = owns (c : Thread nD τ) (sg4 t) fullShare ((dats m 0 c).after 4 t) from by
        unfold Dat.leavesExact; rw [live4 t hl], after_4]
      rw [show (dats m 0 c).leavesExact 5 t = owns (c : Thread nD τ) (sg5 t) fullShare ((dats m 0 c).after 5 t) from by
        unfold Dat.leavesExact; rw [live5 t hl], after_5]
      rw [heldAt_last m c t hf hl]
      unfold o4Last o5Last zLast gLast; (try dsimp only)
      rw [inv_castSucc m c t, invAt_pos m c _ _ hz]
      iintro ⟨⟨⟨HZ, HG⟩, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ _ _ hf hl (blockAt m c 0 t) (blockAt m c 1 t) (blockAt m c 2 t) (blockAt m c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HZ]; · iexact HZ
      isplitl [HG]; · iexact HG
      iintro ⟨H0, H1, H2, H3, ⟨%e4, H4⟩, ⟨%e5, H5⟩, ⟨%ez, HZ⟩, ⟨%eg, HG⟩⟩
      isplitl [HZ HG Hg]
      · isplitl [HZ HG]
        · isplitl [HZ]
          · unfold owns; iexists _; isplitr
            swap; · iexact HZ
            ipureintro; exact View.read_writes_of_cover _ _ _ _ _ (coverZ_last c _ _ _ _ _ _ _ _ _ _ _ _ _ _ _ _ _ _ _ _ _ _ _ _ _)
          · unfold owns; iexists _; isplitr
            swap; · iexact HG
            ipureintro; exact View.read_writes_of_cover _ _ _ _ _ (coverG_last c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_last c _ _ _ _ _ _ _ _ _ _ _ _ _ _ _ _ _ _ _ _ _ _ _ _ _)
      · unfold owns; iexists _; isplitr
        swap; · iexact H5
        ipureintro; exact View.read_writes_of_cover _ _ _ _ _ (cover5_last c _ _ _ _ _ _ _ _ _ _ _ _ _ _ _ _ _ _ _ _ _ _ _ _ _)
    · rw [Dat.leavesExact_idle (dats m 0 c) 4 t (idle4 t hl) (noFlush4 t hl), Dat.leavesExact_idle (dats m 0 c) 5 t (idle5 t hl) (noFlush5 t hl)]
      rw [heldAt_mid m c t hf hl]
      unfold zMid gMid; (try dsimp only)
      rw [inv_castSucc m c t, invAt_pos m c _ _ hz]
      iintro ⟨⟨⟨HZ, HG⟩, Hg⟩, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ _ _ _ _ hf hl (blockAt m c 0 t) (blockAt m c 1 t) (blockAt m c 2 t) (blockAt m c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HZ]; · iexact HZ
      isplitl [HG]; · iexact HG
      iintro ⟨H0, H1, H2, H3, H4, H5, ⟨%ez, HZ⟩, ⟨%eg, HG⟩⟩
      isplitl [HZ HG Hg]
      · isplitl [HZ HG]
        · isplitl [HZ]
          · unfold owns; iexists _; isplitr
            swap; · iexact HZ
            ipureintro; exact View.read_writes_of_cover _ _ _ _ _ (coverZ_mid c _ _ _ _ _ _ _ _ _ _ _ _ _ _ _ _ _ _ _ _ _ _ _ _ _)
          · unfold owns; iexists _; isplitr
            swap; · iexact HG
            ipureintro; exact View.read_writes_of_cover _ _ _ _ _ (coverG_mid c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every grid point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = invAt m c 0 (Nat.zero_le _) from rfl, invAt_zero m c 0 _ rfl]
  try exact Idealize.SL.BI.Entails.refl _

/-- After the last point the invariant gives it back: the accumulators' contents are forgotten. -/
theorem inv_out (c : Dev nD) : (dats m 0 c).Φ (Fin.last cfg0.N) ⊢ Pipeline.ΦA spec0 c := by
  rw [show (dats m 0 c).Φ (Fin.last cfg0.N) = invAt m c (Fin.last cfg0.N).val (Nat.le_of_lt_succ (Fin.last cfg0.N).isLt) from rfl,
    invAt_pos m c _ _ (by rw [Fin.val_last]; have : cfg0.N = 32 := N_0; omega), scratch_inv]
  iintro ⟨⟨HZ, HG⟩, Hg⟩
  isplitl [HZ HG]
  · isplitl [HZ]
    · iexists _; iexact HZ
    · iexists _; iexact HG
  iexact Hg

set_option backward.isDefEq.respectTransparency.types false in
/-- From any memory with zero counters every weakly fair execution of @main terminates, no step faulting, with every
    array of the pipeline at what the proof data computes and every other unscoped buffer as the host operations
    after the region leave it. -/
theorem run_main : θ_run defs (onTc (τ := τ) (main (F := F))) (s₀ m ρ)
    (Pipeline.FramePost cfgs (dats m) 0 (Pipeline.afterTail₀ cfgs (dats m) 0 (entryVals m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := entryVals m) (opss := tailOps) (hsub := tail_sub) (hfresh := tail_fresh) (hkeep := tail_keeps)
    (hmain := main_around m Variants.none) (hA := A_eq m) (hin := inv_in m) (hout := inv_out m)

/-- The frame: @main runs to the end and its six argument arrays end as launched, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_kept m (dats m) (A_eq m) r h c) (run_main m ρ)

end Cert.Kernel.Around

end
-- ==== Proof.AroundKI.lean ====
/-
  The fused kernel's region inside @main, for the idealized kernel program.

  @main is: eight host operations (the product `mean_beta * p_hat^T` and the column means of `mean_z`), the
  pallas_call, then three stretches of host operations (the combination of the two cores' partial sums and the
  variational update; the clipping function; the stacking of the three results). This module states what the region
  is entered with, that the later stretches touch no array of the pipeline, what block of its array each window
  holds at a grid point, and at which grid points the body's two conditionals are taken: the grid is 2 x 16, the
  first conditional (zero the accumulators) is taken where the second coordinate is 0, the second (copy the
  accumulators out) where it is 15.
-/
import proofs.«139444_j26594437497073_2_alg».proof.Proof.Gen.KernelIdeal.Launch
import proofs.«139444_j26594437497073_2_alg».proof.Proof.Gen.KernelIdeal.Skeleton
import proofs.«139444_j26594437497073_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The TensorCore buffers' contents when the region is entered: the memory after the eight host operations
    that come before it. -/
abbrev entryVals (c : Dev nD) : Valuation τ sig (Elt F) := StableHlo.after (List.flatten [hostOps0]) (fun b => m (c, b))
/-- The same at one reference. -/
abbrev entryAt (c : Dev nD) (b : Ref sig .tc) : Buf (Elt F) ((c : Thread nD τ).loc b) := entryVals m c (Proc.devRef .tc b)

/-- The stretches of host operations after the region. -/
abbrev tailOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the host operations before the region, the region, and the later stretches. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later stretches touch only the pipeline's arrays and buffers that bypass the region. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-! ## What the host operations write -/

/-- The result buffers of the eight host operations before the region. -/
abbrev headResults : List (Ref sig .tc) := [main_v0, main_v1, main_cst, main_v2, main_v3, main_cst_0, main_v4, main_v5]

/-- The result buffers of the host operations after the region, in order. -/
abbrev tailResults : List (Ref sig .tc) :=
  [main_cst_1, main_v7, main_cst_2, main_v8, main_v9, main_v10, main_v11, main_v12, main_v13, main_v14, main_v15, main_v16,
   main_cst_3, main_v17, main_v18, main_v19, main_cst_4, main_v20, main_v21, main_v22, main_v23, main_v24, main_cst_5,
   main_v25, main_v26, main_v27, main_v28, main_v29, main_v30, main_v31, main_cst_6, main_v32, main_v33, main_cst_7,
   main_v34, main_v35, main_cst_8, main_cst_9, main_call0_v0, main_call0_v1, main_call0_v2, main_call0_v3,
   main_call0_v4, main_v36, main_v37, main_v38, main_v39, main_v40]

/-- Each operation before the region writes one of the listed buffers. -/
theorem head_writes : (hostOps0 : List (HloOp τ sig (Elt F))).Forall fun op =>
    op.writes ⊆ (headResults.map (Proc.devRef (τ := τ) .tc)).toFinset := by
  simp only [hostOps0, List.Forall, StableHlo.nullary_writes, StableHlo.unary_writes, StableHlo.binary_writes,
    Finset.singleton_subset_iff, List.mem_toFinset]
  repeat' apply And.intro
  all_goals exact List.mem_map_of_mem (by decide)

/-- Each operation after the region writes one of the listed buffers. -/
theorem tail_writes : ((tailOps (F := F)).flatten).Forall fun op =>
    op.writes ⊆ (tailResults.map (Proc.devRef (τ := τ) .tc)).toFinset := by
  simp only [tailOps, hostOps1, hostOps1_1, hostOps1_2, List.flatten_cons, List.flatten_nil, List.append_nil, List.cons_append,
    List.nil_append, List.Forall, StableHlo.nullary_writes, StableHlo.unary_writes, StableHlo.binary_writes,
    StableHlo.reshape_writes, StableHlo.nary_writes, Finset.singleton_subset_iff, List.mem_toFinset]
  repeat' apply And.intro
  all_goals exact List.mem_map_of_mem (by decide)

/-- No array of the pipeline is among them. -/
theorem arrays_not_tail : ∀ w : Fin 6, Pipeline.arrRef spec0 w ∉ tailResults := by decide

/-- So the later stretches write no array of the pipeline. -/
theorem tail_keeps : ∀ ops ∈ (tailOps : List (List (HloOp τ sig (Elt F)))), ∀ op ∈ ops,
    ∀ w, Proc.devRef .tc (Pipeline.arrRef spec0 w) ∉ op.writes := by
  intro ops hops op hop w hw
  have hmem : op ∈ (tailOps (F := F)).flatten := List.mem_flatten.mpr ⟨ops, hops, hop⟩
  obtain ⟨y, hy, he⟩ := List.mem_map.mp (List.mem_toFinset.mp ((List.forall_iff_forall_mem.mp tail_writes) op hmem hw))
  exact arrays_not_tail w (Proc.devRef_injective _ he ▸ hy)

/-- A buffer the operations before the region do not write is entered as launched. -/
theorem entry_kept (c : Dev nD) (r : Ref sig .tc) (hr : r ∉ headResults) :
    entryAt m c r = m ((c : Thread nD τ).loc r) := by
  dsimp only [entryAt, entryVals]
  simp only [List.flatten_cons, List.flatten_nil, List.append_nil]
  exact StableHlo.after_of_writes_sub _ _ head_writes hr

/-- A buffer that is no array of the pipeline and that the later stretches do not write ends as the region was
    entered. -/
theorem tail_kept (dats : (p : Fin 1) → (c : Dev nD) → Dat τ (Elt F) Unit ℕ (UR sig nD τ) ℕ (cfgs p) c) (c : Dev nD)
    (r : Ref sig .tc) (hr : r ∉ tailResults) (hne : ∀ w, Pipeline.arrRef spec0 w ≠ r) :
    Pipeline.afterTail₀ cfgs dats 0 (entryVals m) tailOps c r = entryAt m c r := by
  unfold Pipeline.afterTail₀
  rw [StableHlo.after_of_writes_sub _ _ tail_writes hr, Pipeline.withArrays_of_ne _ c _ _ r hne]

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- Each input window's current staging buffer holds its block at every grid point, fetched there or not (the two
    resident operands are fetched once: their block index never moves). -/
theorem found0 {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found1 {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found2 {c : Dev nD} (dat : Dat τ (Elt F) Unit ℕ (UR sig nD τ) ℕ cfg0 c) (hA : dat.A 2 = entryAt m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found3 {c : Dev nD} (dat : Dat τ (Elt F) Unit ℕ (UR sig nD τ) ℕ cfg0 c) (hA : dat.A 3 = entryAt m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from the region's run -/

/-- From a run ending with every array of the pipeline at what the proof data computes and every other buffer as
    the later stretches leave it: the six argument arrays end as launched (two are staged inputs of the pipeline,
    four bypass it and are written by no host operation). -/
theorem args_kept (dats : (p : Fin 1) → (c : Dev nD) → Dat τ (Elt F) Unit ℕ (UR sig nD τ) ℕ (cfgs p) c)
    (hA : ∀ c w, (dats 0 c).A w = entryAt m c (Pipeline.arrRef spec0 w))
    (r : PUnit × MemSt nD τ sig (Elt F))
    (h : Pipeline.FramePost cfgs dats 0 (Pipeline.afterTail₀ cfgs dats 0 (entryVals m) tailOps) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats 0 c).arrAt_in 0 rfl _).trans ((hA c 0).trans (entry_kept m c main_arg0 (by decide)))),
   ((h c).1 1).trans (((dats 0 c).arrAt_in 1 rfl _).trans ((hA c 1).trans (entry_kept m c main_arg1 (by decide)))),
   ((h c).2 main_arg2 (Pipeline.mem_restRefs_of main_arg2 (by decide) (by decide))).trans
     ((tail_kept m dats c main_arg2 (by decide) (by decide)).trans (entry_kept m c main_arg2 (by decide))),
   ((h c).2 main_arg3 (Pipeline.mem_restRefs_of main_arg3 (by decide) (by decide))).trans
     ((tail_kept m dats c main_arg3 (by decide) (by decide)).trans (entry_kept m c main_arg3 (by decide))),
   ((h c).2 main_arg4 (Pipeline.mem_restRefs_of main_arg4 (by decide) (by decide))).trans
     ((tail_kept m dats c main_arg4 (by decide) (by decide)).trans (entry_kept m c main_arg4 (by decide))),
   ((h c).2 main_arg5 (Pipeline.mem_restRefs_of main_arg5 (by decide) (by decide))).trans
     ((tail_kept m dats c main_arg5 (by decide) (by decide)).trans (entry_kept m c main_arg5 (by decide)))⟩

/-! ## The body's two conditionals -/

/-- The first conditional's condition (the second grid coordinate is 0), as the body computes it. -/
abbrev atFirst (i : grid0.Coords) : Prop :=
  (Scalar.cmpi .ne (Scalar.extui (Scalar.cmpi .eq (BitVec.ofNat 32 (i 1).val) 0#32)) 0#32) = 1#1
/-- It holds at the grid points whose position is a multiple of 16. -/
theorem atFirst_iff : ∀ t : Fin cfg0.N, atFirst (grid0.coords t) ↔ t.val % 16 = 0 :=
  (by decide +kernel : ∀ t : Fin grid0.N, atFirst (grid0.coords t) ↔ t.val % 16 = 0)

/-- The second conditional's condition (the second grid coordinate is 15). -/
abbrev atLast (i : grid0.Coords) : Prop := k0_cond2 i = 1#1
/-- It holds at the grid points whose position is 15 modulo 16. -/
theorem atLast_iff : ∀ t : Fin cfg0.N, atLast (grid0.coords t) ↔ t.val % 16 = 15 :=
  (by decide +kernel : ∀ t : Fin grid0.N, atLast (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last step of a core's sweep the two outputs are stored nothing and are not written back. -/
theorem idle4 : ∀ t : Fin cfg0.N, ¬atLast (grid0.coords t) → cfg0.idle 4 (grid0.coords t) = true := by decide +kernel
theorem idle5 : ∀ t : Fin cfg0.N, ¬atLast (grid0.coords t) → cfg0.idle 5 (grid0.coords t) = true := by decide +kernel
theorem noFlush4 : ∀ t : Fin cfg0.N, ¬atLast (grid0.coords t) → (cfg0.win 4).flush t = false := by decide +kernel
theorem noFlush5 : ∀ t : Fin cfg0.N, ¬atLast (grid0.coords t) → (cfg0.win 5).flush t = false := by decide +kernel
/-- At the last step they are stored into. -/
theorem live4 : ∀ t : Fin cfg0.N, atLast (grid0.coords t) → cfg0.idle 4 (grid0.coords t) = false := by decide +kernel
theorem live5 : ∀ t : Fin cfg0.N, atLast (grid0.coords t) → cfg0.idle 5 (grid0.coords t) = false := by decide +kernel

/-! ## The memrefs the body is called with -/

abbrev sg0 (t : Fin cfg0.N) : Memref sig .tc .vmem S512x6144 .f32 := win0_0.stage (cfg0.slots t 0)
abbrev hsg0 (t : Fin cfg0.N) : (sg0 t).IsWhole := hstage0_0 ((cfg0.slots t 0).cast nbuf0_0)
abbrev sg1 (t : Fin cfg0.N) : Memref sig .tc .vmem S512x128 .f32 := win0_1.stage (cfg0.slots t 1)
abbrev hsg1 (t : Fin cfg0.N) : (sg1 t).IsWhole := hstage0_1 ((cfg0.slots t 1).cast nbuf0_1)
abbrev sg2 (t : Fin cfg0.N) : Memref sig .tc .vmem S6144x128 .f32 := win0_2.stage (cfg0.slots t 2)
abbrev hsg2 (t : Fin cfg0.N) : (sg2 t).IsWhole := hstage0_2 ((cfg0.slots t 2).cast nbuf0_2)
abbrev sg3 (t : Fin cfg0.N) : Memref sig .tc .vmem S1x128 .f32 := win0_3.stage (cfg0.slots t 3)
abbrev hsg3 (t : Fin cfg0.N) : (sg3 t).IsWhole := hstage0_3 ((cfg0.slots t 3).cast nbuf0_3)
abbrev sg4 (t : Fin cfg0.N) : Memref sig .tc .vmem S1x128x6144 .f32 := win0_4.stage (cfg0.slots t 4)
abbrev hsg4 (t : Fin cfg0.N) : (sg4 t).IsWhole := hstage0_4 ((cfg0.slots t 4).cast nbuf0_4)
abbrev sg5 (t : Fin cfg0.N) : Memref sig .tc .vmem S1x1x6144 .f32 := win0_5.stage (cfg0.slots t 5)
abbrev hsg5 (t : Fin cfg0.N) : (sg5 t).IsWhole := hstage0_5 ((cfg0.slots t 5).cast nbuf0_5)
/-- The two accumulators: the (128, 6144) running sum of residual^T G and the (1, 6144) running column sums of G^2. -/
abbrev accZ : Memref sig .tc .vmem S128x6144 .f32 := Memref.whole cc0_scratch0
abbrev accG : Memref sig .tc .vmem S1x6144 .f32 := Memref.whole cc0_scratch1
/-- One staging buffer of each output window, and the accumulators, as views through which contents are stated. -/
abbrev viewO4 : View sig .tc .vmem S1x128x6144 .f32 := (Memref.whole cc0_stg4_0 : Memref sig .tc .vmem S1x128x6144 .f32).view
abbrev viewO5 : View sig .tc .vmem S1x1x6144 .f32 := (Memref.whole cc0_stg5_0 : Memref sig .tc .vmem S1x1x6144 .f32).view
abbrev viewZ : View sig .tc .vmem S128x6144 .f32 := accZ.view
abbrev viewG : View sig .tc .vmem S1x6144 .f32 := accG.view

/-- What the launch hands the body besides the windows: the two accumulators at some contents and the generator
    register at some state. -/
theorem scratch_inv (c : Dev nD) :
    (Pipeline.ΦA spec0 c : sProp 𝕄)
      = iprop(iprop((∃ d, owns (c : Thread nD τ) accZ fullShare d) ∗ (∃ d, owns (c : Thread nD τ) accG fullShare d)) ∗ (∃ r, prngReg c r)) := by
  unfold Pipeline.ΦA; rw [scopedRest0_eq]; simp only [accZ, accG, owns_whole]; try rfl

end Cert.KernelIdeal.Around

end
-- ==== Proof.RunFirstKI.lean ====
/-
  The kernel body at the first step of a core's sweep (second grid coordinate 0): it zeroes both accumulators, then adds
  this step's contributions to them; the outputs' staging buffers are not touched.
-/
import proofs.«139444_j26594437497073_2_alg».proof.Proof.AroundKI

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four inputs at their contents, the outputs' buffers at contents handed back untouched, the
    accumulators at anything — the body runs to the end, leaving the inputs as they were and each accumulator with
    the listed pieces written (last store first). The pieces are what the run finds. -/
noncomputable def runFirst (c : Dev nD) (i : grid0.Coords) (a2 : Memref sig .tc .vmem S512x6144 .f32) (h2 : a2.IsWhole) (a3 : Memref sig .tc .vmem S512x128 .f32) (h3 : a3.IsWhole) (a4 : Memref sig .tc .vmem S6144x128 .f32) (h4 : a4.IsWhole) (a5 : Memref sig .tc .vmem S1x128 .f32) (h5 : a5.IsWhole) (a6 : Memref sig .tc .vmem S1x128x6144 .f32) (h6 : a6.IsWhole) (a7 : Memref sig .tc .vmem S1x1x6144 .f32) (h7 : a7.IsWhole) (a8 : Memref sig .tc .vmem S128x6144 .f32) (h8 : a8.IsWhole) (a9 : Memref sig .tc .vmem S1x6144 .f32) (h9 : a9.IsWhole)
    (hf : atFirst i) (hl : ¬atLast i) (x0 : Vec F S512x6144 .f32) (x1 : Vec F S512x128 .f32) (x2 : Vec F S6144x128 .f32) (x3 : Vec F S1x128 .f32) :
    Σ' (LZ : List (View.Piece (Elt F) S128x6144 .f32)), { LG : List (View.Piece (Elt F) S1x6144 .f32) //
      ∀ (xi4 : Vec F S1x128x6144 .f32) (xi5 : Vec F S1x1x6144 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xi4 ∗ owns (c : Thread nD τ) a7 fullShare xi5 ∗ (∃ d, owns (c : Thread nD τ) a8 fullShare d) ∗ (∃ d, owns (c : Thread nD τ) a9 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xi4 ∗ owns (c : Thread nD τ) a7 fullShare xi5 ∗ (∃ f, a8.view.loc (c : Thread nD τ) ↦[a8.view.set]{fullShare} a8.view.writes (Elt F) f LZ) ∗ (∃ f, a9.view.loc (c : Thread nD τ) ↦[a9.view.set]{fullShare} a9.view.writes (Elt F) f LG)) -∗ K ⟨⟩))
          ⊢ wp frame (wpE (defs₀ (F := F)) Variants.none c none) E (cc0__fused_kernel i a2 h2 a3 h3 a4 h4 a5 h5 a6 h6 a7 h7 a8 h8 a9 h9) K } := by
  refine ⟨?_, ?_, fun xi4 xi5 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dz, %fz, -, HZ⟩, ⟨%dg, %fg, -, HG⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HZ]; · iexists _; iexact HZ
    iexists _; iexact HG

end Cert.KernelIdeal.Around

end
-- ==== Proof.RunMidKI.lean ====
/-
  The kernel body at a middle step of a core's sweep (second grid coordinate neither 0 nor 15): it adds this step's
  contributions to both accumulators; the outputs' staging buffers are not touched.
-/
import proofs.«139444_j26594437497073_2_alg».proof.Proof.RunFirstKI

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four inputs at their contents, the outputs' buffers at contents handed back untouched, the
    accumulators at what the step before left — the body runs to the end, leaving the inputs as they were and each
    accumulator with the listed pieces written. -/
noncomputable def runMid (c : Dev nD) (i : grid0.Coords) (a2 : Memref sig .tc .vmem S512x6144 .f32) (h2 : a2.IsWhole) (a3 : Memref sig .tc .vmem S512x128 .f32) (h3 : a3.IsWhole) (a4 : Memref sig .tc .vmem S6144x128 .f32) (h4 : a4.IsWhole) (a5 : Memref sig .tc .vmem S1x128 .f32) (h5 : a5.IsWhole) (a6 : Memref sig .tc .vmem S1x128x6144 .f32) (h6 : a6.IsWhole) (a7 : Memref sig .tc .vmem S1x1x6144 .f32) (h7 : a7.IsWhole) (a8 : Memref sig .tc .vmem S128x6144 .f32) (h8 : a8.IsWhole) (a9 : Memref sig .tc .vmem S1x6144 .f32) (h9 : a9.IsWhole)
    (hf : ¬atFirst i) (hl : ¬atLast i) (x0 : Vec F S512x6144 .f32) (x1 : Vec F S512x128 .f32) (x2 : Vec F S6144x128 .f32) (x3 : Vec F S1x128 .f32) (z : Vec F S128x6144 .f32) (g : Vec F S1x6144 .f32) :
    Σ' (LZ : List (View.Piece (Elt F) S128x6144 .f32)), { LG : List (View.Piece (Elt F) S1x6144 .f32) //
      ∀ (xi4 : Vec F S1x128x6144 .f32) (xi5 : Vec F S1x1x6144 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xi4 ∗ owns (c : Thread nD τ) a7 fullShare xi5 ∗ owns (c : Thread nD τ) a8 fullShare z ∗ owns (c : Thread nD τ) a9 fullShare g
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xi4 ∗ owns (c : Thread nD τ) a7 fullShare xi5 ∗ (∃ f, a8.view.loc (c : Thread nD τ) ↦[a8.view.set]{fullShare} a8.view.writes (Elt F) f LZ) ∗ (∃ f, a9.view.loc (c : Thread nD τ) ↦[a9.view.set]{fullShare} a9.view.writes (Elt F) f LG)) -∗ K ⟨⟩))
          ⊢ wp frame (wpE (defs₀ (F := F)) Variants.none c none) E (cc0__fused_kernel i a2 h2 a3 h3 a4 h4 a5 h5 a6 h6 a7 h7 a8 h8 a9 h9) K } := by
  refine ⟨?_, ?_, fun xi4 xi5 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fz, %hfz, HZ⟩, ⟨%fg, %hfg, HG⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hfz; obtain rfl := h9.eq_unread hfg
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HZ]; · iexists _; iexact HZ
    iexists _; iexact HG

end Cert.KernelIdeal.Around

end
-- ==== Proof.RunLastKI.lean ====
/-
  The kernel body at the last step of a core's sweep (second grid coordinate 15): it adds this step's contributions to
  both accumulators and then copies each accumulator into its output's staging buffer.
-/
import proofs.«139444_j26594437497073_2_alg».proof.Proof.RunMidKI

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the four inputs at their contents, the outputs' buffers at anything, the accumulators at what
    the step before left — the body runs to the end, leaving the inputs as they were and each output buffer and each
    accumulator with the listed pieces written. -/
noncomputable def runLast (c : Dev nD) (i : grid0.Coords) (a2 : Memref sig .tc .vmem S512x6144 .f32) (h2 : a2.IsWhole) (a3 : Memref sig .tc .vmem S512x128 .f32) (h3 : a3.IsWhole) (a4 : Memref sig .tc .vmem S6144x128 .f32) (h4 : a4.IsWhole) (a5 : Memref sig .tc .vmem S1x128 .f32) (h5 : a5.IsWhole) (a6 : Memref sig .tc .vmem S1x128x6144 .f32) (h6 : a6.IsWhole) (a7 : Memref sig .tc .vmem S1x1x6144 .f32) (h7 : a7.IsWhole) (a8 : Memref sig .tc .vmem S128x6144 .f32) (h8 : a8.IsWhole) (a9 : Memref sig .tc .vmem S1x6144 .f32) (h9 : a9.IsWhole)
    (hf : ¬atFirst i) (hl : atLast i) (x0 : Vec F S512x6144 .f32) (x1 : Vec F S512x128 .f32) (x2 : Vec F S6144x128 .f32) (x3 : Vec F S1x128 .f32) (z : Vec F S128x6144 .f32) (g : Vec F S1x6144 .f32) :
    Σ' (L4 : List (View.Piece (Elt F) S1x128x6144 .f32)) (L5 : List (View.Piece (Elt F) S1x1x6144 .f32)) (LZ : List (View.Piece (Elt F) S128x6144 .f32)), { LG : List (View.Piece (Elt F) S1x6144 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ (∃ d, owns (c : Thread nD τ) a7 fullShare d) ∗ owns (c : Thread nD τ) a8 fullShare z ∗ owns (c : Thread nD τ) a9 fullShare g
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f L4) ∗ (∃ f, a7.view.loc (c : Thread nD τ) ↦[a7.view.set]{fullShare} a7.view.writes (Elt F) f L5) ∗ (∃ f, a8.view.loc (c : Thread nD τ) ↦[a8.view.set]{fullShare} a8.view.writes (Elt F) f LZ) ∗ (∃ f, a9.view.loc (c : Thread nD τ) ↦[a9.view.set]{fullShare} a9.view.writes (Elt F) f LG)) -∗ K ⟨⟩))
          ⊢ wp frame (wpE (defs₀ (F := F)) Variants.none c none) E (cc0__fused_kernel i a2 h2 a3 h3 a4 h4 a5 h5 a6 h6 a7 h7 a8 h8 a9 h9) K } := by
  refine ⟨?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fz, %hfz, HZ⟩, ⟨%fg, %hfg, HG⟩, Hk⟩
    obtain rfl := h2.eq_unread hf0; obtain rfl := h3.eq_unread hf1; obtain rfl := h4.eq_unread hf2; obtain rfl := h5.eq_unread hf3
    obtain rfl := h8.eq_unread hfz; obtain rfl := h9.eq_unread hfg
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [HZ]; · iexists _; iexact HZ
    iexists _; iexact HG

end Cert.KernelIdeal.Around

end
-- ==== Proof.SweepKI.lean ====
/-
  What the two accumulators and the two outputs' staging buffers hold after each grid point, the proof data of the
  pipeline built from it, the body's obligation at every grid point, and the run of @main: the region, then the host
  operations after it.

  The grid's 32 points are two sweeps of 16 (one per core index). A sweep's first point overwrites both accumulators
  (zero, then this point's contribution), every later point adds its contribution to what the point before left, and
  the sweep's last point also copies both accumulators into the outputs' staging buffers, which the pipeline then
  writes back to block `core` of the two partial-sum arrays.
-/
import proofs.«139444_j26594437497073_2_alg».proof.Proof.RunLastKI

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

section Leaves
variable (c : Dev nD) (i : grid0.Coords) (a2 : Memref sig .tc .vmem S512x6144 .f32) (h2 : a2.IsWhole) (a3 : Memref sig .tc .vmem S512x128 .f32) (h3 : a3.IsWhole) (a4 : Memref sig .tc .vmem S6144x128 .f32) (h4 : a4.IsWhole) (a5 : Memref sig .tc .vmem S1x128 .f32) (h5 : a5.IsWhole) (a6 : Memref sig .tc .vmem S1x128x6144 .f32) (h6 : a6.IsWhole) (a7 : Memref sig .tc .vmem S1x1x6144 .f32) (h7 : a7.IsWhole) (a8 : Memref sig .tc .vmem S128x6144 .f32) (h8 : a8.IsWhole) (a9 : Memref sig .tc .vmem S1x6144 .f32) (h9 : a9.IsWhole)
  (x0 : Vec F S512x6144 .f32) (x1 : Vec F S512x128 .f32) (x2 : Vec F S6144x128 .f32) (x3 : Vec F S1x128 .f32)

theorem coverZ_first (hf : atFirst i) (hl : ¬atLast i) (y : S128x6144.Idx) : ∃ pc ∈ (runFirst c i a2 h2 a3 h3 a4 h4 a5 h5 a6 h6 a7 h7 a8 h8 a9 h9 hf hl x0 x1 x2 x3).1, y ∈ pc.1.set :=
  View.cover_of_tiledL (runFirst c i a2 h2 a3 h3 a4 h4 a5 h5 a6 h6 a7 h7 a8 h8 a9 h9 hf hl x0 x1 x2 x3).1 S128x6144.size (by sl_kernel_rfl) y
theorem coverG_first (hf : atFirst i) (hl : ¬atLast i) (y : S1x6144.Idx) : ∃ pc ∈ (runFirst c i a2 h2 a3 h3 a4 h4 a5 h5 a6 h6 a7 h7 a8 h8 a9 h9 hf hl x0 x1 x2 x3).2.1, y ∈ pc.1.set :=
  View.cover_of_tiledL (runFirst c i a2 h2 a3 h3 a4 h4 a5 h5 a6 h6 a7 h7 a8 h8 a9 h9 hf hl x0 x1 x2 x3).2.1 S1x6144.size (by sl_kernel_rfl) y
/-- The accumulators after a sweep's first point: the pieces the run found, read back. -/
def zFirst (hf : atFirst i) (hl : ¬atLast i) : Vec F S128x6144 .f32 :=
  viewZ.read (Elt F) (viewZ.writes (Elt F) viewZ.junk (runFirst c i a2 h2 a3 h3 a4 h4 a5 h5 a6 h6 a7 h7 a8 h8 a9 h9 hf hl x0 x1 x2 x3).1)
def gFirst (hf : atFirst i) (hl : ¬atLast i) : Vec F S1x6144 .f32 :=
  viewG.read (Elt F) (viewG.writes (Elt F) viewG.junk (runFirst c i a2 h2 a3 h3 a4 h4 a5 h5 a6 h6 a7 h7 a8 h8 a9 h9 hf hl x0 x1 x2 x3).2.1)

variable (z : Vec F S128x6144 .f32) (g : Vec F S1x6144 .f32)

theorem coverZ_mid (hf : ¬atFirst i) (hl : ¬atLast i) (y : S128x6144.Idx) : ∃ pc ∈ (runMid c i a2 h2 a3 h3 a4 h4 a5 h5 a6 h6 a7 h7 a8 h8 a9 h9 hf hl x0 x1 x2 x3 z g).1, y ∈ pc.1.set :=
  View.cover_of_tiledL (runMid c i a2 h2 a3 h3 a4 h4 a5 h5 a6 h6 a7 h7 a8 h8 a9 h9 hf hl x0 x1 x2 x3 z g).1 S128x6144.size (by sl_kernel_rfl) y
theorem coverG_mid (hf : ¬atFirst i) (hl : ¬atLast i) (y : S1x6144.Idx) : ∃ pc ∈ (runMid c i a2 h2 a3 h3 a4 h4 a5 h5 a6 h6 a7 h7 a8 h8 a9 h9 hf hl x0 x1 x2 x3 z g).2.1, y ∈ pc.1.set :=
  View.cover_of_tiledL (runMid c i a2 h2 a3 h3 a4 h4 a5 h5 a6 h6 a7 h7 a8 h8 a9 h9 hf hl x0 x1 x2 x3 z g).2.1 S1x6144.size (by sl_kernel_rfl) y
/-- The accumulators after a middle point, from what the point before left in them. -/
def zMid (hf : ¬atFirst i) (hl : ¬atLast i) : Vec F S128x6144 .f32 :=
  viewZ.read (Elt F) (viewZ.writes (Elt F) viewZ.junk (runMid c i a2 h2 a3 h3 a4 h4 a5 h5 a6 h6 a7 h7 a8 h8 a9 h9 hf hl x0 x1 x2 x3 z g).1)
def gMid (hf : ¬atFirst i) (hl : ¬atLast i) : Vec F S1x6144 .f32 :=
  viewG.read (Elt F) (viewG.writes (Elt F) viewG.junk (runMid c i a2 h2 a3 h3 a4 h4 a5 h5 a6 h6 a7 h7 a8 h8 a9 h9 hf hl x0 x1 x2 x3 z g).2.1)

theorem cover4_last (hf : ¬atFirst i) (hl : atLast i) (y : S1x128x6144.Idx) : ∃ pc ∈ (runLast c i a2 h2 a3 h3 a4 h4 a5 h5 a6 h6 a7 h7 a8 h8 a9 h9 hf hl x0 x1 x2 x3 z g).1, y ∈ pc.1.set :=
  View.cover_of_tiledL (runLast c i a2 h2 a3 h3 a4 h4 a5 h5 a6 h6 a7 h7 a8 h8 a9 h9 hf hl x0 x1 x2 x3 z g).1 S1x128x6144.size (by sl_kernel_rfl) y
theorem cover5_last (hf : ¬atFirst i) (hl : atLast i) (y : S1x1x6144.Idx) : ∃ pc ∈ (runLast c i a2 h2 a3 h3 a4 h4 a5 h5 a6 h6 a7 h7 a8 h8 a9 h9 hf hl x0 x1 x2 x3 z g).2.1, y ∈ pc.1.set :=
  View.cover_of_tiledL (runLast c i a2 h2 a3 h3 a4 h4 a5 h5 a6 h6 a7 h7 a8 h8 a9 h9 hf hl x0 x1 x2 x3 z g).2.1 S1x1x6144.size (by sl_kernel_rfl) y
theorem coverZ_last (hf : ¬atFirst i) (hl : atLast i) (y : S128x6144.Idx) : ∃ pc ∈ (runLast c i a2 h2 a3 h3 a4 h4 a5 h5 a6 h6 a7 h7 a8 h8 a9 h9 hf hl x0 x1 x2 x3 z g).2.2.1, y ∈ pc.1.set :=
  View.cover_of_tiledL (runLast c i a2 h2 a3 h3 a4 h4 a5 h5 a6 h6 a7 h7 a8 h8 a9 h9 hf hl x0 x1 x2 x3 z g).2.2.1 S128x6144.size (by sl_kernel_rfl) y
theorem coverG_last (hf : ¬atFirst i) (hl : atLast i) (y : S1x6144.Idx) : ∃ pc ∈ (runLast c i a2 h2 a3 h3 a4 h4 a5 h5 a6 h6 a7 h7 a8 h8 a9 h9 hf hl x0 x1 x2 x3 z g).2.2.2.1, y ∈ pc.1.set :=
  View.cover_of_tiledL (runLast c i a2 h2 a3 h3 a4 h4 a5 h5 a6 h6 a7 h7 a8 h8 a9 h9 hf hl x0 x1 x2 x3 z g).2.2.2.1 S1x6144.size (by sl_kernel_rfl) y
/-- The outputs' staging buffers and the accumulators after a sweep's last point. -/
def o4Last (hf : ¬atFirst i) (hl : atLast i) : Vec F S1x128x6144 .f32 :=
  viewO4.read (Elt F) (viewO4.writes (Elt F) viewO4.junk (runLast c i a2 h2 a3 h3 a4 h4 a5 h5 a6 h6 a7 h7 a8 h8 a9 h9 hf hl x0 x1 x2 x3 z g).1)
def o5Last (hf : ¬atFirst i) (hl : atLast i) : Vec F S1x1x6144 .f32 :=
  viewO5.read (Elt F) (viewO5.writes (Elt F) viewO5.junk (runLast c i a2 h2 a3 h3 a4 h4 a5 h5 a6 h6 a7 h7 a8 h8 a9 h9 hf hl x0 x1 x2 x3 z g).2.1)
def zLast (hf : ¬atFirst i) (hl : atLast i) : Vec F S128x6144 .f32 :=
  viewZ.read (Elt F) (viewZ.writes (Elt F) viewZ.junk (runLast c i a2 h2 a3 h3 a4 h4 a5 h5 a6 h6 a7 h7 a8 h8 a9 h9 hf hl x0 x1 x2 x3 z g).2.2.1)
def gLast (hf : ¬atFirst i) (hl : atLast i) : Vec F S1x6144 .f32 :=
  viewG.read (Elt F) (viewG.writes (Elt F) viewG.junk (runLast c i a2 h2 a3 h3 a4 h4 a5 h5 a6 h6 a7 h7 a8 h8 a9 h9 hf hl x0 x1 x2 x3 z g).2.2.2.1)

end Leaves

/-- A placeholder for an output's staging buffer at a point where nothing is stored into it (nothing consults it:
    the buffer is neither written back there nor read later). -/
def unset4 : Vec F S1x128x6144 .f32 := viewO4.read (Elt F) viewO4.junk
def unset5 : Vec F S1x1x6144 .f32 := viewO5.read (Elt F) viewO5.junk

/-! ## Point by point -/

/-- Which case a grid point is in, from its position. -/
theorem first_of (t : Fin cfg0.N) (h : t.val % 16 = 0) : atFirst (grid0.coords t) := (atFirst_iff t).mpr h
theorem notFirst_of (t : Fin cfg0.N) (h : ¬t.val % 16 = 0) : ¬atFirst (grid0.coords t) := fun hf => h ((atFirst_iff t).mp hf)
theorem last_of (t : Fin cfg0.N) (h : t.val % 16 = 15) : atLast (grid0.coords t) := (atLast_iff t).mpr h
theorem notLast_of (t : Fin cfg0.N) (h : ¬t.val % 16 = 15) : ¬atLast (grid0.coords t) := fun hl => h ((atLast_iff t).mp hl)
theorem notLast_of_first (t : Fin cfg0.N) (h : t.val % 16 = 0) : ¬atLast (grid0.coords t) :=
  fun hl => by have h' := (atLast_iff t).mp hl; omega

/-- What the two outputs' staging buffers and the two accumulators hold after the body at position `n`:
    (output 4's buffer, output 5's buffer, the (128, 6144) accumulator, the (1, 6144) accumulator). -/
def heldAt (c : Dev nD) : (n : ℕ) → n < cfg0.N → Vec F S1x128x6144 .f32 × Vec F S1x1x6144 .f32 × Vec F S128x6144 .f32 × Vec F S1x6144 .f32
  | 0, hn =>
    (unset4, unset5,
     zFirst c (grid0.coords ⟨0, hn⟩) (sg0 ⟨0, hn⟩) (hsg0 ⟨0, hn⟩) (sg1 ⟨0, hn⟩) (hsg1 ⟨0, hn⟩) (sg2 ⟨0, hn⟩) (hsg2 ⟨0, hn⟩) (sg3 ⟨0, hn⟩) (hsg3 ⟨0, hn⟩) (sg4 ⟨0, hn⟩) (hsg4 ⟨0, hn⟩) (sg5 ⟨0, hn⟩) (hsg5 ⟨0, hn⟩) accZ (Memref.isWhole_whole _) accG (Memref.isWhole_whole _) (blockAt m c 0 ⟨0, hn⟩) (blockAt m c 1 ⟨0, hn⟩) (blockAt m c 2 ⟨0, hn⟩) (blockAt m c 3 ⟨0, hn⟩) (first_of ⟨0, hn⟩ (Nat.zero_mod _)) (notLast_of_first ⟨0, hn⟩ (Nat.zero_mod _)),
     gFirst c (grid0.coords ⟨0, hn⟩) (sg0 ⟨0, hn⟩) (hsg0 ⟨0, hn⟩) (sg1 ⟨0, hn⟩) (hsg1 ⟨0, hn⟩) (sg2 ⟨0, hn⟩) (hsg2 ⟨0, hn⟩) (sg3 ⟨0, hn⟩) (hsg3 ⟨0, hn⟩) (sg4 ⟨0, hn⟩) (hsg4 ⟨0, hn⟩) (sg5 ⟨0, hn⟩) (hsg5 ⟨0, hn⟩) accZ (Memref.isWhole_whole _) accG (Memref.isWhole_whole _) (blockAt m c 0 ⟨0, hn⟩) (blockAt m c 1 ⟨0, hn⟩) (blockAt m c 2 ⟨0, hn⟩) (blockAt m c 3 ⟨0, hn⟩) (first_of ⟨0, hn⟩ (Nat.zero_mod _)) (notLast_of_first ⟨0, hn⟩ (Nat.zero_mod _)))
  | n + 1, hn =>
    if h0 : (n + 1) % 16 = 0 then
      (unset4, unset5,
       zFirst c (grid0.coords ⟨n + 1, hn⟩) (sg0 ⟨n + 1, hn⟩) (hsg0 ⟨n + 1, hn⟩) (sg1 ⟨n + 1, hn⟩) (hsg1 ⟨n + 1, hn⟩) (sg2 ⟨n + 1, hn⟩) (hsg2 ⟨n + 1, hn⟩) (sg3 ⟨n + 1, hn⟩) (hsg3 ⟨n + 1, hn⟩) (sg4 ⟨n + 1, hn⟩) (hsg4 ⟨n + 1, hn⟩) (sg5 ⟨n + 1, hn⟩) (hsg5 ⟨n + 1, hn⟩) accZ (Memref.isWhole_whole _) accG (Memref.isWhole_whole _) (blockAt m c 0 ⟨n + 1, hn⟩) (blockAt m c 1 ⟨n + 1, hn⟩) (blockAt m c 2 ⟨n + 1, hn⟩) (blockAt m c 3 ⟨n + 1, hn⟩) (first_of ⟨n + 1, hn⟩ h0) (notLast_of_first ⟨n + 1, hn⟩ h0),
       gFirst c (grid0.coords ⟨n + 1, hn⟩) (sg0 ⟨n + 1, hn⟩) (hsg0 ⟨n + 1, hn⟩) (sg1 ⟨n + 1, hn⟩) (hsg1 ⟨n + 1, hn⟩) (sg2 ⟨n + 1, hn⟩) (hsg2 ⟨n + 1, hn⟩) (sg3 ⟨n + 1, hn⟩) (hsg3 ⟨n + 1, hn⟩) (sg4 ⟨n + 1, hn⟩) (hsg4 ⟨n + 1, hn⟩) (sg5 ⟨n + 1, hn⟩) (hsg5 ⟨n + 1, hn⟩) accZ (Memref.isWhole_whole _) accG (Memref.isWhole_whole _) (blockAt m c 0 ⟨n + 1, hn⟩) (blockAt m c 1 ⟨n + 1, hn⟩) (blockAt m c 2 ⟨n + 1, hn⟩) (blockAt m c 3 ⟨n + 1, hn⟩) (first_of ⟨n + 1, hn⟩ h0) (notLast_of_first ⟨n + 1, hn⟩ h0))
    else
      if h1 : (n + 1) % 16 = 15 then
        (o4Last c (grid0.coords ⟨n + 1, hn⟩) (sg0 ⟨n + 1, hn⟩) (hsg0 ⟨n + 1, hn⟩) (sg1 ⟨n + 1, hn⟩) (hsg1 ⟨n + 1, hn⟩) (sg2 ⟨n + 1, hn⟩) (hsg2 ⟨n + 1, hn⟩) (sg3 ⟨n + 1, hn⟩) (hsg3 ⟨n + 1, hn⟩) (sg4 ⟨n + 1, hn⟩) (hsg4 ⟨n + 1, hn⟩) (sg5 ⟨n + 1, hn⟩) (hsg5 ⟨n + 1, hn⟩) accZ (Memref.isWhole_whole _) accG (Memref.isWhole_whole _) (blockAt m c 0 ⟨n + 1, hn⟩) (blockAt m c 1 ⟨n + 1, hn⟩) (blockAt m c 2 ⟨n + 1, hn⟩) (blockAt m c 3 ⟨n + 1, hn⟩) (heldAt c n (Nat.lt_of_succ_lt hn)).2.2.1 (heldAt c n (Nat.lt_of_succ_lt hn)).2.2.2 (notFirst_of ⟨n + 1, hn⟩ h0) (last_of ⟨n + 1, hn⟩ h1),
         o5Last c (grid0.coords ⟨n + 1, hn⟩) (sg0 ⟨n + 1, hn⟩) (hsg0 ⟨n + 1, hn⟩) (sg1 ⟨n + 1, hn⟩) (hsg1 ⟨n + 1, hn⟩) (sg2 ⟨n + 1, hn⟩) (hsg2 ⟨n + 1, hn⟩) (sg3 ⟨n + 1, hn⟩) (hsg3 ⟨n + 1, hn⟩) (sg4 ⟨n + 1, hn⟩) (hsg4 ⟨n + 1, hn⟩) (sg5 ⟨n + 1, hn⟩) (hsg5 ⟨n + 1, hn⟩) accZ (Memref.isWhole_whole _) accG (Memref.isWhole_whole _) (blockAt m c 0 ⟨n + 1, hn⟩) (blockAt m c 1 ⟨n + 1, hn⟩) (blockAt m c 2 ⟨n + 1, hn⟩) (blockAt m c 3 ⟨n + 1, hn⟩) (heldAt c n (Nat.lt_of_succ_lt hn)).2.2.1 (heldAt c n (Nat.lt_of_succ_lt hn)).2.2.2 (notFirst_of ⟨n + 1, hn⟩ h0) (last_of ⟨n + 1, hn⟩ h1),
         zLast c (grid0.coords ⟨n + 1, hn⟩) (sg0 ⟨n + 1, hn⟩) (hsg0 ⟨n + 1, hn⟩) (sg1 ⟨n + 1, hn⟩) (hsg1 ⟨n + 1, hn⟩) (sg2 ⟨n + 1, hn⟩) (hsg2 ⟨n + 1, hn⟩) (sg3 ⟨n + 1, hn⟩) (hsg3 ⟨n + 1, hn⟩) (sg4 ⟨n + 1, hn⟩) (hsg4 ⟨n + 1, hn⟩) (sg5 ⟨n + 1, hn⟩) (hsg5 ⟨n + 1, hn⟩) accZ (Memref.isWhole_whole _) accG (Memref.isWhole_whole _) (blockAt m c 0 ⟨n + 1, hn⟩) (blockAt m c 1 ⟨n + 1, hn⟩) (blockAt m c 2 ⟨n + 1, hn⟩) (blockAt m c 3 ⟨n + 1, hn⟩) (heldAt c n (Nat.lt_of_succ_lt hn)).2.2.1 (heldAt c n (Nat.lt_of_succ_lt hn)).2.2.2 (notFirst_of ⟨n + 1, hn⟩ h0) (last_of ⟨n + 1, hn⟩ h1),
         gLast c (grid0.coords ⟨n + 1, hn⟩) (sg0 ⟨n + 1, hn⟩) (hsg0 ⟨n + 1, hn⟩) (sg1 ⟨n + 1, hn⟩) (hsg1 ⟨n + 1, hn⟩) (sg2 ⟨n + 1, hn⟩) (hsg2 ⟨n + 1, hn⟩) (sg3 ⟨n + 1, hn⟩) (hsg3 ⟨n + 1, hn⟩) (sg4 ⟨n + 1, hn⟩) (hsg4 ⟨n + 1, hn⟩) (sg5 ⟨n + 1, hn⟩) (hsg5 ⟨n + 1, hn⟩) accZ (Memref.isWhole_whole _) accG (Memref.isWhole_whole _) (blockAt m c 0 ⟨n + 1, hn⟩) (blockAt m c 1 ⟨n + 1, hn⟩) (blockAt m c 2 ⟨n + 1, hn⟩) (blockAt m c 3 ⟨n + 1, hn⟩) (heldAt c n (Nat.lt_of_succ_lt hn)).2.2.1 (heldAt c n (Nat.lt_of_succ_lt hn)).2.2.2 (notFirst_of ⟨n + 1, hn⟩ h0) (last_of ⟨n + 1, hn⟩ h1))
      else
        (unset4, unset5,
         zMid c (grid0.coords ⟨n + 1, hn⟩) (sg0 ⟨n + 1, hn⟩) (hsg0 ⟨n + 1, hn⟩) (sg1 ⟨n + 1, hn⟩) (hsg1 ⟨n + 1, hn⟩) (sg2 ⟨n + 1, hn⟩) (hsg2 ⟨n + 1, hn⟩) (sg3 ⟨n + 1, hn⟩) (hsg3 ⟨n + 1, hn⟩) (sg4 ⟨n + 1, hn⟩) (hsg4 ⟨n + 1, hn⟩) (sg5 ⟨n + 1, hn⟩) (hsg5 ⟨n + 1, hn⟩) accZ (Memref.isWhole_whole _) accG (Memref.isWhole_whole _) (blockAt m c 0 ⟨n + 1, hn⟩) (blockAt m c 1 ⟨n + 1, hn⟩) (blockAt m c 2 ⟨n + 1, hn⟩) (blockAt m c 3 ⟨n + 1, hn⟩) (heldAt c n (Nat.lt_of_succ_lt hn)).2.2.1 (heldAt c n (Nat.lt_of_succ_lt hn)).2.2.2 (notFirst_of ⟨n + 1, hn⟩ h0) (notLast_of ⟨n + 1, hn⟩ h1),
         gMid c (grid0.coords ⟨n + 1, hn⟩) (sg0 ⟨n + 1, hn⟩) (hsg0 ⟨n + 1, hn⟩) (sg1 ⟨n + 1, hn⟩) (hsg1 ⟨n + 1, hn⟩) (sg2 ⟨n + 1, hn⟩) (hsg2 ⟨n + 1, hn⟩) (sg3 ⟨n + 1, hn⟩) (hsg3 ⟨n + 1, hn⟩) (sg4 ⟨n + 1, hn⟩) (hsg4 ⟨n + 1, hn⟩) (sg5 ⟨n + 1, hn⟩) (hsg5 ⟨n + 1, hn⟩) accZ (Memref.isWhole_whole _) accG (Memref.isWhole_whole _) (blockAt m c 0 ⟨n + 1, hn⟩) (blockAt m c 1 ⟨n + 1, hn⟩) (blockAt m c 2 ⟨n + 1, hn⟩) (blockAt m c 3 ⟨n + 1, hn⟩) (heldAt c n (Nat.lt_of_succ_lt hn)).2.2.1 (heldAt c n (Nat.lt_of_succ_lt hn)).2.2.2 (notFirst_of ⟨n + 1, hn⟩ h0) (notLast_of ⟨n + 1, hn⟩ h1))

/-- At a sweep's first point: the first case's contents. -/
theorem heldAt_first (c : Dev nD) (t : Fin cfg0.N) (hf : atFirst (grid0.coords t)) (hl : ¬atLast (grid0.coords t)) :
    heldAt m c t.val t.isLt = (unset4, unset5,
      zFirst c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) hf hl,
      gFirst c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) hf hl) := by
  have h0 : t.val % 16 = 0 := (atFirst_iff t).mp hf
  obtain ⟨n, hn⟩ := t
  cases n with
  | zero => exact rfl
  | succ n => exact (dif_pos h0).trans rfl

/-- At a middle point: the middle case's contents, over what the point before left. -/
theorem heldAt_mid (c : Dev nD) (t : Fin cfg0.N) (hf : ¬atFirst (grid0.coords t)) (hl : ¬atLast (grid0.coords t)) :
    heldAt m c t.val t.isLt = (unset4, unset5,
      zMid c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) (heldAt m c (t.val - 1) (Nat.lt_of_le_of_lt (Nat.sub_le _ _) t.isLt)).2.2.1 (heldAt m c (t.val - 1) (Nat.lt_of_le_of_lt (Nat.sub_le _ _) t.isLt)).2.2.2 hf hl,
      gMid c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) (heldAt m c (t.val - 1) (Nat.lt_of_le_of_lt (Nat.sub_le _ _) t.isLt)).2.2.1 (heldAt m c (t.val - 1) (Nat.lt_of_le_of_lt (Nat.sub_le _ _) t.isLt)).2.2.2 hf hl) := by
  have h0 : ¬t.val % 16 = 0 := fun h => hf ((atFirst_iff t).mpr h)
  have h1 : ¬t.val % 16 = 15 := fun h => hl ((atLast_iff t).mpr h)
  obtain ⟨n, hn⟩ := t
  cases n with
  | zero => exact absurd (Nat.zero_mod _) h0
  | succ n => exact (dif_neg h0).trans ((dif_neg h1).trans rfl)

/-- At a sweep's last point: the last case's contents, over what the point before left. -/
theorem heldAt_last (c : Dev nD) (t : Fin cfg0.N) (hf : ¬atFirst (grid0.coords t)) (hl : atLast (grid0.coords t)) :
    heldAt m c t.val t.isLt = (
      o4Last c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) (heldAt m c (t.val - 1) (Nat.lt_of_le_of_lt (Nat.sub_le _ _) t.isLt)).2.2.1 (heldAt m c (t.val - 1) (Nat.lt_of_le_of_lt (Nat.sub_le _ _) t.isLt)).2.2.2 hf hl,
      o5Last c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) (heldAt m c (t.val - 1) (Nat.lt_of_le_of_lt (Nat.sub_le _ _) t.isLt)).2.2.1 (heldAt m c (t.val - 1) (Nat.lt_of_le_of_lt (Nat.sub_le _ _) t.isLt)).2.2.2 hf hl,
      zLast c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) (heldAt m c (t.val - 1) (Nat.lt_of_le_of_lt (Nat.sub_le _ _) t.isLt)).2.2.1 (heldAt m c (t.val - 1) (Nat.lt_of_le_of_lt (Nat.sub_le _ _) t.isLt)).2.2.2 hf hl,
      gLast c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) (heldAt m c (t.val - 1) (Nat.lt_of_le_of_lt (Nat.sub_le _ _) t.isLt)).2.2.1 (heldAt m c (t.val - 1) (Nat.lt_of_le_of_lt (Nat.sub_le _ _) t.isLt)).2.2.2 hf hl) := by
  have h0 : ¬t.val % 16 = 0 := fun h => hf ((atFirst_iff t).mpr h)
  have h1 : t.val % 16 = 15 := (atLast_iff t).mp hl
  obtain ⟨n, hn⟩ := t
  cases n with
  | zero => exact absurd (Nat.zero_mod _) h0
  | succ n => exact (dif_neg h0).trans ((dif_pos h1).trans rfl)

/-! ## The invariant between grid points -/

/-- Before position `n`: before the first point, what the launch hands over (both accumulators at anything);
    afterwards both accumulators at what the point before left, and the generator register at some state. -/
def invAt (c : Dev nD) : (n : ℕ) → n ≤ cfg0.N → sProp 𝕄
  | 0, _ => Pipeline.ΦA spec0 c
  | n + 1, hn => iprop(iprop(owns (c : Thread nD τ) accZ fullShare (heldAt m c n hn).2.2.1 ∗ owns (c : Thread nD τ) accG fullShare (heldAt m c n hn).2.2.2) ∗ (∃ r, prngReg c r))

theorem invAt_zero (c : Dev nD) (n : ℕ) (h : n ≤ cfg0.N) (hz : n = 0) : invAt m c n h = Pipeline.ΦA spec0 c := by
  subst hz; rfl
theorem invAt_succ (c : Dev nD) (n : ℕ) (hn : n < cfg0.N) :
    invAt m c (n + 1) hn = iprop(iprop(owns (c : Thread nD τ) accZ fullShare (heldAt m c n hn).2.2.1 ∗ owns (c : Thread nD τ) accG fullShare (heldAt m c n hn).2.2.2) ∗ (∃ r, prngReg c r)) := rfl
theorem invAt_pos (c : Dev nD) (n : ℕ) (h : n ≤ cfg0.N) (hz : n ≠ 0) :
    invAt m c n h = iprop(iprop(owns (c : Thread nD τ) accZ fullShare (heldAt m c (n - 1) (by omega)).2.2.1 ∗ owns (c : Thread nD τ) accG fullShare (heldAt m c (n - 1) (by omega)).2.2.2) ∗ (∃ r, prngReg c r)) := by
  cases n with
  | zero => exact absurd rfl hz
  | succ n => rfl

/-! ## The pipeline's proof data -/

/-- On core `c`: the arrays as the region finds them; after the body at a point each input's buffer at its block and
    each output's at `heldAt`; the invariant `invAt`; nothing owed; full shares. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => (heldAt m c t.val t.isLt).1
    | ⟨5, _⟩ => (heldAt m c t.val t.isLt).2.1
  Φ t := invAt m c t.val (Nat.le_of_lt_succ t.isLt)
  q _ := fullShare
  owed _ := 0

theorem A_eq (c : Dev nD) (w : Fin cfg0.W) : (dats m 0 c).A w = entryAt m c (Pipeline.arrRef spec0 w) := by
  dsimp only [dats]
theorem inv_castSucc (c : Dev nD) (t : Fin cfg0.N) :
    (dats m 0 c).Φ t.castSucc = invAt m c t.val (Nat.le_of_lt t.isLt) := by
  dsimp only [dats]; simp only [Fin.coe_castSucc]
theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = (heldAt m c t.val t.isLt).1 := by dsimp only [dats]
theorem after_5 (c : Dev nD) (t : Fin cfg0.N) : (dats m 0 c).after 5 t = (heldAt m c t.val t.isLt).2.1 := by dsimp only [dats]

theorem before_0 (c : Dev nD) (t : Fin cfg0.N) (d) : (dats m 0 c).before 0 t d = blockAt m c 0 t :=
  found0 m (dats m 0 c) (A_eq m c 0) (after_0 m c) t d
theorem before_1 (c : Dev nD) (t : Fin cfg0.N) (d) : (dats m 0 c).before 1 t d = blockAt m c 1 t :=
  found1 m (dats m 0 c) (A_eq m c 1) (after_1 m c) t d
theorem before_2 (c : Dev nD) (t : Fin cfg0.N) (d) : (dats m 0 c).before 2 t d = blockAt m c 2 t :=
  found2 m (dats m 0 c) (A_eq m c 2) (after_2 m c) t d
theorem before_3 (c : Dev nD) (t : Fin cfg0.N) (d) : (dats m 0 c).before 3 t d = blockAt m c 3 t :=
  found3 m (dats m 0 c) (A_eq m c 3) (after_3 m c) t d

/-- An input's buffer is handed back at its block. -/
theorem leaves_0 (c : Dev nD) (t : Fin cfg0.N) : (dats m 0 c).leavesExact 0 t = owns (c : Thread nD τ) (sg0 t) fullShare (blockAt m c 0 t) := by
  unfold Dat.leavesExact; rw [live0 t, after_0]
theorem leaves_1 (c : Dev nD) (t : Fin cfg0.N) : (dats m 0 c).leavesExact 1 t = owns (c : Thread nD τ) (sg1 t) fullShare (blockAt m c 1 t) := by
  unfold Dat.leavesExact; rw [live1 t, after_1]
theorem leaves_2 (c : Dev nD) (t : Fin cfg0.N) : (dats m 0 c).leavesExact 2 t = owns (c : Thread nD τ) (sg2 t) fullShare (blockAt m c 2 t) := by
  unfold Dat.leavesExact; rw [live2 t, after_2]
theorem leaves_3 (c : Dev nD) (t : Fin cfg0.N) : (dats m 0 c).leavesExact 3 t = owns (c : Thread nD τ) (sg3 t) fullShare (blockAt m c 3 t) := by
  unfold Dat.leavesExact; rw [live3 t, after_3]

end Cert.KernelIdeal.Around

end
-- ==== Proof.PiecesKI.lean ====
/-
  What each case leaves, as the body's own arithmetic: the contents read back from the pieces a case's run found are the
  payloads of the body's stores (the skeleton's named terms) applied to the inputs' blocks and to what the accumulators
  held. A sweep's first step leaves `pay4 (inputs) (zeros)` and `pay3 (G block) (zeros)`; a later step the same over
  what the step before left; the last step also copies both accumulators out (`pay5`, `pay6`: changes of shape only).
-/
import proofs.«139444_j26594437497073_2_alg».proof.Proof.SweepKI
import Idealize.ShloMosaic.Lib.Pipeline.Value

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (a2 : Memref sig .tc .vmem S512x6144 .f32) (h2 : a2.IsWhole) (a3 : Memref sig .tc .vmem S512x128 .f32) (h3 : a3.IsWhole) (a4 : Memref sig .tc .vmem S6144x128 .f32) (h4 : a4.IsWhole) (a5 : Memref sig .tc .vmem S1x128 .f32) (h5 : a5.IsWhole) (a6 : Memref sig .tc .vmem S1x128x6144 .f32) (h6 : a6.IsWhole) (a7 : Memref sig .tc .vmem S1x1x6144 .f32) (h7 : a7.IsWhole) (a8 : Memref sig .tc .vmem S128x6144 .f32) (h8 : a8.IsWhole) (a9 : Memref sig .tc .vmem S1x6144 .f32) (h9 : a9.IsWhole)
  (x0 : Vec F S512x6144 .f32) (x1 : Vec F S512x128 .f32) (x2 : Vec F S6144x128 .f32) (x3 : Vec F S1x128 .f32)

theorem hz2 : (![0, 0] : Fin 2 → Nat) = fun _ => 0 := by funext a; fin_cases a <;> rfl
theorem hz3 : (![0, 0, 0] : Fin 3 → Nat) = fun _ => 0 := by funext a; fin_cases a <;> rfl

theorem zFirst_eq (hf : atFirst i) (hl : ¬atLast i) :
    zFirst c i a2 h2 a3 h3 a4 h4 a5 h5 a6 h6 a7 h7 a8 h8 a9 h9 x0 x1 x2 x3 hf hl = k0_pay4 x0 x1 x2 x3 (k0_pay1 (F := F)) := by
  unfold zFirst
  rw [View.read_writes_eq_canon _ _ _ (coverZ_first c i a2 h2 a3 h3 a4 h4 a5 h5 a6 h6 a7 h7 a8 h8 a9 h9 x0 x1 x2 x3 hf hl)]
  unfold runFirst; dsimp only
  sl_unfold_words
  rw [View.canon_cons_unit_zero hz2]
  simp only [View.readAt_eq_ld, h2.read_unread, h3.read_unread, h4.read_unread, h5.read_unread, h8.read_unread, h9.read_unread,
    View.ld_unit_zero (S := S512x6144) hz2, View.ld_unit_zero (S := S512x128) hz2, View.ld_unit_zero (S := S6144x128) hz2,
    View.ld_unit_zero (S := S1x128) hz2, View.ld_unit_zero (S := S128x6144) hz2, View.ld_unit_zero (S := S1x6144) hz2]
  exact congrArg _ (View.readCov_unit_zero (S := S128x6144) a8.view hz2 _ _)

theorem gFirst_eq (hf : atFirst i) (hl : ¬atLast i) :
    gFirst c i a2 h2 a3 h3 a4 h4 a5 h5 a6 h6 a7 h7 a8 h8 a9 h9 x0 x1 x2 x3 hf hl = k0_pay3 x0 (k0_pay2 (F := F)) := by
  unfold gFirst
  rw [View.read_writes_eq_canon _ _ _ (coverG_first c i a2 h2 a3 h3 a4 h4 a5 h5 a6 h6 a7 h7 a8 h8 a9 h9 x0 x1 x2 x3 hf hl)]
  unfold runFirst; dsimp only
  sl_unfold_words
  rw [View.canon_cons_unit_zero hz2]
  simp only [View.readAt_eq_ld, h2.read_unread, h3.read_unread, h4.read_unread, h5.read_unread, h8.read_unread, h9.read_unread,
    View.ld_unit_zero (S := S512x6144) hz2, View.ld_unit_zero (S := S512x128) hz2, View.ld_unit_zero (S := S6144x128) hz2,
    View.ld_unit_zero (S := S1x128) hz2, View.ld_unit_zero (S := S128x6144) hz2, View.ld_unit_zero (S := S1x6144) hz2]
  exact congrArg _ (View.readCov_unit_zero (S := S1x6144) a9.view hz2 _ _)

variable (z : Vec F S128x6144 .f32) (g : Vec F S1x6144 .f32)

theorem zMid_eq (hf : ¬atFirst i) (hl : ¬atLast i) :
    zMid c i a2 h2 a3 h3 a4 h4 a5 h5 a6 h6 a7 h7 a8 h8 a9 h9 x0 x1 x2 x3 z g hf hl = k0_pay4 x0 x1 x2 x3 z := by
  unfold zMid
  rw [View.read_writes_eq_canon _ _ _ (coverZ_mid c i a2 h2 a3 h3 a4 h4 a5 h5 a6 h6 a7 h7 a8 h8 a9 h9 x0 x1 x2 x3 z g hf hl)]
  unfold runMid; dsimp only
  sl_unfold_words
  rw [View.canon_unit_zero hz2]
  simp only [View.readAt_eq_ld, h2.read_unread, h3.read_unread, h4.read_unread, h5.read_unread, h8.read_unread, h9.read_unread,
    View.ld_unit_zero (S := S512x6144) hz2, View.ld_unit_zero (S := S512x128) hz2, View.ld_unit_zero (S := S6144x128) hz2,
    View.ld_unit_zero (S := S1x128) hz2, View.ld_unit_zero (S := S128x6144) hz2, View.ld_unit_zero (S := S1x6144) hz2]

theorem gMid_eq (hf : ¬atFirst i) (hl : ¬atLast i) :
    gMid c i a2 h2 a3 h3 a4 h4 a5 h5 a6 h6 a7 h7 a8 h8 a9 h9 x0 x1 x2 x3 z g hf hl = k0_pay3 x0 g := by
  unfold gMid
  rw [View.read_writes_eq_canon _ _ _ (coverG_mid c i a2 h2 a3 h3 a4 h4 a5 h5 a6 h6 a7 h7 a8 h8 a9 h9 x0 x1 x2 x3 z g hf hl)]
  unfold runMid; dsimp only
  sl_unfold_words
  rw [View.canon_unit_zero hz2]
  simp only [View.readAt_eq_ld, h2.read_unread, h3.read_unread, h4.read_unread, h5.read_unread, h8.read_unread, h9.read_unread,
    View.ld_unit_zero (S := S512x6144) hz2, View.ld_unit_zero (S := S512x128) hz2, View.ld_unit_zero (S := S6144x128) hz2,
    View.ld_unit_zero (S := S1x128) hz2, View.ld_unit_zero (S := S128x6144) hz2, View.ld_unit_zero (S := S1x6144) hz2]

theorem zLast_eq (hf : ¬atFirst i) (hl : atLast i) :
    zLast c i a2 h2 a3 h3 a4 h4 a5 h5 a6 h6 a7 h7 a8 h8 a9 h9 x0 x1 x2 x3 z g hf hl = k0_pay4 x0 x1 x2 x3 z := by
  unfold zLast
  rw [View.read_writes_eq_canon _ _ _ (coverZ_last c i a2 h2 a3 h3 a4 h4 a5 h5 a6 h6 a7 h7 a8 h8 a9 h9 x0 x1 x2 x3 z g hf hl)]
  unfold runLast; dsimp only
  sl_unfold_words
  rw [View.canon_unit_zero hz2]
  simp only [View.readAt_eq_ld, h2.read_unread, h3.read_unread, h4.read_unread, h5.read_unread, h8.read_unread, h9.read_unread,
    View.ld_unit_zero (S := S512x6144) hz2, View.ld_unit_zero (S := S512x128) hz2, View.ld_unit_zero (S := S6144x128) hz2,
    View.ld_unit_zero (S := S1x128) hz2, View.ld_unit_zero (S := S128x6144) hz2, View.ld_unit_zero (S := S1x6144) hz2]

theorem gLast_eq (hf : ¬atFirst i) (hl : atLast i) :
    gLast c i a2 h2 a3 h3 a4 h4 a5 h5 a6 h6 a7 h7 a8 h8 a9 h9 x0 x1 x2 x3 z g hf hl = k0_pay3 x0 g := by
  unfold gLast
  rw [View.read_writes_eq_canon _ _ _ (coverG_last c i a2 h2 a3 h3 a4 h4 a5 h5 a6 h6 a7 h7 a8 h8 a9 h9 x0 x1 x2 x3 z g hf hl)]
  unfold runLast; dsimp only
  sl_unfold_words
  rw [View.canon_unit_zero hz2]
  simp only [View.readAt_eq_ld, h2.read_unread, h3.read_unread, h4.read_unread, h5.read_unread, h8.read_unread, h9.read_unread,
    View.ld_unit_zero (S := S512x6144) hz2, View.ld_unit_zero (S := S512x128) hz2, View.ld_unit_zero (S := S6144x128) hz2,
    View.ld_unit_zero (S := S1x128) hz2, View.ld_unit_zero (S := S128x6144) hz2, View.ld_unit_zero (S := S1x6144) hz2]

theorem o4Last_eq (hf : ¬atFirst i) (hl : atLast i) :
    o4Last c i a2 h2 a3 h3 a4 h4 a5 h5 a6 h6 a7 h7 a8 h8 a9 h9 x0 x1 x2 x3 z g hf hl = k0_pay5 (k0_pay4 x0 x1 x2 x3 z) := by
  unfold o4Last
  rw [View.read_writes_eq_canon _ _ _ (cover4_last c i a2 h2 a3 h3 a4 h4 a5 h5 a6 h6 a7 h7 a8 h8 a9 h9 x0 x1 x2 x3 z g hf hl)]
  unfold runLast; dsimp only
  sl_unfold_words
  rw [View.canon_unit_zero hz3]
  simp only [View.readAt_eq_ld, h2.read_unread, h3.read_unread, h4.read_unread, h5.read_unread, h8.read_unread, h9.read_unread,
    View.ld_unit_zero (S := S512x6144) hz2, View.ld_unit_zero (S := S512x128) hz2, View.ld_unit_zero (S := S6144x128) hz2,
    View.ld_unit_zero (S := S1x128) hz2, View.ld_unit_zero (S := S128x6144) hz2, View.ld_unit_zero (S := S1x6144) hz2]
  exact congrArg _ (View.readCov_unit_zero (S := S128x6144) a8.view hz2 _ _)

theorem o5Last_eq (hf : ¬atFirst i) (hl : atLast i) :
    o5Last c i a2 h2 a3 h3 a4 h4 a5 h5 a6 h6 a7 h7 a8 h8 a9 h9 x0 x1 x2 x3 z g hf hl = k0_pay6 (k0_pay3 x0 g) := by
  unfold o5Last
  rw [View.read_writes_eq_canon _ _ _ (cover5_last c i a2 h2 a3 h3 a4 h4 a5 h5 a6 h6 a7 h7 a8 h8 a9 h9 x0 x1 x2 x3 z g hf hl)]
  unfold runLast; dsimp only
  sl_unfold_words
  rw [View.canon_unit_zero hz3]
  simp only [View.readAt_eq_ld, h2.read_unread, h3.read_unread, h4.read_unread, h5.read_unread, h8.read_unread, h9.read_unread,
    View.ld_unit_zero (S := S512x6144) hz2, View.ld_unit_zero (S := S512x128) hz2, View.ld_unit_zero (S := S6144x128) hz2,
    View.ld_unit_zero (S := S1x128) hz2, View.ld_unit_zero (S := S128x6144) hz2, View.ld_unit_zero (S := S1x6144) hz2]
  exact congrArg _ (View.readCov_unit_zero (S := S1x6144) a9.view hz2 _ _)

end Cert.KernelIdeal.Around

end
-- ==== Proof.HeldKI.lean ====
/-
  What the accumulators and the outputs' staging buffers hold after each grid position, as the body's arithmetic: the
  case equations of the point-by-point recursion composed with the payload form of each case's pieces. At a sweep's
  first position the accumulators hold this position's stores over zeros; at a later position this position's stores
  over what the position before left; at a sweep's last position the outputs' buffers hold the accumulators, reshaped.
-/
import proofs.«139444_j26594437497073_2_alg».proof.Proof.PiecesKI

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem heldZ_first (c : Dev nD) (t : Fin cfg0.N) (hf : atFirst (grid0.coords t)) :
    (heldAt m c t.val t.isLt).2.2.1 = k0_pay4 (blockAt m c 0 t) (blockAt m c 1 t) (blockAt m c 2 t) (blockAt m c 3 t) (k0_pay1 (F := F)) := by
  have hl : ¬atLast (grid0.coords t) := notLast_of_first t ((atFirst_iff t).mp hf)
  have hz : (heldAt m c t.val t.isLt).2.2.1 = zFirst c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) hf hl := by rw [heldAt_first m c t hf hl]
  exact hz.trans (zFirst_eq c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) hf hl)

theorem heldG_first (c : Dev nD) (t : Fin cfg0.N) (hf : atFirst (grid0.coords t)) :
    (heldAt m c t.val t.isLt).2.2.2 = k0_pay3 (blockAt m c 0 t) (k0_pay2 (F := F)) := by
  have hl : ¬atLast (grid0.coords t) := notLast_of_first t ((atFirst_iff t).mp hf)
  have hz : (heldAt m c t.val t.isLt).2.2.2 = gFirst c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) hf hl := by rw [heldAt_first m c t hf hl]
  exact hz.trans (gFirst_eq c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) hf hl)

theorem heldZ_next (c : Dev nD) (t : Fin cfg0.N) (hf : ¬atFirst (grid0.coords t)) :
    (heldAt m c t.val t.isLt).2.2.1 = k0_pay4 (blockAt m c 0 t) (blockAt m c 1 t) (blockAt m c 2 t) (blockAt m c 3 t) (heldAt m c (t.val - 1) (Nat.lt_of_le_of_lt (Nat.sub_le _ _) t.isLt)).2.2.1 := by
  by_cases hl : atLast (grid0.coords t)
  · have hz : (heldAt m c t.val t.isLt).2.2.1 = zLast c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) (heldAt m c (t.val - 1) (Nat.lt_of_le_of_lt (Nat.sub_le _ _) t.isLt)).2.2.1 (heldAt m c (t.val - 1) (Nat.lt_of_le_of_lt (Nat.sub_le _ _) t.isLt)).2.2.2 hf hl := by rw [heldAt_last m c t hf hl]
    exact hz.trans (zLast_eq c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) (heldAt m c (t.val - 1) (Nat.lt_of_le_of_lt (Nat.sub_le _ _) t.isLt)).2.2.1 (heldAt m c (t.val - 1) (Nat.lt_of_le_of_lt (Nat.sub_le _ _) t.isLt)).2.2.2 hf hl)
  · have hz : (heldAt m c t.val t.isLt).2.2.1 = zMid c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) (heldAt m c (t.val - 1) (Nat.lt_of_le_of_lt (Nat.sub_le _ _) t.isLt)).2.2.1 (heldAt m c (t.val - 1) (Nat.lt_of_le_of_lt (Nat.sub_le _ _) t.isLt)).2.2.2 hf hl := by rw [heldAt_mid m c t hf hl]
    exact hz.trans (zMid_eq c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) (heldAt m c (t.val - 1) (Nat.lt_of_le_of_lt (Nat.sub_le _ _) t.isLt)).2.2.1 (heldAt m c (t.val - 1) (Nat.lt_of_le_of_lt (Nat.sub_le _ _) t.isLt)).2.2.2 hf hl)

theorem heldG_next (c : Dev nD) (t : Fin cfg0.N) (hf : ¬atFirst (grid0.coords t)) :
    (heldAt m c t.val t.isLt).2.2.2 = k0_pay3 (blockAt m c 0 t) (heldAt m c (t.val - 1) (Nat.lt_of_le_of_lt (Nat.sub_le _ _) t.isLt)).2.2.2 := by
  by_cases hl : atLast (grid0.coords t)
  · have hz : (heldAt m c t.val t.isLt).2.2.2 = gLast c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) (heldAt m c (t.val - 1) (Nat.lt_of_le_of_lt (Nat.sub_le _ _) t.isLt)).2.2.1 (heldAt m c (t.val - 1) (Nat.lt_of_le_of_lt (Nat.sub_le _ _) t.isLt)).2.2.2 hf hl := by rw [heldAt_last m c t hf hl]
    exact hz.trans (gLast_eq c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) (heldAt m c (t.val - 1) (Nat.lt_of_le_of_lt (Nat.sub_le _ _) t.isLt)).2.2.1 (heldAt m c (t.val - 1) (Nat.lt_of_le_of_lt (Nat.sub_le _ _) t.isLt)).2.2.2 hf hl)
  · have hz : (heldAt m c t.val t.isLt).2.2.2 = gMid c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) (heldAt m c (t.val - 1) (Nat.lt_of_le_of_lt (Nat.sub_le _ _) t.isLt)).2.2.1 (heldAt m c (t.val - 1) (Nat.lt_of_le_of_lt (Nat.sub_le _ _) t.isLt)).2.2.2 hf hl := by rw [heldAt_mid m c t hf hl]
    exact hz.trans (gMid_eq c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) (heldAt m c (t.val - 1) (Nat.lt_of_le_of_lt (Nat.sub_le _ _) t.isLt)).2.2.1 (heldAt m c (t.val - 1) (Nat.lt_of_le_of_lt (Nat.sub_le _ _) t.isLt)).2.2.2 hf hl)

theorem held4_last (c : Dev nD) (t : Fin cfg0.N) (hf : ¬atFirst (grid0.coords t)) (hl : atLast (grid0.coords t)) :
    (heldAt m c t.val t.isLt).1 = k0_pay5 (heldAt m c t.val t.isLt).2.2.1 := by
  have h1 : (heldAt m c t.val t.isLt).1 = o4Last c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) (heldAt m c (t.val - 1) (Nat.lt_of_le_of_lt (Nat.sub_le _ _) t.isLt)).2.2.1 (heldAt m c (t.val - 1) (Nat.lt_of_le_of_lt (Nat.sub_le _ _) t.isLt)).2.2.2 hf hl := by rw [heldAt_last m c t hf hl]
  have h3 : (heldAt m c t.val t.isLt).2.2.1 = zLast c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) (heldAt m c (t.val - 1) (Nat.lt_of_le_of_lt (Nat.sub_le _ _) t.isLt)).2.2.1 (heldAt m c (t.val - 1) (Nat.lt_of_le_of_lt (Nat.sub_le _ _) t.isLt)).2.2.2 hf hl := by rw [heldAt_last m c t hf hl]
  rw [h1, h3, o4Last_eq, zLast_eq]

theorem held5_last (c : Dev nD) (t : Fin cfg0.N) (hf : ¬atFirst (grid0.coords t)) (hl : atLast (grid0.coords t)) :
    (heldAt m c t.val t.isLt).2.1 = k0_pay6 (heldAt m c t.val t.isLt).2.2.2 := by
  have h1 : (heldAt m c t.val t.isLt).2.1 = o5Last c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) (heldAt m c (t.val - 1) (Nat.lt_of_le_of_lt (Nat.sub_le _ _) t.isLt)).2.2.1 (heldAt m c (t.val - 1) (Nat.lt_of_le_of_lt (Nat.sub_le _ _) t.isLt)).2.2.2 hf hl := by rw [heldAt_last m c t hf hl]
  have h3 : (heldAt m c t.val t.isLt).2.2.2 = gLast c (grid0.coords t) (sg0 t) (hsg0 t) (sg1 t) (hsg1 t) (sg2 t) (hsg2 t) (sg3 t) (hsg3 t) (sg4 t) (hsg4 t) (sg5 t) (hsg5 t) accZ (Memref.isWhole_whole _) accG (Memref.isWhole_whole _) (blockAt m c 0 t) (blockAt m c 1 t) (blockAt m c 2 t) (blockAt m c 3 t) (heldAt m c (t.val - 1) (Nat.lt_of_le_of_lt (Nat.sub_le _ _) t.isLt)).2.2.1 (heldAt m c (t.val - 1) (Nat.lt_of_le_of_lt (Nat.sub_le _ _) t.isLt)).2.2.2 hf hl := by rw [heldAt_last m c t hf hl]
  rw [h1, h3, o5Last_eq, gLast_eq]

end Cert.KernelIdeal.Around

end
-- ==== Proof.PayloadKI.lean ====
/-
  The body's arithmetic read at an index, at the ideal instance (a float an extended real, every operation exact).

  With `G` the 512 x 6144 stripe of the guide matrix, `Z` the 512 x 128 stripe of `mean_z`, `B = mean_beta * p_hat^T`
  (6144 x 128) and `c` the 1 x 128 row of column means:
    * the column-sum store leaves  `g[0, q] + sum_r G[r, q] * G[r, q]`;
    * the accumulator store leaves `z[k, q] + sum_r ((Z[r, k] - sum_j G[r, j] * B[j, k]) - c[0, k]) * G[r, q]`
      (the first matrix product contracts the stripe's columns against `B`'s rows; the second contracts the 512 rows
       of the residual against the 512 rows of `G`, no transpose being formed);
    * the two copies out of the accumulators only change shape; the two initial stores write zeros.
-/
import proofs.«139444_j26594437497073_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Idealize.SL.Sem

variable [Facts]
open Facts₀ Facts

/-! ## The two matrix products and the column sum -/

theorem lhsA_0 (i : S512x128.Idx) (q : dot_S512x6144_S6144x128_S512x128_1_0_0_1_n_n.contr.Idx) : (dot_S512x6144_S6144x128_S512x128_1_0_0_1_n_n.lhsIdx i q 0).val = (i 0).val := by
  unfold DotDims.lhsIdx
  rw [dif_neg (show ¬(0 : Fin S512x6144.rank) ∈ dot_S512x6144_S6144x128_S512x128_1_0_0_1_n_n.lhsBatch by decide), dif_pos (show (0 : Fin S512x6144.rank) ∈ dot_S512x6144_S6144x128_S512x128_1_0_0_1_n_n.lhsNonContracting by decide)]
  rfl
theorem rhsA_1 (i : S512x128.Idx) (q : dot_S512x6144_S6144x128_S512x128_1_0_0_1_n_n.contr.Idx) : (dot_S512x6144_S6144x128_S512x128_1_0_0_1_n_n.rhsIdx i q 1).val = (i 1).val := by
  unfold DotDims.rhsIdx
  rw [dif_neg (show ¬(1 : Fin S6144x128.rank) ∈ dot_S512x6144_S6144x128_S512x128_1_0_0_1_n_n.rhsBatch by decide), dif_pos (show (1 : Fin S6144x128.rank) ∈ dot_S512x6144_S6144x128_S512x128_1_0_0_1_n_n.rhsNonContracting by decide)]
  rfl

/-- The stripe times `B`, into zeros: entry (r, k) is the sum over the 6144 columns. -/
theorem matmulA_apply (a : FVec Ideal S512x6144 .f32) (b : FVec Ideal S6144x128 .f32) (r : Fin 512) (k : Fin 128) :
    matmul dot_S512x6144_S6144x128_S512x128_1_0_0_1_n_n (some .fp32) a b (constant (F := Ideal) S512x128 .f32 0x00000000#32) (ix2 r k)
      = ∑ j : Fin 6144, a (ix2 r j) * b (ix2 j k) := by
  simp only [matmul]
  rw [Ideal.matmul_constant_zero_apply, ← Equiv.sum_comp (ValueIdx.contrEquiv1 dot_S512x6144_S6144x128_S512x128_1_0_0_1_n_n 6144 rfl rfl).symm]
  refine Finset.sum_congr rfl fun j _ => ?_
  have hj := ValueIdx.contrEquiv1_symm_val dot_S512x6144_S6144x128_S512x128_1_0_0_1_n_n 6144 rfl rfl j
  have el : dot_S512x6144_S6144x128_S512x128_1_0_0_1_n_n.lhsIdx (ix2 r k) ((ValueIdx.contrEquiv1 dot_S512x6144_S6144x128_S512x128_1_0_0_1_n_n 6144 rfl rfl).symm j) = ix2 r j := funext fun ax => Fin.ext (by
    match ax with
    | ⟨0, _⟩ => exact lhsA_0 _ _
    | ⟨1, _⟩ => exact (dot_S512x6144_S6144x128_S512x128_1_0_0_1_n_n.lhsIdx_val_of_single rfl _ _).trans hj)
  have er : dot_S512x6144_S6144x128_S512x128_1_0_0_1_n_n.rhsIdx (ix2 r k) ((ValueIdx.contrEquiv1 dot_S512x6144_S6144x128_S512x128_1_0_0_1_n_n 6144 rfl rfl).symm j) = ix2 j k := funext fun ax => Fin.ext (by
    match ax with
    | ⟨0, _⟩ => exact (dot_S512x6144_S6144x128_S512x128_1_0_0_1_n_n.rhsIdx_val_of_single rfl _ _).trans hj
    | ⟨1, _⟩ => exact rhsA_1 _ _)
  rw [el, er]

theorem lhsB_1 (i : S128x6144.Idx) (q : dot_S512x128_S512x6144_S128x6144_0_0_1_1_n_n.contr.Idx) : (dot_S512x128_S512x6144_S128x6144_0_0_1_1_n_n.lhsIdx i q 1).val = (i 0).val := by
  unfold DotDims.lhsIdx
  rw [dif_neg (show ¬(1 : Fin S512x128.rank) ∈ dot_S512x128_S512x6144_S128x6144_0_0_1_1_n_n.lhsBatch by decide), dif_pos (show (1 : Fin S512x128.rank) ∈ dot_S512x128_S512x6144_S128x6144_0_0_1_1_n_n.lhsNonContracting by decide)]
  rfl
theorem rhsB_1 (i : S128x6144.Idx) (q : dot_S512x128_S512x6144_S128x6144_0_0_1_1_n_n.contr.Idx) : (dot_S512x128_S512x6144_S128x6144_0_0_1_1_n_n.rhsIdx i q 1).val = (i 1).val := by
  unfold DotDims.rhsIdx
  rw [dif_neg (show ¬(1 : Fin S512x6144.rank) ∈ dot_S512x128_S512x6144_S128x6144_0_0_1_1_n_n.rhsBatch by decide), dif_pos (show (1 : Fin S512x6144.rank) ∈ dot_S512x128_S512x6144_S128x6144_0_0_1_1_n_n.rhsNonContracting by decide)]
  rfl

/-- The residual's rows against the stripe's rows, into zeros: entry (k, q) is the sum over the 512 rows. -/
theorem matmulB_apply (a : FVec Ideal S512x128 .f32) (b : FVec Ideal S512x6144 .f32) (k : Fin 128) (q : Fin 6144) :
    matmul dot_S512x128_S512x6144_S128x6144_0_0_1_1_n_n (some .fp32) a b (constant (F := Ideal) S128x6144 .f32 0x00000000#32) (ix2 k q)
      = ∑ r : Fin 512, a (ix2 r k) * b (ix2 r q) := by
  simp only [matmul]
  rw [Ideal.matmul_constant_zero_apply, ← Equiv.sum_comp (ValueIdx.contrEquiv1 dot_S512x128_S512x6144_S128x6144_0_0_1_1_n_n 512 rfl rfl).symm]
  refine Finset.sum_congr rfl fun r _ => ?_
  have hr := ValueIdx.contrEquiv1_symm_val dot_S512x128_S512x6144_S128x6144_0_0_1_1_n_n 512 rfl rfl r
  have el : dot_S512x128_S512x6144_S128x6144_0_0_1_1_n_n.lhsIdx (ix2 k q) ((ValueIdx.contrEquiv1 dot_S512x128_S512x6144_S128x6144_0_0_1_1_n_n 512 rfl rfl).symm r) = ix2 r k := funext fun ax => Fin.ext (by
    match ax with
    | ⟨0, _⟩ => exact (dot_S512x128_S512x6144_S128x6144_0_0_1_1_n_n.lhsIdx_val_of_single rfl _ _).trans hr
    | ⟨1, _⟩ => exact lhsB_1 _ _)
  have er : dot_S512x128_S512x6144_S128x6144_0_0_1_1_n_n.rhsIdx (ix2 k q) ((ValueIdx.contrEquiv1 dot_S512x128_S512x6144_S128x6144_0_0_1_1_n_n 512 rfl rfl).symm r) = ix2 r q := funext fun ax => Fin.ext (by
    match ax with
    | ⟨0, _⟩ => exact (dot_S512x128_S512x6144_S128x6144_0_0_1_1_n_n.rhsIdx_val_of_single rfl _ _).trans hr
    | ⟨1, _⟩ => exact rhsB_1 _ _)
  rw [el, er]

/-- A sum down the 512 rows of a stripe, at column `q`. -/
theorem colSum_apply (src : FVec Ideal S512x6144 .f32) (h : S512x6144.Reduces [0] S6144) (hφ : FKind.Formats .f32)
    (hacc : (0x00000000#32 : BitVec 32) = FKind.add.neutral .f32 hφ) (q : Fin 6144) :
    multiReduction .add [0] S6144 src 0x00000000#32 h hφ hacc (ix1 q) = ∑ r : Fin 512, src (ix2 r q) := by
  refine (Ideal.multiReduction_add_single src 0x00000000#32 h hφ hacc (ix1 q)).trans ?_
  refine Finset.sum_congr rfl fun r _ => ?_
  exact congrArg src (funext fun a => Fin.ext (by match a with | ⟨0, _⟩ => rfl | ⟨1, _⟩ => rfl))

/-! ## The payloads -/

theorem pay1_apply (k : Fin 128) (q : Fin 6144) : k0_pay1 (F := Ideal) (ix2 k q) = 0 := by
  unfold k0_pay1
  refine (congrFun (shapeCast_self _ Facts₀.shapeCasts_S128x6144_S128x6144) (ix2 k q)).trans ?_
  exact Ideal.ofBits_zero_f32

theorem pay2_apply (u : Fin 1) (q : Fin 6144) : k0_pay2 (F := Ideal) (ix2 u q) = 0 := by
  unfold k0_pay2
  refine (congrFun (shapeCast_self _ Facts₀.shapeCasts_S1x6144_S1x6144) (ix2 u q)).trans ?_
  exact Ideal.ofBits_zero_f32

/-- The column-sum store. -/
theorem pay3_apply (x0 : FVec Ideal S512x6144 .f32) (g : FVec Ideal S1x6144 .f32) (u : Fin 1) (q : Fin 6144) :
    k0_pay3 (F := Ideal) x0 g (ix2 u q) = g (ix2 u q) + ∑ r : Fin 512, x0 (ix2 r q) * x0 (ix2 r q) := by
  unfold k0_pay3
  refine (congrFun (shapeCast_self _ Facts₀.shapeCasts_S1x6144_S1x6144) (ix2 u q)).trans ?_
  refine congrArg (g (ix2 u q) + ·) ?_
  refine (shapeCast_a_1a_apply _ Facts₀.shapeCasts_S6144_S1x6144 u q).trans ?_
  exact colSum_apply (mulf x0 x0) _ _ _ q

/-- The accumulator store. -/
theorem pay4_apply (x0 : FVec Ideal S512x6144 .f32) (x1 : FVec Ideal S512x128 .f32) (x2 : FVec Ideal S6144x128 .f32)
    (x3 : FVec Ideal S1x128 .f32) (z : FVec Ideal S128x6144 .f32) (k : Fin 128) (q : Fin 6144) :
    k0_pay4 (F := Ideal) x0 x1 x2 x3 z (ix2 k q)
      = z (ix2 k q) + ∑ r : Fin 512, ((x1 (ix2 r k) - ∑ j : Fin 6144, x0 (ix2 r j) * x2 (ix2 j k)) - x3 (ix2 (0 : Fin 1) k)) * x0 (ix2 r q) := by
  unfold k0_pay4
  refine (congrFun (shapeCast_self _ Facts₀.shapeCasts_S128x6144_S128x6144) (ix2 k q)).trans ?_
  refine congrArg (z (ix2 k q) + ·) ?_
  refine (matmulB_apply _ x0 k q).trans ?_
  refine Finset.sum_congr rfl fun r _ => congrArg (· * x0 (ix2 r q)) ?_
  refine congrArg₂ (· - ·) (congrArg (x1 (ix2 r k) - ·) ?_) ?_
  · refine (congrArg (fun y => matmul dot_S512x6144_S6144x128_S512x128_1_0_0_1_n_n (some .fp32) x0 y (constant (F := Ideal) S512x128 .f32 0x00000000#32) (ix2 r k))
      (shapeCast_self x2 Facts₀.shapeCasts_S6144x128_S6144x128)).trans ?_
    exact matmulA_apply x0 x2 r k
  · refine (broadcastTo_1b_ab_apply _ Facts₀.broadcasts_S1x128_S512x128 r k).trans ?_
    exact congrFun (shapeCast_self x3 Facts₀.shapeCasts_S1x128_S1x128) _

/-- The copies out of the accumulators. -/
theorem pay5_apply (v : FVec Ideal S128x6144 .f32) (u : Fin 1) (k : Fin 128) (q : Fin 6144) :
    k0_pay5 (F := Ideal) v (ix3 u k q) = v (ix2 k q) := by
  unfold k0_pay5
  exact shapeCast_ab_1ab_apply v Facts₀.shapeCasts_S128x6144_S1x128x6144 u k q

theorem pay6_apply (v : FVec Ideal S1x6144 .f32) (u u' : Fin 1) (q : Fin 6144) :
    k0_pay6 (F := Ideal) v (ix3 u u' q) = v (ix2 u' q) := by
  unfold k0_pay6
  exact shapeCast_ab_1ab_apply v Facts₀.shapeCasts_S1x6144_S1x1x6144 u u' q

end Cert.KernelIdeal.Payload

end
-- ==== Proof.SumSpec.lean ====
/-
  The two rearrangements of sums that join the kernel's accumulation to the reference's single sums, over any
  commutative additive monoid (the extended reals are one: their addition is commutative and associative, with
  `⊥ + ⊤ = ⊥`; no cancellation or distributivity is used, so nothing here needs the summands finite).

  * A running sum that is RESET at every position divisible by 16 and otherwise adds the position's term to what the
    position before left (a sweep of 16 grid steps per core) holds, at step `j` of sweep `q`, the sum of the sweep's
    terms up to `j`.
  * A sum over 16384 rows is the sum over 2 cores, 16 steps and 512 rows of a stripe, row `(16 a + i) 512 + r`.
-/
import Mathlib.Algebra.BigOperators.Fin
import Mathlib.Algebra.BigOperators.Group.Finset.Basic
import Mathlib.Logic.Equiv.Fin.Basic
import Mathlib.Tactic

namespace Cert.SumSpec

open Finset

variable {M : Type*} [AddCommMonoid M]

/-- The running sum of a sweep: reset where the position is a multiple of 16, else carried. -/
def sweepSum (g : ℕ → M) : ℕ → M
  | 0 => g 0
  | n + 1 => if (n + 1) % 16 = 0 then g (n + 1) else sweepSum g n + g (n + 1)

theorem sweepSum_zero (g : ℕ → M) : sweepSum g 0 = g 0 := rfl
theorem sweepSum_reset (g : ℕ → M) (n : ℕ) (h : (n + 1) % 16 = 0) : sweepSum g (n + 1) = g (n + 1) := by
  rw [sweepSum, if_pos h]
theorem sweepSum_carry (g : ℕ → M) (n : ℕ) (h : ¬(n + 1) % 16 = 0) : sweepSum g (n + 1) = sweepSum g n + g (n + 1) := by
  rw [sweepSum, if_neg h]

/-- At step `j` of sweep `q` the running sum is the sum of the sweep's terms up to `j`. -/
theorem sweepSum_eq (g : ℕ → M) (q j : ℕ) (hj : j < 16) :
    sweepSum g (16 * q + j) = ∑ i ∈ range (j + 1), g (16 * q + i) := by
  induction j with
  | zero =>
    rw [Finset.sum_range_one, Nat.add_zero]
    cases q with
    | zero => rfl
    | succ q =>
      rw [show 16 * (q + 1) = (16 * q + 15) + 1 by ring]
      exact sweepSum_reset g _ (by omega)
  | succ j ih =>
    rw [Finset.sum_range_succ, ← ih (by omega), show 16 * q + (j + 1) = (16 * q + j) + 1 by ring]
    exact sweepSum_carry g _ (by omega)

/-- The whole sweep: at its last step the running sum is the sum of its 16 terms. -/
theorem sweepSum_last (g : ℕ → M) (q : ℕ) : sweepSum g (16 * q + 15) = ∑ i : Fin 16, g (16 * q + i.val) := by
  rw [sweepSum_eq g q 15 (by omega), Finset.sum_range]

/-- 16384 rows as 2 cores of 16 stripes of 512 rows. -/
theorem sum_rows (h : Fin 16384 → M) :
    ∑ n, h n = ∑ a : Fin 2, ∑ i : Fin 16, ∑ r : Fin 512,
      h ⟨(16 * a.val + i.val) * 512 + r.val, by have := a.isLt; have := i.isLt; have := r.isLt; omega⟩ := by
  have e1 : ∑ n, h n = ∑ p : Fin 32 × Fin 512, h ⟨p.1.val * 512 + p.2.val, by have := p.1.isLt; have := p.2.isLt; omega⟩ := by
    refine (Fintype.sum_equiv (finProdFinEquiv (m := 32) (n := 512)) _ _ fun p => ?_).symm
    refine congrArg h (Fin.ext ?_)
    simp only [finProdFinEquiv_apply_val]; ring
  have e2 : ∀ f : Fin 32 → M, ∑ T, f T = ∑ p : Fin 2 × Fin 16, f ⟨16 * p.1.val + p.2.val, by have := p.1.isLt; have := p.2.isLt; omega⟩ := by
    intro f
    refine (Fintype.sum_equiv (finProdFinEquiv (m := 2) (n := 16)) _ _ fun p => ?_).symm
    refine congrArg f (Fin.ext ?_)
    simp only [finProdFinEquiv_apply_val]; ring
  rw [e1, Fintype.sum_prod_type, e2, Fintype.sum_prod_type]

end Cert.SumSpec
-- ==== Proof.AccumKI.lean ====
/-
  The accumulators in closed form, at the ideal instance.

  At grid position `t` write `G_t`, `Z_t`, `B`, `c` for the four input blocks the body is handed (a 512-row stripe
  of the guide matrix and of `mean_z`, the resident product `mean_beta * p_hat^T`, the row of column means). One step
  contributes
      zTerm t k q = sum_r ((Z_t[r, k] - sum_j G_t[r, j] * B[j, k]) - c[0, k]) * G_t[r, q]
      gTerm t q   = sum_r G_t[r, q] * G_t[r, q]
  and after position `n` each accumulator holds the running sum of its terms over the sweep `n` lies in (reset where
  `n` is a multiple of 16: the first step stores into zeros, and `0 + x = x` on the extended reals). At a sweep's last
  position the outputs' staging buffers hold the accumulators, reshaped.
-/
import proofs.«139444_j26594437497073_2_alg».proof.Proof.HeldKI
import proofs.«139444_j26594437497073_2_alg».proof.Proof.PayloadKI
import proofs.«139444_j26594437497073_2_alg».proof.Proof.SumSpec

set_option maxRecDepth 16384

noncomputable section

namespace Cert.KernelIdeal.Accum

open Cert.KernelIdeal Cert.KernelIdeal.Gen Cert.KernelIdeal.Around Cert.KernelIdeal.Payload Cert.SumSpec
open Idealize.ShloMosaic Idealize.ShloMosaic.ValueIdx Idealize.ShloMosaic.TcCoe Idealize.SL.Sem

variable (m : (ℓ : Loc nD τ sig) → Buf (Elt Ideal) ℓ) (c : Dev nD)

/-- The four input blocks at a grid position, as plain arrays. -/
abbrev Gb (t : Fin cfg0.N) : FVec Ideal S512x6144 .f32 := blockAt m c 0 t
abbrev Zb (t : Fin cfg0.N) : FVec Ideal S512x128 .f32 := blockAt m c 1 t
abbrev Bb (t : Fin cfg0.N) : FVec Ideal S6144x128 .f32 := blockAt m c 2 t
abbrev Cb (t : Fin cfg0.N) : FVec Ideal S1x128 .f32 := blockAt m c 3 t

/-- One step's contribution to the (128, 6144) accumulator, at (k, q). -/
def zTerm (t : Fin cfg0.N) (k : Fin 128) (q : Fin 6144) : EReal :=
  ∑ r : Fin 512, ((Zb m c t (ix2 r k) - ∑ j : Fin 6144, Gb m c t (ix2 r j) * Bb m c t (ix2 j k)) - Cb m c t (ix2 (0 : Fin 1) k)) * Gb m c t (ix2 r q)
/-- One step's contribution to the (1, 6144) accumulator, at column q. -/
def gTerm (t : Fin cfg0.N) (q : Fin 6144) : EReal := ∑ r : Fin 512, Gb m c t (ix2 r q) * Gb m c t (ix2 r q)
/-- The same by position (zero past the grid: never consulted). -/
def zTermN (k : Fin 128) (q : Fin 6144) (n : ℕ) : EReal := if h : n < cfg0.N then zTerm m c ⟨n, h⟩ k q else 0
def gTermN (q : Fin 6144) (n : ℕ) : EReal := if h : n < cfg0.N then gTerm m c ⟨n, h⟩ q else 0

theorem zTermN_of (k : Fin 128) (q : Fin 6144) (t : Fin cfg0.N) : zTermN m c k q t.val = zTerm m c t k q := by
  unfold zTermN; rw [dif_pos t.isLt]
theorem gTermN_of (q : Fin 6144) (t : Fin cfg0.N) : gTermN m c q t.val = gTerm m c t q := by
  unfold gTermN; rw [dif_pos t.isLt]

/-! ## One step -/

theorem z_first (t : Fin cfg0.N) (hf : atFirst (grid0.coords t)) (k : Fin 128) (q : Fin 6144) :
    (heldAt m c t.val t.isLt).2.2.1 (ix2 k q) = zTerm m c t k q := by
  refine (congrFun (heldZ_first (F := Ideal) m c t hf) (ix2 k q)).trans ?_
  refine (pay4_apply (blockAt m c 0 t) (blockAt m c 1 t) (blockAt m c 2 t) (blockAt m c 3 t) (k0_pay1 (F := Ideal)) k q).trans ?_
  rw [pay1_apply, zero_add]; rfl

theorem g_first (t : Fin cfg0.N) (hf : atFirst (grid0.coords t)) (u : Fin 1) (q : Fin 6144) :
    (heldAt m c t.val t.isLt).2.2.2 (ix2 u q) = gTerm m c t q := by
  refine (congrFun (heldG_first (F := Ideal) m c t hf) (ix2 u q)).trans ?_
  refine (pay3_apply (blockAt m c 0 t) (k0_pay2 (F := Ideal)) u q).trans ?_
  rw [pay2_apply, zero_add]; rfl

theorem z_next (t : Fin cfg0.N) (hf : ¬atFirst (grid0.coords t)) (k : Fin 128) (q : Fin 6144) :
    (heldAt m c t.val t.isLt).2.2.1 (ix2 k q)
      = (heldAt m c (t.val - 1) (Nat.lt_of_le_of_lt (Nat.sub_le _ _) t.isLt)).2.2.1 (ix2 k q) + zTerm m c t k q :=
  (congrFun (heldZ_next (F := Ideal) m c t hf) (ix2 k q)).trans (pay4_apply (blockAt m c 0 t) (blockAt m c 1 t) (blockAt m c 2 t) (blockAt m c 3 t) (heldAt m c (t.val - 1) (Nat.lt_of_le_of_lt (Nat.sub_le _ _) t.isLt)).2.2.1 k q)

theorem g_next (t : Fin cfg0.N) (hf : ¬atFirst (grid0.coords t)) (u : Fin 1) (q : Fin 6144) :
    (heldAt m c t.val t.isLt).2.2.2 (ix2 u q)
      = (heldAt m c (t.val - 1) (Nat.lt_of_le_of_lt (Nat.sub_le _ _) t.isLt)).2.2.2 (ix2 u q) + gTerm m c t q :=
  (congrFun (heldG_next (F := Ideal) m c t hf) (ix2 u q)).trans (pay3_apply (blockAt m c 0 t) (heldAt m c (t.val - 1) (Nat.lt_of_le_of_lt (Nat.sub_le _ _) t.isLt)).2.2.2 u q)

/-! ## Every position -/

/-- The (128, 6144) accumulator after position `n`: the running sum of its sweep. -/
theorem z_held (k : Fin 128) (q : Fin 6144) : ∀ (n : ℕ) (hn : n < cfg0.N),
    (heldAt m c n hn).2.2.1 (ix2 k q) = sweepSum (zTermN m c k q) n
  | 0, hn => by
    rw [sweepSum_zero]
    exact (z_first m c ⟨0, hn⟩ (first_of ⟨0, hn⟩ (Nat.zero_mod _)) k q).trans (zTermN_of m c k q ⟨0, hn⟩).symm
  | n + 1, hn => by
    by_cases h0 : (n + 1) % 16 = 0
    · rw [sweepSum_reset _ n h0]
      exact (z_first m c ⟨n + 1, hn⟩ (first_of ⟨n + 1, hn⟩ h0) k q).trans (zTermN_of m c k q ⟨n + 1, hn⟩).symm
    · rw [sweepSum_carry _ n h0, ← z_held k q n (Nat.lt_of_succ_lt hn)]
      exact (z_next m c ⟨n + 1, hn⟩ (notFirst_of ⟨n + 1, hn⟩ h0) k q).trans
        (congrArg (_ + ·) (zTermN_of m c k q ⟨n + 1, hn⟩).symm)

/-- The (1, 6144) accumulator after position `n`. -/
theorem g_held (u : Fin 1) (q : Fin 6144) : ∀ (n : ℕ) (hn : n < cfg0.N),
    (heldAt m c n hn).2.2.2 (ix2 u q) = sweepSum (gTermN m c q) n
  | 0, hn => by
    rw [sweepSum_zero]
    exact (g_first m c ⟨0, hn⟩ (first_of ⟨0, hn⟩ (Nat.zero_mod _)) u q).trans (gTermN_of m c q ⟨0, hn⟩).symm
  | n + 1, hn => by
    by_cases h0 : (n + 1) % 16 = 0
    · rw [sweepSum_reset _ n h0]
      exact (g_first m c ⟨n + 1, hn⟩ (first_of ⟨n + 1, hn⟩ h0) u q).trans (gTermN_of m c q ⟨n + 1, hn⟩).symm
    · rw [sweepSum_carry _ n h0, ← g_held u q n (Nat.lt_of_succ_lt hn)]
      exact (g_next m c ⟨n + 1, hn⟩ (notFirst_of ⟨n + 1, hn⟩ h0) u q).trans
        (congrArg (_ + ·) (gTermN_of m c q ⟨n + 1, hn⟩).symm)

/-! ## The outputs' buffers at a sweep's last position -/

theorem o4_last (t : Fin cfg0.N) (hl : atLast (grid0.coords t)) (u : Fin 1) (k : Fin 128) (q : Fin 6144) :
    (heldAt m c t.val t.isLt).1 (ix3 u k q) = (heldAt m c t.val t.isLt).2.2.1 (ix2 k q) := by
  have hf : ¬atFirst (grid0.coords t) := fun h => by
    have h0 := (atFirst_iff t).mp h; have h1 := (atLast_iff t).mp hl; omega
  exact (congrFun (held4_last (F := Ideal) m c t hf hl) (ix3 u k q)).trans (pay5_apply (heldAt m c t.val t.isLt).2.2.1 u k q)

theorem o5_last (t : Fin cfg0.N) (hl : atLast (grid0.coords t)) (u u' : Fin 1) (q : Fin 6144) :
    (heldAt m c t.val t.isLt).2.1 (ix3 u u' q) = (heldAt m c t.val t.isLt).2.2.2 (ix2 u' q) := by
  have hf : ¬atFirst (grid0.coords t) := fun h => by
    have h0 := (atFirst_iff t).mp h; have h1 := (atLast_iff t).mp hl; omega
  exact (congrFun (held5_last (F := Ideal) m c t hf hl) (ix3 u u' q)).trans (pay6_apply (heldAt m c t.val t.isLt).2.2.2 u u' q)

end Cert.KernelIdeal.Accum

end
-- ==== Proof.RegionRunKI.lean ====
/-
  The kernel body's obligation at every grid point, and the run of @main: the host operations before the region, the
  region under the proof data of the accumulation, the host operations after it. The run ends with every array of the
  pipeline at what the proof data computes from the blocks written back and every other buffer as the later host
  operations leave it; the frame claim (the arguments end unchanged) is read off it.
-/
import proofs.«139444_j26594437497073_2_alg».proof.Proof.SweepKI

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at grid point `t`: the invariant, nothing owed, and each window's current staging
    buffer at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (sg0 t) fullShare ((dats m 0 c).before 0 t d))
    ∗ (∃ d, owns (c : Thread nD τ) (sg1 t) fullShare ((dats m 0 c).before 1 t d))
    ∗ (∃ d, owns (c : Thread nD τ) (sg2 t) fullShare ((dats m 0 c).before 2 t d))
    ∗ (∃ d, owns (c : Thread nD τ) (sg3 t) fullShare ((dats m 0 c).before 3 t d))
    ∗ (∃ d, owns (c : Thread nD τ) (sg4 t) fullShare ((dats m 0 c).before 4 t d))
    ∗ (∃ d, owns (c : Thread nD τ) (sg5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 8000000 in
/-- The body at any grid point. The inputs' buffers hold their blocks; the position says which of the three cases the
    point is in; the invariant hands the accumulators over at what the point before left (at anything at the very
    first point) and takes them back at this point's contents, which the case's pieces cover; an output's buffer is
    handed back untouched except at a sweep's last point, where the case's pieces cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = invAt m c (t.val + 1) t.isLt from rfl, invAt_succ]
  rw [leaves_0, leaves_1, leaves_2, leaves_3]
  have hN : t.val < 32 := lt_of_lt_of_eq t.isLt (show cfg0.N = 32 from N_0)
  by_cases hf : atFirst (grid0.coords t)
  · have hl : ¬atLast (grid0.coords t) := notLast_of_first t ((atFirst_iff t).mp hf)
    rw [Dat.leavesExact_idle (dats m 0 c) 4 t (idle4 t hl) (noFlush4 t hl), Dat.leavesExact_idle (dats m 0 c) 5 t (idle5 t hl) (noFlush5 t hl)]
    rw [heldAt_first m c t hf hl]
    unfold zFirst gFirst; (try dsimp only)
    by_cases hz : t.val = 0
    · rw [inv_castSucc m c t, invAt_zero m c _ _ hz, scratch_inv]
      iintro ⟨⟨⟨HZ, HG⟩, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ _ _ hf hl (blockAt m c 0 t) (blockAt m c 1 t) (blockAt m c 2 t) (blockAt m c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HZ]; · iexact HZ
      isplitl [HG]; · iexact HG
      iintro ⟨H0, H1, H2, H3, H4, H5, ⟨%ez, HZ⟩, ⟨%eg, HG⟩⟩
      isplitl [HZ HG Hg]
      · isplitl [HZ HG]
        · isplitl [HZ]
          · unfold owns; iexists _; isplitr
            swap; · iexact HZ
            ipureintro; exact View.read_writes_of_cover _ _ _ _ _ (coverZ_first c _ _ _ _ _ _ _ _ _ _ _ _ _ _ _ _ _ _ _ _ _ _ _)
          · unfold owns; iexists _; isplitr
            swap; · iexact HG
            ipureintro; exact View.read_writes_of_cover _ _ _ _ _ (coverG_first c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [inv_castSucc m c t, invAt_pos m c _ _ hz]
      iintro ⟨⟨⟨HZ, HG⟩, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ _ _ hf hl (blockAt m c 0 t) (blockAt m c 1 t) (blockAt m c 2 t) (blockAt m c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HZ]; · iexists _; iexact HZ
      isplitl [HG]; · iexists _; iexact HG
      iintro ⟨H0, H1, H2, H3, H4, H5, ⟨%ez, HZ⟩, ⟨%eg, HG⟩⟩
      isplitl [HZ HG Hg]
      · isplitl [HZ HG]
        · isplitl [HZ]
          · unfold owns; iexists _; isplitr
            swap; · iexact HZ
            ipureintro; exact View.read_writes_of_cover _ _ _ _ _ (coverZ_first c _ _ _ _ _ _ _ _ _ _ _ _ _ _ _ _ _ _ _ _ _ _ _)
          · unfold owns; iexists _; isplitr
            swap; · iexact HG
            ipureintro; exact View.read_writes_of_cover _ _ _ _ _ (coverG_first c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => hf ((atFirst_iff t).mpr (by rw [h]))
    by_cases hl : atLast (grid0.coords t)
    · rw [show (dats m 0 c).leavesExact 4 t = owns (c : Thread nD τ) (sg4 t) fullShare ((dats m 0 c).after 4 t) from by
        unfold Dat.leavesExact; rw [live4 t hl], after_4]
      rw [show (dats m 0 c).leavesExact 5 t = owns (c : Thread nD τ) (sg5 t) fullShare ((dats m 0 c).after 5 t) from by
        unfold Dat.leavesExact; rw [live5 t hl], after_5]
      rw [heldAt_last m c t hf hl]
      unfold o4Last o5Last zLast gLast; (try dsimp only)
      rw [inv_castSucc m c t, invAt_pos m c _ _ hz]
      iintro ⟨⟨⟨HZ, HG⟩, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ _ _ hf hl (blockAt m c 0 t) (blockAt m c 1 t) (blockAt m c 2 t) (blockAt m c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HZ]; · iexact HZ
      isplitl [HG]; · iexact HG
      iintro ⟨H0, H1, H2, H3, ⟨%e4, H4⟩, ⟨%e5, H5⟩, ⟨%ez, HZ⟩, ⟨%eg, HG⟩⟩
      isplitl [HZ HG Hg]
      · isplitl [HZ HG]
        · isplitl [HZ]
          · unfold owns; iexists _; isplitr
            swap; · iexact HZ
            ipureintro; exact View.read_writes_of_cover _ _ _ _ _ (coverZ_last c _ _ _ _ _ _ _ _ _ _ _ _ _ _ _ _ _ _ _ _ _ _ _ _ _)
          · unfold owns; iexists _; isplitr
            swap; · iexact HG
            ipureintro; exact View.read_writes_of_cover _ _ _ _ _ (coverG_last c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_last c _ _ _ _ _ _ _ _ _ _ _ _ _ _ _ _ _ _ _ _ _ _ _ _ _)
      · unfold owns; iexists _; isplitr
        swap; · iexact H5
        ipureintro; exact View.read_writes_of_cover _ _ _ _ _ (cover5_last c _ _ _ _ _ _ _ _ _ _ _ _ _ _ _ _ _ _ _ _ _ _ _ _ _)
    · rw [Dat.leavesExact_idle (dats m 0 c) 4 t (idle4 t hl) (noFlush4 t hl), Dat.leavesExact_idle (dats m 0 c) 5 t (idle5 t hl) (noFlush5 t hl)]
      rw [heldAt_mid m c t hf hl]
      unfold zMid gMid; (try dsimp only)
      rw [inv_castSucc m c t, invAt_pos m c _ _ hz]
      iintro ⟨⟨⟨HZ, HG⟩, Hg⟩, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ _ _ _ _ hf hl (blockAt m c 0 t) (blockAt m c 1 t) (blockAt m c 2 t) (blockAt m c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HZ]; · iexact HZ
      isplitl [HG]; · iexact HG
      iintro ⟨H0, H1, H2, H3, H4, H5, ⟨%ez, HZ⟩, ⟨%eg, HG⟩⟩
      isplitl [HZ HG Hg]
      · isplitl [HZ HG]
        · isplitl [HZ]
          · unfold owns; iexists _; isplitr
            swap; · iexact HZ
            ipureintro; exact View.read_writes_of_cover _ _ _ _ _ (coverZ_mid c _ _ _ _ _ _ _ _ _ _ _ _ _ _ _ _ _ _ _ _ _ _ _ _ _)
          · unfold owns; iexists _; isplitr
            swap; · iexact HG
            ipureintro; exact View.read_writes_of_cover _ _ _ _ _ (coverG_mid c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every grid point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = invAt m c 0 (Nat.zero_le _) from rfl, invAt_zero m c 0 _ rfl]
  try exact Idealize.SL.BI.Entails.refl _

/-- After the last point the invariant gives it back: the accumulators' contents are forgotten. -/
theorem inv_out (c : Dev nD) : (dats m 0 c).Φ (Fin.last cfg0.N) ⊢ Pipeline.ΦA spec0 c := by
  rw [show (dats m 0 c).Φ (Fin.last cfg0.N) = invAt m c (Fin.last cfg0.N).val (Nat.le_of_lt_succ (Fin.last cfg0.N).isLt) from rfl,
    invAt_pos m c _ _ (by rw [Fin.val_last]; have : cfg0.N = 32 := N_0; omega), scratch_inv]
  iintro ⟨⟨HZ, HG⟩, Hg⟩
  isplitl [HZ HG]
  · isplitl [HZ]
    · iexists _; iexact HZ
    · iexists _; iexact HG
  iexact Hg

set_option backward.isDefEq.respectTransparency.types false in
/-- From any memory with zero counters every weakly fair execution of @main terminates, no step faulting, with every
    array of the pipeline at what the proof data computes and every other unscoped buffer as the host operations
    after the region leave it. -/
theorem run_main : θ_run defs (onTc (τ := τ) (main (F := F))) (s₀ m ρ)
    (Pipeline.FramePost cfgs (dats m) 0 (Pipeline.afterTail₀ cfgs (dats m) 0 (entryVals m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := entryVals m) (opss := tailOps) (hsub := tail_sub) (hfresh := tail_fresh) (hkeep := tail_keeps)
    (hmain := main_around m Variants.none) (hA := A_eq m) (hin := inv_in m) (hout := inv_out m)

/-- The frame: @main runs to the end and its six argument arrays end as launched, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_kept m (dats m) (A_eq m) r h c) (run_main m ρ)

end Cert.KernelIdeal.Around

end
-- ==== Proof.ArraysKI.lean ====
/-
  The two partial-sum arrays after the region, index by index, at the ideal instance.

  Output window 4's block at a grid position is slab `core` of the 2 x 128 x 6144 array (block index
  (position / 16, 0, 0)), written back at a sweep's last position only; likewise window 5 and the 2 x 1 x 6144 array.
  So slab `a` of each array ends holding what its accumulator held at position `16 a + 15`: the sum of the sweep's
  sixteen terms.
-/
import proofs.«139444_j26594437497073_2_alg».proof.Proof.AccumKI
import proofs.«139444_j26594437497073_2_alg».proof.Proof.RegionRunKI

set_option maxRecDepth 16384

noncomputable section

namespace Cert.KernelIdeal.Accum

open Cert.KernelIdeal Cert.KernelIdeal.Gen Cert.KernelIdeal.Around Cert.KernelIdeal.Payload Cert.SumSpec
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (c : Dev nD)

/-- What the first partial-sum array ends holding: slab `a`, row `k`, column `q`, the sixteen terms of sweep `a`. -/
def P4fn : S2x128x6144.Idx → EReal := fun j => ∑ i : Fin 16, zTermN m c (j 1) (j 2) (16 * (j 0).val + i.val)
/-- What the second ends holding. -/
def P5fn : S2x1x6144.Idx → EReal := fun j => ∑ i : Fin 16, gTermN m c (j 2) (16 * (j 0).val + i.val)

/-- The outputs' block indices, decided over the grid. -/
theorem idx4 : ∀ t : Fin cfg0.N, win0_4.index t (0 : Fin 3) = t.val / 16 ∧ win0_4.index t (1 : Fin 3) = 0 ∧ win0_4.index t (2 : Fin 3) = 0 :=
  (by decide +kernel : ∀ t : Fin grid0.N, win0_4.index t (0 : Fin 3) = t.val / 16 ∧ win0_4.index t (1 : Fin 3) = 0 ∧ win0_4.index t (2 : Fin 3) = 0)
theorem idx5 : ∀ t : Fin cfg0.N, win0_5.index t (0 : Fin 3) = t.val / 16 ∧ win0_5.index t (1 : Fin 3) = 0 ∧ win0_5.index t (2 : Fin 3) = 0 :=
  (by decide +kernel : ∀ t : Fin grid0.N, win0_5.index t (0 : Fin 3) = t.val / 16 ∧ win0_5.index t (1 : Fin 3) = 0 ∧ win0_5.index t (2 : Fin 3) = 0)

/-- What a sweep's last position writes back into the first array is its block of `P4fn`. -/
theorem flushed4_eq (t : Fin cfg0.N) (hfl : (cfg0.win 4).flush t = true) :
    (dats m 0 c).flushed 4 t = ((cfg0.win 4).blk t).view.read (Elt Ideal) (P4fn m c) := by
  have h15 : t.val % 16 = 15 := (flush0_4 t).mp hfl
  have hN : t.val < 32 := lt_of_lt_of_eq t.isLt (show cfg0.N = 32 from N_0)
  have hl : atLast (grid0.coords t) := (atLast_iff t).mpr h15
  obtain ⟨e0, e1, e2⟩ := idx4 t
  show (cfg0.win 4).cut (grid0.coords t) ((dats m 0 c).after 4 t) = _
  rw [after_4]
  funext y
  obtain ⟨u, k, q, rfl⟩ : ∃ (u : Fin 1) (k : Fin 128) (q : Fin 6144), y = ix3 u k q := ⟨y 0, y 1, y 2, eq_ix3 y⟩
  have hemb : ((cfg0.win 4).blk t).view.emb (ix3 u k q) = ix3 (⟨t.val / 16, by omega⟩ : Fin 2) k q := by
    funext a; apply Fin.ext
    match a with
    | ⟨0, _⟩ => show win0_4.index t (0 : Fin 3) * 1 + 1 * u.val = t.val / 16; have := u.isLt; omega
    | ⟨1, _⟩ => show win0_4.index t (1 : Fin 3) * 128 + 1 * k.val = k.val; omega
    | ⟨2, _⟩ => show win0_4.index t (2 : Fin 3) * 6144 + 1 * q.val = q.val; omega
  show (heldAt m c t.val t.isLt).1 (ix3 u k q) = P4fn m c (((cfg0.win 4).blk t).view.emb (ix3 u k q))
  rw [hemb, o4_last m c t hl u k q, z_held m c k q t.val t.isLt]
  show _ = ∑ i : Fin 16, zTermN m c k q (16 * (t.val / 16) + i.val)
  rw [← sweepSum_last]
  congr 1; omega

theorem flushed5_eq (t : Fin cfg0.N) (hfl : (cfg0.win 5).flush t = true) :
    (dats m 0 c).flushed 5 t = ((cfg0.win 5).blk t).view.read (Elt Ideal) (P5fn m c) := by
  have h15 : t.val % 16 = 15 := (flush0_5 t).mp hfl
  have hN : t.val < 32 := lt_of_lt_of_eq t.isLt (show cfg0.N = 32 from N_0)
  have hl : atLast (grid0.coords t) := (atLast_iff t).mpr h15
  obtain ⟨e0, e1, e2⟩ := idx5 t
  show (cfg0.win 5).cut (grid0.coords t) ((dats m 0 c).after 5 t) = _
  rw [after_5]
  funext y
  obtain ⟨u, u', q, rfl⟩ : ∃ (u : Fin 1) (u' : Fin 1) (q : Fin 6144), y = ix3 u u' q := ⟨y 0, y 1, y 2, eq_ix3 y⟩
  have hemb : ((cfg0.win 5).blk t).view.emb (ix3 u u' q) = ix3 (⟨t.val / 16, by omega⟩ : Fin 2) u' q := by
    funext a; apply Fin.ext
    match a with
    | ⟨0, _⟩ => show win0_5.index t (0 : Fin 3) * 1 + 1 * u.val = t.val / 16; have := u.isLt; omega
    | ⟨1, _⟩ => show win0_5.index t (1 : Fin 3) * 1 + 1 * u'.val = u'.val; omega
    | ⟨2, _⟩ => show win0_5.index t (2 : Fin 3) * 6144 + 1 * q.val = q.val; omega
  show (heldAt m c t.val t.isLt).2.1 (ix3 u u' q) = P5fn m c (((cfg0.win 5).blk t).view.emb (ix3 u u' q))
  rw [hemb, o5_last m c t hl u u' q, g_held m c u' q t.val t.isLt]
  show _ = ∑ i : Fin 16, gTermN m c q (16 * (t.val / 16) + i.val)
  rw [← sweepSum_last]
  congr 1; omega

/-- An index of the first array is in a position's block iff each coordinate is in the block's range on its axis. -/
theorem mem_blk4 (t : Fin cfg0.N) (i : S2x128x6144.Idx) :
    i ∈ ((cfg0.win 4).blk t).view.set ↔ ∀ a : Fin 3, win0_4.index t a * S1x128x6144.size a ≤ (i a).val ∧ (i a).val < win0_4.index t a * S1x128x6144.size a + S1x128x6144.size a := by
  show i ∈ ((View.whole main_v6_0).slice (win0_4.rect t)).set ↔ _
  rw [View.set_slice_whole, Rect.mem_set_unit]
  exact Iff.rfl
theorem mem_blk5 (t : Fin cfg0.N) (i : S2x1x6144.Idx) :
    i ∈ ((cfg0.win 5).blk t).view.set ↔ ∀ a : Fin 3, win0_5.index t a * S1x1x6144.size a ≤ (i a).val ∧ (i a).val < win0_5.index t a * S1x1x6144.size a + S1x1x6144.size a := by
  show i ∈ ((View.whole main_v6_1).slice (win0_5.rect t)).set ↔ _
  rw [View.set_slice_whole, Rect.mem_set_unit]
  exact Iff.rfl

/-- Every index of the first array is in the block some sweep's last position writes back. -/
theorem cover4 (i : S2x128x6144.Idx) : ∃ t : Fin cfg0.N, (cfg0.win 4).flush t = true ∧ i ∈ ((cfg0.win 4).blk t).view.set := by
  have h0 : (i 0).val < 2 := (i 0).isLt
  have h1 : (i 1).val < 128 := (i 1).isLt
  have h2 : (i 2).val < 6144 := (i 2).isLt
  have hN : cfg0.N = 32 := N_0
  have hN' : grid0.N = 32 := N_0
  refine ⟨⟨16 * (i 0).val + 15, by omega⟩, (flush0_4 _).mpr (by show (16 * (i 0).val + 15) % 16 = 15; omega), ?_⟩
  rw [mem_blk4]
  obtain ⟨e0, e1, e2⟩ := idx4 ⟨16 * (i 0).val + 15, by omega⟩
  have e0' : win0_4.index ⟨16 * (i 0).val + 15, by omega⟩ (0 : Fin 3) = (i 0).val := by rw [e0]; show (16 * (i 0).val + 15) / 16 = _; omega
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 128 ≤ (i 1).val ∧ (i 1).val < win0_4.index _ (1 : Fin 3) * 128 + 128; omega
  | ⟨2, _⟩ => show win0_4.index _ (2 : Fin 3) * 6144 ≤ (i 2).val ∧ (i 2).val < win0_4.index _ (2 : Fin 3) * 6144 + 6144; omega

theorem cover5 (i : S2x1x6144.Idx) : ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 6144 := (i 2).isLt
  have hN : cfg0.N = 32 := N_0
  have hN' : grid0.N = 32 := N_0
  refine ⟨⟨16 * (i 0).val + 15, by omega⟩, (flush0_5 _).mpr (by show (16 * (i 0).val + 15) % 16 = 15; omega), ?_⟩
  rw [mem_blk5]
  obtain ⟨e0, e1, e2⟩ := idx5 ⟨16 * (i 0).val + 15, by omega⟩
  have e0' : win0_5.index ⟨16 * (i 0).val + 15, by omega⟩ (0 : Fin 3) = (i 0).val := by rw [e0]; show (16 * (i 0).val + 15) / 16 = _; omega
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 1 ≤ (i 1).val ∧ (i 1).val < win0_5.index _ (1 : Fin 3) * 1 + 1; omega
  | ⟨2, _⟩ => show win0_5.index _ (2 : Fin 3) * 6144 ≤ (i 2).val ∧ (i 2).val < win0_5.index _ (2 : Fin 3) * 6144 + 6144; omega

/-- The two arrays after the run. -/
theorem final4 : (dats m 0 c).arrAt 4 cfg0.N = P4fn m c :=
  (dats m 0 c).arrAt_eq_of_cover 4 (P4fn m c) (fun t ht => flushed4_eq m c t ht) (cover4)
theorem final5 : (dats m 0 c).arrAt 5 cfg0.N = P5fn m c :=
  (dats m 0 c).arrAt_eq_of_cover 5 (P5fn m c) (fun t ht => flushed5_eq m c t ht) (cover5)

end Cert.KernelIdeal.Accum

end
-- ==== Proof.StagesKI.lean ====
/-
  The kernel program's host operations as functions of what they read, in the order @main applies them.

  Before the region: `mbph = mean_beta * p_hat^T` (6144 x 128) and `inter`, the column means of `mean_z` as a
  1 x 128 row (the column sums divided by 16384). After the region, from the two partial-sum arrays the region writes
  (`P4`: 2 x 128 x 6144, one slab per core, and `P5`: 2 x 1 x 6144): their sums over the two cores `zkg` and `gsq`;
  `var_beta = 1 / (tau_beta[k] + gsq[m])`; `mean_beta_new = (zkg + mbph^T * gsq[m]) * var_beta`; and `finish`, everything
  after these two: the logit of `p`, the sigmoid of `logit p + (1/2) mean_beta_new^2 / var_beta`, its clipping to
  [1e-8, 1], and the stacking of the three 128 x 6144 results. The reference ends with the very same `finish` of its
  own `mean_beta_new` and `var_beta`, so `finish` is never opened.
-/
import proofs.«139444_j26594437497073_2_alg».proof.KernelIdeal
import Idealize.ShloMosaic.PureOps

noncomputable section

namespace Cert.KernelIdeal.Stages

open Cert.KernelIdeal Idealize.ShloMosaic Idealize.SL.Sem

variable {F : FTy → Type} [FloatOps F] [Facts]
open Facts₀ Facts

/-- `mean_beta * p_hat^T`. -/
def mbph (x2 : (⟨S6144x128, .f32⟩ : BufTy).Contents (Elt F)) (x3 : (⟨S128x6144, .f32⟩ : BufTy).Contents (Elt F)) : (⟨S6144x128, .f32⟩ : BufTy).Contents (Elt F) :=
  mulf x2 (transpose S6144x128 [1, 0] x3 transposes_S128x6144_S6144x128_1_0)

/-- The column means of `mean_z`, as a row. -/
def inter (x1 : (⟨S16384x128, .f32⟩ : BufTy).Contents (Elt F)) : (⟨S1x128, .f32⟩ : BufTy).Contents (Elt F) :=
  Host.divf (broadcastInDim S1x128 ![1] bcast_S128_S1x128_1 (Host.reduceAdd x1 (constant S_ .f32 0x00000000#32) reducesTo_S16384x128_S128_d0 h_S_))
    (broadcastInDim S1x128 ![] bcast_S_S1x128 (constant S_ .f32 0x46800000#32))

/-- The two cores' partial sums of residual^T G, added. -/
def zkg (P4 : (⟨S2x128x6144, .f32⟩ : BufTy).Contents (Elt F)) : (⟨S128x6144, .f32⟩ : BufTy).Contents (Elt F) :=
  Host.reduceAdd P4 (constant S_ .f32 0x00000000#32) reducesTo_S2x128x6144_S128x6144_d0 h_S_

/-- The two cores' partial column sums of G^2, added. -/
def gsq (P5 : (⟨S2x1x6144, .f32⟩ : BufTy).Contents (Elt F)) : (⟨S1x6144, .f32⟩ : BufTy).Contents (Elt F) :=
  Host.reduceAdd P5 (constant S_ .f32 0x00000000#32) reducesTo_S2x1x6144_S1x6144_d0 h_S_

/-- `gsq` repeated down the 128 rows. -/
def gsqRows (P5 : (⟨S2x1x6144, .f32⟩ : BufTy).Contents (Elt F)) : (⟨S128x6144, .f32⟩ : BufTy).Contents (Elt F) :=
  broadcastInDim S128x6144 ![0, 1] bcast_S1x6144_S128x6144_0_1 (gsq P5)

/-- `tau_beta` repeated along the 6144 columns. -/
def tauCols (x4 : (⟨S128, .f32⟩ : BufTy).Contents (Elt F)) : (⟨S128x6144, .f32⟩ : BufTy).Contents (Elt F) :=
  broadcastInDim S128x6144 ![0, 1] bcast_S128x1_S128x6144_0_1 (shapeCast S128x1 x4 shapeCasts_S128_S128x1)

/-- `var_beta`. -/
def varBeta (P5 : (⟨S2x1x6144, .f32⟩ : BufTy).Contents (Elt F)) (x4 : (⟨S128, .f32⟩ : BufTy).Contents (Elt F)) : (⟨S128x6144, .f32⟩ : BufTy).Contents (Elt F) :=
  Host.divf (broadcastInDim S128x6144 ![] bcast_S_S128x6144 (constant S_ .f32 0x3F800000#32)) (addf (tauCols x4) (gsqRows P5))

/-- `mean_beta_new`. -/
def meanBeta (P4 : (⟨S2x128x6144, .f32⟩ : BufTy).Contents (Elt F)) (P5 : (⟨S2x1x6144, .f32⟩ : BufTy).Contents (Elt F)) (mb : (⟨S6144x128, .f32⟩ : BufTy).Contents (Elt F)) (x4 : (⟨S128, .f32⟩ : BufTy).Contents (Elt F)) : (⟨S128x6144, .f32⟩ : BufTy).Contents (Elt F) :=
  mulf (addf (zkg P4) (mulf (transpose S128x6144 [1, 0] mb transposes_S6144x128_S128x6144_1_0) (gsqRows P5))) (varBeta P5 x4)

/-- Everything after `mean_beta_new` (`mbn`) and `var_beta` (`vb`): the clipped sigmoid and the stack of the three. -/
def finish (mbn vb : (⟨S128x6144, .f32⟩ : BufTy).Contents (Elt F)) (p : (⟨S128x1, .f32⟩ : BufTy).Contents (Elt F)) : (⟨S3x128x6144, .f32⟩ : BufTy).Contents (Elt F) :=
  concatenate S3x128x6144 0
    [⟨S1x128x6144, broadcastInDim S1x128x6144 ![1, 2] bcast_S128x6144_S1x128x6144_1_2 mbn⟩,
     ⟨S1x128x6144, broadcastInDim S1x128x6144 ![1, 2] bcast_S128x6144_S1x128x6144_1_2 vb⟩,
     ⟨S1x128x6144, broadcastInDim S1x128x6144 ![1, 2] bcast_S128x6144_S1x128x6144_1_2
        (minimumf (broadcastInDim S128x6144 ![] bcast_S_S128x6144 (id (constant S_ .f32 0x3F800000#32)))
          (maximumf (broadcastInDim S128x6144 ![] bcast_S_S128x6144 (id (constant S_ .f32 0x322BCC77#32)))
            (Host.divf (broadcastInDim S128x6144 ![] bcast_S_S128x6144 (constant S_ .f32 0x3F800000#32))
              (addf (broadcastInDim S128x6144 ![] bcast_S_S128x6144 (constant S_ .f32 0x3F800000#32))
                (Host.exp (Host.negf
                  (addf
                    (broadcastInDim S128x6144 ![0, 1] bcast_S128x1_S128x6144_0_1
                      (Host.log (Host.divf p (subf (broadcastInDim S128x1 ![] bcast_S_S128x1 (constant S_ .f32 0x3F800000#32)) p))))
                    (Host.divf (mulf (broadcastInDim S128x6144 ![] bcast_S_S128x6144 (constant S_ .f32 0x3F000000#32)) (mulf mbn mbn)) vb))))))))⟩]
    concatenates_S1x128x6144_S1x128x6144_S1x128x6144_S3x128x6144_d0

/-- @main's result from the two partial-sum arrays, `mbph`, `tau_beta` and `p`. -/
def result (P4 : (⟨S2x128x6144, .f32⟩ : BufTy).Contents (Elt F)) (P5 : (⟨S2x1x6144, .f32⟩ : BufTy).Contents (Elt F)) (mb : (⟨S6144x128, .f32⟩ : BufTy).Contents (Elt F)) (x4 : (⟨S128, .f32⟩ : BufTy).Contents (Elt F)) (x5 : (⟨S128x1, .f32⟩ : BufTy).Contents (Elt F)) : (⟨S3x128x6144, .f32⟩ : BufTy).Contents (Elt F) :=
  finish (meanBeta P4 P5 mb x4) (varBeta P5 x4) x5

end Cert.KernelIdeal.Stages

end
-- ==== Proof.LibNaryThree.lean ====
/-
  A host operation of exactly THREE operands, given as a literal family of references: what its result buffer holds.

  The library's general statement for an operation over a family `xs` of `n` operands hands its function the family
  `fun k => (contents of xs k)`, under a binder: at a literal family `![x, a, b]` the reference `![x, a, b] k` is then
  no literal, and the contents of the three operands cannot be rewritten further. Stated instead with each operand's
  contents at ITS OWN reference — the family `Fin.cons (F x) (Fin.cons (F a) (Fin.cons (F b) _))` — the rewriting of
  results goes on through the operands; the two families are equal entry by entry.
  (The library has this for a family of four; a concatenation of three arrays needs it for three.)
-/
import Idealize.ShloMosaic.Lib.StableHlo.Run

noncomputable section

namespace Cert.LibNaryThree

open Idealize.ShloMosaic Idealize.ShloMosaic.StableHlo

variable {τ : Topo} {sig : RefSig} {Val : EltTy → Type}

/-- The result of a three-operand operation, at its result buffer: its function of the three operands' contents, each
    read at its own reference. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b))
          (fun i => i.elim0)))) := by
  rw [nary_result]; congr 1; funext k; fin_cases k <;> rfl

/-- What one buffer holds after a line of host operations, computed: each operation's result at its own result buffer
    is its function's value, at any other buffer what was there before; a three-operand operation by `nary3_result`. -/
macro "after_results3" : tactic =>
  `(tactic| (simp only [after_cons, after_nil]
             repeat (first
               | rw [nullary_result] | rw [unary_result] | rw [binary_result] | rw [ternary_result]
               | rw [nary3_result] | rw [nary_result]
               | (rw [nullary_result_ne]; rotate_left; decide)
               | (rw [unary_result_ne]; rotate_left; decide)
               | (rw [binary_result_ne]; rotate_left; decide)
               | (rw [ternary_result_ne]; rotate_left; decide)
               | (rw [nary_result_ne]; rotate_left; decide))))

end Cert.LibNaryThree

end
-- ==== Proof.TailKI.lean ====
/-
  What the host operations around the region compute, as the named stages: the two computed inputs the region is
  entered with (`mean_beta * p_hat^T` and the row of column means of `mean_z`), and @main's result buffer after the
  host operations that follow the region, as `Stages.result` of the two partial-sum arrays the region leaves, the
  first of those inputs, and the arguments `tau_beta` and `p`.
-/
import proofs.«139444_j26594437497073_2_alg».proof.Proof.RegionRunKI
import proofs.«139444_j26594437497073_2_alg».proof.Proof.StagesKI
import proofs.«139444_j26594437497073_2_alg».proof.Proof.LibNaryThree

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg)

/-! ## Before the region -/

/-- The third window's array is entered at `mean_beta * p_hat^T`. -/
theorem entry_mbph (c : Dev nD) :
    entryAt m c main_v1 = Stages.mbph (m ((c : Thread nD τ).loc main_arg2)) (m ((c : Thread nD τ).loc main_arg3)) := by
  dsimp only [entryAt, entryVals]
  simp only [hostOps0, List.flatten_cons, List.flatten_nil, List.append_nil]
  after_results
  rfl

/-- The fourth window's array is entered at the row of column means. -/
theorem entry_inter (c : Dev nD) :
    entryAt m c main_v5 = Stages.inter (m ((c : Thread nD τ).loc main_arg1)) := by
  dsimp only [entryAt, entryVals]
  simp only [hostOps0, List.flatten_cons, List.flatten_nil, List.append_nil]
  after_results
  rfl

/-! ## After the region -/

/-- The result of a three-operand operation at its own result buffer, each operand read at its own reference: the
    form a single rewriting pass over a long line of operations uses. -/
theorem nary3_result' {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (no_index (Proc.devRef .tc y))
      = f (Fin.cons (V (Proc.devRef .tc x)) (Fin.cons (V (Proc.devRef .tc a)) (Fin.cons (V (Proc.devRef .tc b))
          (fun i => i.elim0)))) :=
  Cert.LibNaryThree.nary3_result f hxs hy V

set_option maxHeartbeats 4000000 in
/-- The result buffer after the host operations that follow the region, from any contents `V` of the buffers at the
    region's exit: the named stages of what `V` holds at the two partial-sum arrays, at `mean_beta * p_hat^T`, at
    `tau_beta` and at `p`. -/
theorem tail_of (V : Valuation τ sig (Elt F)) :
    StableHlo.after (tailOps (F := F)).flatten V (Proc.devRef .tc main_v40)
      = Stages.result (V (Proc.devRef .tc main_v6_0)) (V (Proc.devRef .tc main_v6_1)) (V (Proc.devRef .tc main_v1))
          (V (Proc.devRef .tc main_arg4)) (V (Proc.devRef .tc main_arg5)) := by
  simp only [tailOps, hostOps1, hostOps1_1, hostOps1_2, List.flatten_cons, List.flatten_nil, List.append_nil, List.cons_append, List.nil_append]
  simp (disch := decide) only [after_cons, after_nil,
      nullary_result', unary_result', binary_result', reshape_result', nary3_result',
      nullary_result_ne', unary_result_ne', binary_result_ne', reshape_result_ne', nary_result_ne']
  rfl

/-- @main's result after the run. -/
theorem tail_value (c : Dev nD) :
    Pipeline.afterTail₀ cfgs (dats m) 0 (entryVals m) tailOps c main_v40
      = Stages.result ((dats m 0 c).arrAt 4 cfg0.N) ((dats m 0 c).arrAt 5 cfg0.N)
          (Stages.mbph (m ((c : Thread nD τ).loc main_arg2)) (m ((c : Thread nD τ).loc main_arg3)))
          (m ((c : Thread nD τ).loc main_arg4)) (m ((c : Thread nD τ).loc main_arg5)) := by
  unfold Pipeline.afterTail₀
  rw [tail_of]
  have h4 : Pipeline.withArrays spec0 c (entryVals m c) (fun w => (dats m 0 c).arrAt w cfg0.N) (Proc.devRef .tc main_v6_0) = (dats m 0 c).arrAt 4 cfg0.N :=
    Pipeline.withArrays_arr spec0 launch0.win.arr_inj c _ (fun w => (dats m 0 c).arrAt w cfg0.N) 4
  have h5 : Pipeline.withArrays spec0 c (entryVals m c) (fun w => (dats m 0 c).arrAt w cfg0.N) (Proc.devRef .tc main_v6_1) = (dats m 0 c).arrAt 5 cfg0.N :=
    Pipeline.withArrays_arr spec0 launch0.win.arr_inj c _ (fun w => (dats m 0 c).arrAt w cfg0.N) 5
  have h2 : Pipeline.withArrays spec0 c (entryVals m c) (fun w => (dats m 0 c).arrAt w cfg0.N) (Proc.devRef .tc main_v1) = (dats m 0 c).arrAt 2 cfg0.N :=
    Pipeline.withArrays_arr spec0 launch0.win.arr_inj c _ (fun w => (dats m 0 c).arrAt w cfg0.N) 2
  have ha4 := Pipeline.withArrays_of_ne spec0 c (entryVals m c) (fun w => (dats m 0 c).arrAt w cfg0.N) main_arg4 (by decide)
  have ha5 := Pipeline.withArrays_of_ne spec0 c (entryVals m c) (fun w => (dats m 0 c).arrAt w cfg0.N) main_arg5 (by decide)
  rw [h4, h5, h2, ha4, ha5]
  rw [(dats m 0 c).arrAt_in 2 rfl _, A_eq m c 2]
  have e4 : entryVals m c (Proc.devRef .tc main_arg4) = m ((c : Thread nD τ).loc main_arg4) := entry_kept m c main_arg4 (by decide)
  have e5 : entryVals m c (Proc.devRef .tc main_arg5) = m ((c : Thread nD τ).loc main_arg5) := entry_kept m c main_arg5 (by decide)
  rw [e4, e5]
  exact congrArg (fun mb => Stages.result _ _ mb _ _) (entry_mbph m c)

end Cert.KernelIdeal.Around

end
-- ==== Proof.StagesReadKI.lean ====
/-
  The kernel program's host stages read at an index, at the ideal instance.

    zkg P [k, q]       = 0 + P[0, k, q] + P[1, k, q]            (the sum over the two cores' slabs)
    gsq P [0, q]       = 0 + P[0, 0, q] + P[1, 0, q]
    gsqRows P [k, q]   = gsq P [0, q],   tauCols tau [k, q] = tau[k]
    varBeta P tau      = 1 / (tau[k] + gsq P [0, q])
    meanBeta ... [k,q] = (zkg P4 [k, q] + B[q, k] * gsq P5 [0, q]) * varBeta P5 tau [k, q]
    inter Z [0, k]     = (0 + sum_n Z[n, k]) / 16384
-/
import proofs.«139444_j26594437497073_2_alg».proof.Proof.StagesKI
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Stages

open Cert.KernelIdeal Idealize.ShloMosaic Idealize.ShloMosaic.ValueIdx Idealize.SL.Sem

variable [Facts]
open Facts₀ Facts

theorem zkg_apply (P : (⟨S2x128x6144, .f32⟩ : BufTy).Contents (Elt Ideal)) (k : Fin 128) (q : Fin 6144) :
    zkg (F := Ideal) P (ix2 k q) = 0 + ∑ a : Fin 2, P (ix3 a k q) := by
  unfold zkg
  simp only [Host.reduceAdd, Ideal.hostReduceAdd_def]
  rw [Ideal.hostReduceAdd_single reducesTo_S2x128x6144_S128x6144_d0 (by decide)]
  refine congrArg₂ (· + ·) Ideal.ofBits_zero_f32 (Finset.sum_congr rfl fun a _ => ?_)
  exact congrArg P (funext fun b => Fin.ext (by match b with | ⟨0, _⟩ => rfl | ⟨1, _⟩ => rfl | ⟨2, _⟩ => rfl))

theorem gsq_apply (P : (⟨S2x1x6144, .f32⟩ : BufTy).Contents (Elt Ideal)) (u : Fin 1) (q : Fin 6144) :
    gsq (F := Ideal) P (ix2 u q) = 0 + ∑ a : Fin 2, P (ix3 a u q) := by
  unfold gsq
  simp only [Host.reduceAdd, Ideal.hostReduceAdd_def]
  rw [Ideal.hostReduceAdd_single reducesTo_S2x1x6144_S1x6144_d0 (by decide)]
  refine congrArg₂ (· + ·) Ideal.ofBits_zero_f32 (Finset.sum_congr rfl fun a _ => ?_)
  exact congrArg P (funext fun b => Fin.ext (by match b with | ⟨0, _⟩ => rfl | ⟨1, _⟩ => rfl | ⟨2, _⟩ => rfl))

theorem gsqRows_apply (P : (⟨S2x1x6144, .f32⟩ : BufTy).Contents (Elt Ideal)) (k : Fin 128) (q : Fin 6144) :
    gsqRows (F := Ideal) P (ix2 k q) = gsq (F := Ideal) P (ix2 (0 : Fin 1) q) := by
  unfold gsqRows
  generalize gsq (F := Ideal) P = y
  exact broadcastInDim_apply _ bcast_S1x6144_S128x6144_0_1 y (ix2 k q) (ix2 (0 : Fin 1) q) (fun a => match a with
    | ⟨0, _⟩ => by show 0 = if (1 : Nat) = 1 then 0 else k.val; rw [if_pos rfl]
    | ⟨1, _⟩ => by show q.val = if (6144 : Nat) = 1 then 0 else q.val; rw [if_neg (by decide)])

theorem tauCols_apply (x4 : (⟨S128, .f32⟩ : BufTy).Contents (Elt Ideal)) (k : Fin 128) (q : Fin 6144) :
    tauCols (F := Ideal) x4 (ix2 k q) = x4 (ix1 k) := by
  unfold tauCols
  refine (broadcastInDim_apply _ bcast_S128x1_S128x6144_0_1 _ (ix2 k q) (ix2 k (0 : Fin 1)) (fun a => match a with
    | ⟨0, _⟩ => by show k.val = if (128 : Nat) = 1 then 0 else k.val; rw [if_neg (by decide)]
    | ⟨1, _⟩ => by show 0 = if (1 : Nat) = 1 then 0 else q.val; rw [if_pos rfl])).trans ?_
  exact shapeCast_apply x4 shapeCasts_S128_S128x1 (ix2 k (0 : Fin 1)) (ix1 k) (by
    rw [Shape.rowMajor_val_one, Shape.rowMajor_val_two]; show k.val = k.val * 1 + 0; omega)

theorem one_apply (j : S128x6144.Idx) :
    broadcastInDim (α := Elt Ideal .f32) S128x6144 ![] bcast_S_S128x6144 (constant (F := Ideal) S_ .f32 0x3F800000#32) j
      = Ideal.ofBits .f32 0x3F800000#32 :=
  broadcastInDim_apply _ bcast_S_S128x6144 _ j (fun a => a.elim0) (fun a => a.elim0)

theorem varBeta_apply (P5 : (⟨S2x1x6144, .f32⟩ : BufTy).Contents (Elt Ideal)) (x4 : (⟨S128, .f32⟩ : BufTy).Contents (Elt Ideal)) (k : Fin 128) (q : Fin 6144) :
    varBeta (F := Ideal) P5 x4 (ix2 k q)
      = FloatOps.hostDivf (Ideal.ofBits .f32 0x3F800000#32) (x4 (ix1 k) + gsq (F := Ideal) P5 (ix2 (0 : Fin 1) q)) := by
  unfold varBeta
  show FloatOps.hostDivf (broadcastInDim S128x6144 ![] bcast_S_S128x6144 (constant (F := Ideal) S_ .f32 0x3F800000#32) (ix2 k q))
      (tauCols (F := Ideal) x4 (ix2 k q) + gsqRows (F := Ideal) P5 (ix2 k q)) = _
  rw [one_apply, tauCols_apply, gsqRows_apply]

theorem meanBeta_apply (P4 : (⟨S2x128x6144, .f32⟩ : BufTy).Contents (Elt Ideal)) (P5 : (⟨S2x1x6144, .f32⟩ : BufTy).Contents (Elt Ideal)) (mb : (⟨S6144x128, .f32⟩ : BufTy).Contents (Elt Ideal)) (x4 : (⟨S128, .f32⟩ : BufTy).Contents (Elt Ideal))
    (k : Fin 128) (q : Fin 6144) :
    meanBeta (F := Ideal) P4 P5 mb x4 (ix2 k q)
      = (zkg (F := Ideal) P4 (ix2 k q) + mb (ix2 q k) * gsq (F := Ideal) P5 (ix2 (0 : Fin 1) q)) * varBeta (F := Ideal) P5 x4 (ix2 k q) := by
  unfold meanBeta
  show (zkg (F := Ideal) P4 (ix2 k q) + transpose S128x6144 [1, 0] mb transposes_S6144x128_S128x6144_1_0 (ix2 k q) * gsqRows (F := Ideal) P5 (ix2 k q))
      * varBeta (F := Ideal) P5 x4 (ix2 k q) = _
  rw [gsqRows_apply, transpose_ix2_apply mb transposes_S6144x128_S128x6144_1_0 k q]

theorem inter_apply (x1 : (⟨S16384x128, .f32⟩ : BufTy).Contents (Elt Ideal)) (u : Fin 1) (k : Fin 128) :
    inter (F := Ideal) x1 (ix2 u k)
      = FloatOps.hostDivf (0 + ∑ n : Fin 16384, x1 (ix2 n k)) (Ideal.ofBits .f32 0x46800000#32) := by
  unfold inter
  show FloatOps.hostDivf
      (broadcastInDim S1x128 ![1] bcast_S128_S1x128_1 (Host.reduceAdd x1 (constant (F := Ideal) S_ .f32 0x00000000#32) reducesTo_S16384x128_S128_d0 h_S_) (ix2 u k))
      (broadcastInDim S1x128 ![] bcast_S_S1x128 (constant (F := Ideal) S_ .f32 0x46800000#32) (ix2 u k)) = _
  refine congrArg₂ FloatOps.hostDivf ?_ ?_
  · refine (broadcastInDim_apply _ bcast_S128_S1x128_1 _ (ix2 u k) (ix1 k) (fun a => match a with
      | ⟨0, _⟩ => by show k.val = if (128 : Nat) = 1 then 0 else k.val; rw [if_neg (by decide)])).trans ?_
    simp only [Host.reduceAdd, Ideal.hostReduceAdd_def]
    rw [Ideal.hostReduceAdd_single reducesTo_S16384x128_S128_d0 (by decide)]
    refine congrArg₂ (· + ·) Ideal.ofBits_zero_f32 (Finset.sum_congr rfl fun n _ => ?_)
    exact congrArg x1 (funext fun b => Fin.ext (by match b with | ⟨0, _⟩ => rfl | ⟨1, _⟩ => rfl))
  · exact broadcastInDim_apply _ bcast_S_S1x128 _ (ix2 u k) (fun a => a.elim0) (fun a => a.elim0)

end Cert.KernelIdeal.Stages

end
-- ==== Proof.BlocksKI.lean ====
/-
  The accumulated sums in terms of the ARGUMENT ARRAYS, at the ideal instance.

  The block of the guide matrix (and of `mean_z`) the body is handed at grid position `t` is rows `512 t ... 512 t + 511`
  of its array (block index (t, 0)); the two resident operands' block is their whole array. So one step's terms are
  sums over the stripe's rows of a per-row term of the arrays, the sixteen steps of a sweep and the two sweeps together
  run over all 16384 rows, and the sums of the two cores' slabs are single sums over the rows:

      zkg [k, q] = sum_n ((Z[n, k] - sum_j G[n, j] * B[j, k]) - c[0, k]) * G[n, q]
      gsq [0, q] = sum_n G[n, q] * G[n, q]
-/
import proofs.«139444_j26594437497073_2_alg».proof.Proof.ArraysKI
import proofs.«139444_j26594437497073_2_alg».proof.Proof.TailKI
import proofs.«139444_j26594437497073_2_alg».proof.Proof.StagesReadKI

set_option maxRecDepth 16384

noncomputable section

namespace Cert.KernelIdeal.Accum

open Cert.KernelIdeal Cert.KernelIdeal.Gen Cert.KernelIdeal.Around Cert.KernelIdeal.Payload Cert.SumSpec
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (c : Dev nD)

/-- The guide matrix and `mean_z` as launched, and the two computed operands as the region is entered. -/
abbrev X0 : FVec Ideal S16384x6144 .f32 := m ((c : Thread nD τ).loc main_arg0)
abbrev X1 : FVec Ideal S16384x128 .f32 := m ((c : Thread nD τ).loc main_arg1)
abbrev MB : FVec Ideal S6144x128 .f32 := entryAt m c main_v1
abbrev CM : FVec Ideal S1x128 .f32 := entryAt m c main_v5

/-- One row's term of the (128, 6144) sum, and of the column sums of squares. -/
def rowTerm (k : Fin 128) (q : Fin 6144) (n : Fin 16384) : EReal :=
  ((X1 m c (ix2 n k) - ∑ j : Fin 6144, X0 m c (ix2 n j) * MB m c (ix2 j k)) - CM m c (ix2 (0 : Fin 1) k)) * X0 m c (ix2 n q)
def sqTerm (q : Fin 6144) (n : Fin 16384) : EReal := X0 m c (ix2 n q) * X0 m c (ix2 n q)

/-- The inputs' block indices, decided over the grid. -/
theorem idxIn : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0)

theorem row_lt (t : Fin cfg0.N) (r : Fin 512) : t.val * 512 + r.val < 16384 := by
  have hN : t.val < 32 := lt_of_lt_of_eq t.isLt (show cfg0.N = 32 from N_0)
  have := r.isLt; omega

/-- The blocks read at an index. -/
theorem Gb_apply (t : Fin cfg0.N) (r : Fin 512) (j : Fin 6144) :
    Gb m c t (ix2 r j) = X0 m c (ix2 (⟨t.val * 512 + r.val, row_lt t r⟩ : Fin 16384) j) := by
  obtain ⟨e0, e1, -⟩ := idxIn t
  show entryAt m c (Pipeline.arrRef spec0 0) (((cfg0.win 0).blk t).view.emb (ix2 r j)) = _
  rw [show entryAt m c (Pipeline.arrRef spec0 0) = m ((c : Thread nD τ).loc main_arg0) from entry_kept m c main_arg0 (by decide)]
  refine congrArg (m ((c : Thread nD τ).loc main_arg0)) (funext fun a => Fin.ext ?_)
  match a with
  | ⟨0, _⟩ => show win0_0.index t (0 : Fin 2) * 512 + 1 * r.val = t.val * 512 + r.val; omega
  | ⟨1, _⟩ => show win0_0.index t (1 : Fin 2) * 6144 + 1 * j.val = j.val; omega

theorem Zb_apply (t : Fin cfg0.N) (r : Fin 512) (k : Fin 128) :
    Zb m c t (ix2 r k) = X1 m c (ix2 (⟨t.val * 512 + r.val, row_lt t r⟩ : Fin 16384) k) := by
  obtain ⟨-, -, e0, e1, -⟩ := idxIn t
  show entryAt m c (Pipeline.arrRef spec0 1) (((cfg0.win 1).blk t).view.emb (ix2 r k)) = _
  rw [show entryAt m c (Pipeline.arrRef spec0 1) = m ((c : Thread nD τ).loc main_arg1) from entry_kept m c main_arg1 (by decide)]
  refine congrArg (m ((c : Thread nD τ).loc main_arg1)) (funext fun a => Fin.ext ?_)
  match a with
  | ⟨0, _⟩ => show win0_1.index t (0 : Fin 2) * 512 + 1 * r.val = t.val * 512 + r.val; omega
  | ⟨1, _⟩ => show win0_1.index t (1 : Fin 2) * 128 + 1 * k.val = k.val; omega

theorem Bb_apply (t : Fin cfg0.N) (j : Fin 6144) (k : Fin 128) : Bb m c t (ix2 j k) = MB m c (ix2 j k) := by
  obtain ⟨-, -, -, -, e0, e1, -⟩ := idxIn t
  show entryAt m c (Pipeline.arrRef spec0 2) (((cfg0.win 2).blk t).view.emb (ix2 j k)) = _
  refine congrArg (entryAt m c main_v1) (funext fun a => Fin.ext ?_)
  match a with
  | ⟨0, _⟩ => show win0_2.index t (0 : Fin 2) * 6144 + 1 * j.val = j.val; omega
  | ⟨1, _⟩ => show win0_2.index t (1 : Fin 2) * 128 + 1 * k.val = k.val; omega

theorem Cb_apply (t : Fin cfg0.N) (u : Fin 1) (k : Fin 128) : Cb m c t (ix2 u k) = CM m c (ix2 u k) := by
  obtain ⟨-, -, -, -, -, -, e0, e1⟩ := idxIn t
  show entryAt m c (Pipeline.arrRef spec0 3) (((cfg0.win 3).blk t).view.emb (ix2 u k)) = _
  refine congrArg (entryAt m c main_v5) (funext fun a => Fin.ext ?_)
  match a with
  | ⟨0, _⟩ => show win0_3.index t (0 : Fin 2) * 1 + 1 * u.val = u.val; omega
  | ⟨1, _⟩ => show win0_3.index t (1 : Fin 2) * 128 + 1 * k.val = k.val; omega

/-- One step's terms as sums over the stripe's rows. -/
theorem zTerm_rows (t : Fin cfg0.N) (k : Fin 128) (q : Fin 6144) :
    zTerm m c t k q = ∑ r : Fin 512, rowTerm m c k q ⟨t.val * 512 + r.val, row_lt t r⟩ := by
  unfold zTerm rowTerm
  refine Finset.sum_congr rfl fun r _ => ?_
  rw [Zb_apply, Cb_apply, Gb_apply m c t r q]
  refine congrArg (fun s => ((_ - s) - _) * _) (Finset.sum_congr rfl fun j _ => ?_)
  rw [Gb_apply, Bb_apply]

theorem gTerm_rows (t : Fin cfg0.N) (q : Fin 6144) :
    gTerm m c t q = ∑ r : Fin 512, sqTerm m c q ⟨t.val * 512 + r.val, row_lt t r⟩ := by
  unfold gTerm sqTerm
  refine Finset.sum_congr rfl fun r _ => ?_
  rw [Gb_apply]

/-- The two cores' slabs added: single sums over all the rows. -/
theorem zkg_rows (k : Fin 128) (q : Fin 6144) :
    Stages.zkg (F := Ideal) (P4fn m c) (ix2 k q) = ∑ n : Fin 16384, rowTerm m c k q n := by
  have hN : cfg0.N = 32 := N_0
  rw [Stages.zkg_apply, zero_add, sum_rows (rowTerm m c k q)]
  refine Finset.sum_congr rfl fun a _ => ?_
  show ∑ i : Fin 16, zTermN m c k q (16 * a.val + i.val) = _
  refine Finset.sum_congr rfl fun i _ => ?_
  have hlt : 16 * a.val + i.val < cfg0.N := by have := a.isLt; have := i.isLt; omega
  rw [zTermN_of m c k q ⟨16 * a.val + i.val, hlt⟩, zTerm_rows]

theorem gsq_rows (u : Fin 1) (q : Fin 6144) :
    Stages.gsq (F := Ideal) (P5fn m c) (ix2 u q) = ∑ n : Fin 16384, sqTerm m c q n := by
  have hN : cfg0.N = 32 := N_0
  rw [Stages.gsq_apply, zero_add, sum_rows (sqTerm m c q)]
  refine Finset.sum_congr rfl fun a _ => ?_
  show ∑ i : Fin 16, gTermN m c q (16 * a.val + i.val) = _
  refine Finset.sum_congr rfl fun i _ => ?_
  have hlt : 16 * a.val + i.val < cfg0.N := by have := a.isLt; have := i.isLt; omega
  rw [gTermN_of m c q ⟨16 * a.val + i.val, hlt⟩, gTerm_rows]

end Cert.KernelIdeal.Accum

end
-- ==== Proof.BridgeKI.lean ====
/-
  The kernel's result and the reference's are one function of the argument arrays, at the ideal instance.

  The reference computes, over all 16384 rows at once,
      gsq[q]    = 0 + sum_n G[n, q] * G[n, q]
      ZkG[k, q] = sum_n ((Z[n, k] - sum_j G[n, j] * B[j, k]) - mean_k) * G[n, q],   mean_k = (0 + sum_n Z[n, k]) / 16384
  with `B = mean_beta * p_hat^T`; these are the sums the kernel's two cores accumulate stripe by stripe (addition on the
  extended reals is commutative and associative, and `0 + x = x`: no finiteness is used). From there both programs
  form `var_beta = 1 / (tau[k] + gsq[q])` and `mean_beta_new = (ZkG[k, q] + B[q, k] * gsq[q]) * var_beta` — the kernel
  multiplies `B^T` by the row of `gsq`, the reference transposes `B` times the column of `gsq`: the same product entry by
  entry — and end with the same operations of these two and `p`.
-/
import proofs.«139444_j26594437497073_2_alg».proof.Proof.BlocksKI
import proofs.«139444_j26594437497073_2_alg».proof.Proof.Gen.ReferenceIdeal.Read

set_option maxRecDepth 16384

noncomputable section

namespace Cert.Bridge

open Cert.KernelIdeal
open Idealize.ShloMosaic Idealize.ShloMosaic.ValueIdx Idealize.ShloMosaic.TcCoe Idealize.SL.Sem
open Cert.ReferenceIdeal.Read (val_main_v0 val_main_v0_apply val_main_cst val_main_cst_apply val_main_v1 val_main_v1_apply idx_main_v1 val_main_v3 val_main_v3_apply val_main_v2 val_main_v2_apply idx_main_v2 val_main_v4 val_main_v4_apply lidx_main_v4 ridx_main_v4 val_main_cst_0 val_main_cst_0_apply val_main_v5 val_main_v5_apply idx_main_v5 val_main_cst_1 val_main_cst_1_apply val_main_v6 val_main_v6_apply idx_main_v6 val_main_v7 val_main_v7_apply val_main_v8 val_main_v8_apply idx_main_v8 val_main_v9 val_main_v9_apply idx_main_v9 val_main_v10 val_main_v10_apply val_main_v11 val_main_v11_apply val_main_v12 val_main_v12_apply idx_main_v12 val_main_v13 val_main_v13_apply idx_main_v13 val_main_v14 val_main_v14_apply val_main_v15 val_main_v15_apply idx_main_v15 val_main_v16 val_main_v16_apply lidx_main_v16 ridx_main_v16 val_main_v17 val_main_v17_apply idx_main_v17 val_main_v18 val_main_v18_apply val_main_v19 val_main_v19_apply idx_main_v19 val_main_v20 val_main_v20_apply idx_main_v20 val_main_v21 val_main_v21_apply idx_main_v21 val_main_v22 val_main_v22_apply idx_main_v22 val_main_v23 val_main_v23_apply val_main_cst_2 val_main_cst_2_apply val_main_v24 val_main_v24_apply idx_main_v24 val_main_v25 val_main_v25_apply val_main_v26 val_main_v26_apply val_main_v47 val_main_v47_eq)

variable [Cert.KernelIdeal.Facts] [Cert.ReferenceIdeal.Facts]

variable (x0 : (⟨S16384x6144, .f32⟩ : BufTy).Contents (Elt Ideal)) (x1 : (⟨S16384x128, .f32⟩ : BufTy).Contents (Elt Ideal)) (x2 : (⟨S6144x128, .f32⟩ : BufTy).Contents (Elt Ideal)) (x3 : (⟨S128x6144, .f32⟩ : BufTy).Contents (Elt Ideal))
  (x4 : (⟨S128, .f32⟩ : BufTy).Contents (Elt Ideal)) (x5 : (⟨S128x1, .f32⟩ : BufTy).Contents (Elt Ideal))

/-! ## The reference's sums -/

/-- The reference's column sums of squares. -/
theorem ref_gsq (q : Fin 6144) :
    val_main_v1 (F := Ideal) x0 (ix1 q) = ∑ n : Fin 16384, x0 (ix2 n q) * x0 (ix2 n q) := by
  rw [val_main_v1_apply]
  refine (congrArg₂ (· + ·) Ideal.ofBits_zero_f32 (Finset.sum_congr rfl fun n _ => ?_)).trans (zero_add _)
  rw [val_main_v0_apply]
  have e : idx_main_v1 (ix1 q) n = ix2 n q := funext fun a => Fin.ext (by match a with | ⟨0, _⟩ => rfl | ⟨1, _⟩ => rfl)
  rw [e]; rfl

/-- The reference's column means, and the kernel's row of them. -/
theorem ref_mean (k : Fin 128) :
    val_main_v7 (F := Ideal) x1 (ix1 k) = FloatOps.hostDivf (0 + ∑ n : Fin 16384, x1 (ix2 n k)) (Ideal.ofBits .f32 0x46800000#32) := by
  rw [val_main_v7_apply, val_main_v5_apply, val_main_v6_apply]
  refine congrArg₂ FloatOps.hostDivf (congrArg₂ (· + ·) Ideal.ofBits_zero_f32 (Finset.sum_congr rfl fun n _ => ?_)) rfl
  exact congrArg x1 (funext fun a => Fin.ext (by match a with | ⟨0, _⟩ => rfl | ⟨1, _⟩ => rfl))

theorem inter_eq (k : Fin 128) :
    Stages.inter (F := Ideal) x1 (ix2 (0 : Fin 1) k) = val_main_v7 (F := Ideal) x1 (ix1 k) := by
  rw [Stages.inter_apply, ref_mean]

/-- The reference's residual^T G. -/
theorem ref_zkg (k : Fin 128) (q : Fin 6144) :
    val_main_v16 (F := Ideal) x0 x1 x2 x3 (ix2 k q)
      = ∑ n : Fin 16384, ((x1 (ix2 n k) - ∑ j : Fin 6144, x0 (ix2 n j) * val_main_v3 (F := Ideal) x2 x3 (ix2 j k))
          - val_main_v7 (F := Ideal) x1 (ix1 k)) * x0 (ix2 n q) := by
  rw [val_main_v16_apply]
  refine Finset.sum_congr rfl fun n _ => ?_
  have e1 : idx_main_v15 (lidx_main_v16 (ix2 k q) n) = ix2 n k := funext fun a => Fin.ext (by match a with | ⟨0, _⟩ => rfl | ⟨1, _⟩ => rfl)
  have e2 : ridx_main_v16 (ix2 k q) n = ix2 n q := funext fun a => Fin.ext (by match a with | ⟨0, _⟩ => rfl | ⟨1, _⟩ => rfl)
  have e5 : idx_main_v12 (idx_main_v13 (ix2 n k)) = ix1 k := funext fun a => Fin.ext (by match a with | ⟨0, _⟩ => rfl)
  rw [val_main_v15_apply, e1, e2, val_main_v14_apply, val_main_v11_apply, val_main_v13_apply, val_main_v12_apply, e5, val_main_v4_apply]
  refine congrArg (fun s => ((x1 (ix2 n k) - s) - _) * _) (Finset.sum_congr rfl fun j _ => ?_)
  have e3 : lidx_main_v4 (ix2 n k) j = ix2 n j := funext fun a => Fin.ext (by match a with | ⟨0, _⟩ => rfl | ⟨1, _⟩ => rfl)
  have e4 : ridx_main_v4 (ix2 n k) j = ix2 j k := funext fun a => Fin.ext (by match a with | ⟨0, _⟩ => rfl | ⟨1, _⟩ => rfl)
  rw [e3, e4]

/-- `mean_beta * p_hat^T` is the same term in both programs. -/
theorem mbph_eq : Stages.mbph (F := Ideal) x2 x3 = val_main_v3 (F := Ideal) x2 x3 := rfl

/-! ## `var_beta` and `mean_beta_new`, given the kernel's two sums -/

variable (P4 : (⟨S2x128x6144, .f32⟩ : BufTy).Contents (Elt Ideal)) (P5 : (⟨S2x1x6144, .f32⟩ : BufTy).Contents (Elt Ideal))

/-- With the kernel's column sums the reference's, its `var_beta` is the reference's. -/
theorem varBeta_eq (hg : ∀ q : Fin 6144, Stages.gsq (F := Ideal) P5 (ix2 (0 : Fin 1) q) = val_main_v1 (F := Ideal) x0 (ix1 q)) :
    Stages.varBeta (F := Ideal) P5 x4 = val_main_v25 (F := Ideal) x0 x4 := by
  funext j
  obtain ⟨k, q, rfl⟩ : ∃ (k : Fin 128) (q : Fin 6144), j = ix2 k q := ⟨j 0, j 1, eq_ix2 j⟩
  have e1 : idx_main_v19 (idx_main_v21 (ix2 k q)) = ix1 k := funext fun a => Fin.ext (by match a with | ⟨0, _⟩ => rfl)
  have e2 : idx_main_v20 (idx_main_v22 (ix2 k q)) = ix1 q := funext fun a => Fin.ext (by match a with | ⟨0, _⟩ => rfl)
  rw [Stages.varBeta_apply, hg, val_main_v25_apply, val_main_v24_apply, val_main_cst_2_apply, val_main_v23_apply,
    val_main_v21_apply, val_main_v19_apply, e1, val_main_v22_apply, val_main_v20_apply, e2]
  rfl

/-- With both of the kernel's sums the reference's, its `mean_beta_new` is the reference's. -/
theorem meanBeta_eq (hg : ∀ q : Fin 6144, Stages.gsq (F := Ideal) P5 (ix2 (0 : Fin 1) q) = val_main_v1 (F := Ideal) x0 (ix1 q))
    (hz : ∀ (k : Fin 128) (q : Fin 6144), Stages.zkg (F := Ideal) P4 (ix2 k q) = val_main_v16 (F := Ideal) x0 x1 x2 x3 (ix2 k q)) :
    Stages.meanBeta (F := Ideal) P4 P5 (Stages.mbph (F := Ideal) x2 x3) x4 = val_main_v26 (F := Ideal) x0 x1 x2 x3 x4 := by
  funext j
  obtain ⟨k, q, rfl⟩ : ∃ (k : Fin 128) (q : Fin 6144), j = ix2 k q := ⟨j 0, j 1, eq_ix2 j⟩
  have e1 : idx_main_v17 (ix2 k q) = ix2 q k := funext fun a => Fin.ext (by match a with | ⟨0, _⟩ => rfl | ⟨1, _⟩ => rfl)
  have e2 : idx_main_v8 (idx_main_v9 (ix2 q k)) = ix1 q := funext fun a => Fin.ext (by match a with | ⟨0, _⟩ => rfl)
  rw [Stages.meanBeta_apply, hz, hg, varBeta_eq x0 x4 P5 hg, val_main_v26_apply, val_main_v18_apply, val_main_v17_apply, e1,
    val_main_v10_apply, val_main_v9_apply, val_main_v8_apply, e2, mbph_eq]
  rfl

/-- Both programs end with the same operations of `mean_beta_new`, `var_beta` and `p`. -/
theorem ref_finish :
    val_main_v47 (F := Ideal) x0 x1 x2 x3 x4 x5
      = Stages.finish (F := Ideal) (val_main_v26 (F := Ideal) x0 x1 x2 x3 x4) (val_main_v25 (F := Ideal) x0 x4) x5 := rfl

/-- So the results are equal. -/
theorem result_eq (hg : ∀ q : Fin 6144, Stages.gsq (F := Ideal) P5 (ix2 (0 : Fin 1) q) = val_main_v1 (F := Ideal) x0 (ix1 q))
    (hz : ∀ (k : Fin 128) (q : Fin 6144), Stages.zkg (F := Ideal) P4 (ix2 k q) = val_main_v16 (F := Ideal) x0 x1 x2 x3 (ix2 k q)) :
    Stages.result (F := Ideal) P4 P5 (Stages.mbph (F := Ideal) x2 x3) x4 x5 = val_main_v47 (F := Ideal) x0 x1 x2 x3 x4 x5 := by
  rw [ref_finish]
  unfold Stages.result
  rw [meanBeta_eq x0 x1 x2 x3 x4 P4 P5 hg hz, varBeta_eq x0 x4 P5 hg]

end Cert.Bridge

end
-- ==== Proof.FinalKI.lean ====
/-
  The kernel's two accumulated sums are the reference's sums, so the two programs' results are equal: the kernel's
  final partial-sum arrays (one slab per core, each the sum of its sweep's sixteen stripes) added over the two cores run
  over all 16384 rows, the computed operands the region is entered with are the reference's `mean_beta * p_hat^T` and
  column means, and the rest of both programs is the same function of these.
-/
import proofs.«139444_j26594437497073_2_alg».proof.Proof.BridgeKI

set_option maxRecDepth 16384

noncomputable section

namespace Cert.Bridge

open Cert.KernelIdeal Cert.KernelIdeal.Gen Cert.KernelIdeal.Around Cert.KernelIdeal.Accum
open Idealize.ShloMosaic Idealize.ShloMosaic.ValueIdx Idealize.ShloMosaic.TcCoe Idealize.SL.Sem
open Cert.ReferenceIdeal.Read (val_main_v1 val_main_v3 val_main_v7 val_main_v16 val_main_v47)

variable (m : (ℓ : Loc nD τ sig) → Buf (Elt Ideal) ℓ) (c : Dev nD)

/-- The kernel's column sums of squares are the reference's. -/
theorem kernel_gsq (q : Fin 6144) :
    Stages.gsq (F := Ideal) (P5fn m c) (ix2 (0 : Fin 1) q) = val_main_v1 (F := Ideal) (m ((c : Thread nD τ).loc main_arg0)) (ix1 q) := by
  rw [gsq_rows, ref_gsq]; rfl

/-- The kernel's residual^T G is the reference's. -/
theorem kernel_zkg (k : Fin 128) (q : Fin 6144) :
    Stages.zkg (F := Ideal) (P4fn m c) (ix2 k q)
      = val_main_v16 (F := Ideal) (m ((c : Thread nD τ).loc main_arg0)) (m ((c : Thread nD τ).loc main_arg1))
          (m ((c : Thread nD τ).loc main_arg2)) (m ((c : Thread nD τ).loc main_arg3)) (ix2 k q) := by
  rw [zkg_rows, ref_zkg]
  refine Finset.sum_congr rfl fun n _ => ?_
  unfold rowTerm
  have eB : MB m c = val_main_v3 (F := Ideal) (m ((c : Thread nD τ).loc main_arg2)) (m ((c : Thread nD τ).loc main_arg3)) :=
    entry_mbph m c
  have eC : CM m c (ix2 (0 : Fin 1) k) = val_main_v7 (F := Ideal) (m ((c : Thread nD τ).loc main_arg1)) (ix1 k) :=
    (congrFun (entry_inter m c) (ix2 (0 : Fin 1) k)).trans (inter_eq _ k)
  rw [eB, eC]

/-- @main's result buffer after the kernel program's run is the reference's result term of the same arguments. -/
theorem kernel_result :
    Pipeline.afterTail₀ cfgs (dats m) 0 (entryVals m) tailOps c main_v40
      = val_main_v47 (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [tail_value, final4, final5]
  exact result_eq _ _ _ _ _ _ (P4fn m c) (P5fn m c) (kernel_gsq m c) (kernel_zkg m c)

end Cert.Bridge

end
-- ==== Proof.lean ====
/-
  The certificate of a fused variational-update kernel against its jnp reference.

  Both programs compute, from the guide matrix `G` (16384 x 6144), `mean_z` `Z` (16384 x 128), `mean_beta`, `p_hat`,
  `tau_beta` and `p`:
      B = mean_beta * p_hat^T,  mean_k = (sum_n Z[n, k]) / 16384,
      gsq[q] = sum_n G[n, q]^2,  ZkG[k, q] = sum_n ((Z[n, k] - sum_j G[n, j] B[j, k]) - mean_k) G[n, q],
      var_beta = 1 / (tau_beta[k] + gsq[q]),  mean_beta_new = (ZkG + B^T * gsq) * var_beta,
      p_hat_new = clip (sigmoid (logit p + (1/2) mean_beta_new^2 / var_beta)),
  and return the stack of `mean_beta_new`, `var_beta`, `p_hat_new`. The reference takes the two sums over all 16384 rows
  at once; the kernel streams `G` once, in 32 stripes of 512 rows split between two core indices, keeping running
  sums in two accumulators that it zeroes at a sweep's first step and copies out at its last, and the host adds the two
  cores' partial sums. At the ideal instance every operation is exact on the extended reals, whose addition is
  commutative and associative (with `0 + x = x`), so the two arrangements of each sum agree; nothing else differs, and
  the precondition (finite inputs) is not used.

  The three frames: each kernel program's run is the pipeline's launch under proof data that name what the two
  accumulators hold after every grid position (Proof/Around*, Run*, Sweep*, RegionRun*), followed by the host operations
  after the region; the reference's is its straight line of host operations. The idealization rewrote no operation,
  so `preserves` has no conjunct.
-/
import proofs.«139444_j26594437497073_2_alg».proof.Defs
import proofs.«139444_j26594437497073_2_alg».proof.Proof.Gen.Kernel
import proofs.«139444_j26594437497073_2_alg».proof.Proof.Gen.Kernel.Skeleton
import proofs.«139444_j26594437497073_2_alg».proof.Proof.Gen.Kernel.Launch
import proofs.«139444_j26594437497073_2_alg».proof.Proof.Gen.Kernel.Points
import proofs.«139444_j26594437497073_2_alg».proof.Proof.Gen.KernelIdeal
import proofs.«139444_j26594437497073_2_alg».proof.Proof.Gen.KernelIdeal.Skeleton
import proofs.«139444_j26594437497073_2_alg».proof.Proof.Gen.KernelIdeal.Launch
import proofs.«139444_j26594437497073_2_alg».proof.Proof.Gen.KernelIdeal.Points
import proofs.«139444_j26594437497073_2_alg».proof.Proof.Gen.ReferenceIdeal
import proofs.«139444_j26594437497073_2_alg».proof.Proof.Gen.Pre_finite_inputs
import proofs.«139444_j26594437497073_2_alg».proof.Proof.Gen.ReferenceIdeal.Run
import proofs.«139444_j26594437497073_2_alg».proof.Proof.Gen.ReferenceIdeal.Read
import proofs.«139444_j26594437497073_2_alg».proof.Proof.RegionRunK
import proofs.«139444_j26594437497073_2_alg».proof.Proof.FinalKI
import Idealize.ShloMosaic.Adequacy
import Idealize.ShloMosaic.Init

noncomputable section

namespace Cert.Proof

open Idealize.ShloMosaic Idealize.ShloMosaic.TcCoe Idealize.SL.Sem

/-- The kernel program as printed runs to the end and leaves its six arguments unchanged. -/
theorem frame_k : Cert.frame_Kernel := fun m ρ _ => Cert.Kernel.Around.frame (F := Bits) m ρ

/-- So does its reading at the ideal instance. -/
theorem frame_ki : Cert.frame_KernelIdeal := fun m ρ _ => Cert.KernelIdeal.Around.frame (F := Ideal) m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal instance, from memories agreeing on the arguments, both programs end with the reference's result term
    of those arguments: the kernel by its run and the equality of its accumulated sums with the reference's sums, the
    reference by its own run. -/
theorem algebraic : Cert.algebraic_KernelIdeal_ReferenceIdeal := by
  intro m ρ m' ρ' _ hagree
  refine ⟨fun c => Cert.ReferenceIdeal.Read.val_main_v47 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c =>
      ⟨((h c).2 Cert.KernelIdeal.main_v40 (Pipeline.mem_restRefs_of Cert.KernelIdeal.main_v40 (by decide) (by decide))).trans
          (Cert.Bridge.kernel_result m c),
        Cert.KernelIdeal.Around.args_kept m (Cert.KernelIdeal.Around.dats m) (Cert.KernelIdeal.Around.A_eq m) r h c⟩)
      (Cert.KernelIdeal.Around.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v47_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
